-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  IdealRules.named_const.Statement Cert.KernelIdeal.κ "inv_1000000000000" .f32 0x2B8CBCCC#32 ((1 / 1000000000000 : ℝ) : EReal)

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v11)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v11) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v36) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x128 : Shape := ⟨2, ![4096, 128]⟩
abbrev S8192 : Shape := ⟨1, ![8192]⟩
abbrev S8192x1 : Shape := ⟨2, ![8192, 1]⟩
abbrev S1x8192 : Shape := ⟨2, ![1, 8192]⟩
abbrev S8192x8192 : Shape := ⟨2, ![8192, 8192]⟩
abbrev S_ : Shape := ⟨0, ![]⟩
abbrev S4096 : Shape := ⟨1, ![4096]⟩

class Facts : Prop where
  bcast_S8192_S8192x1_0 : S8192.BroadcastsInDim S8192x1 (![0] : Fin 1 → Fin S8192x1.rank)
  bcast_S8192_S1x8192_1 : S8192.BroadcastsInDim S1x8192 (![1] : Fin 1 → Fin S1x8192.rank)
  bcast_S8192x1_S8192x8192_0_1 : S8192x1.BroadcastsInDim S8192x8192 (![0, 1] : Fin 2 → Fin S8192x8192.rank)
  bcast_S1x8192_S8192x8192_0_1 : S1x8192.BroadcastsInDim S8192x8192 (![0, 1] : Fin 2 → Fin S8192x8192.rank)
  bcast_S_S4096x128 : S_.BroadcastsInDim S4096x128 (![] : Fin 0 → Fin S4096x128.rank)
  reducesTo_S4096x128_S_d0_1 : S4096x128.ReducesTo [0, 1] S_
  h_S_ : 0 < S_.numel
  reducesTo_S4096x128_S4096_d1 : S4096x128.ReducesTo [1] S4096
  bcast_S_S4096 : S_.BroadcastsInDim S4096 (![] : Fin 0 → Fin S4096.rank)
  reducesTo_S4096_S_d0 : S4096.ReducesTo [0] S_
  reducesTo_S8192x8192_S8192_d1 : S8192x8192.ReducesTo [1] S8192
  reducesTo_S8192_S_d0 : S8192.ReducesTo [0] S_

variable [Facts]

def fn_part1 {F : FTy → Type} [FloatOps F] (main_arg0 : FVec F S4096x128 .f32) (main_arg1 : FVec F S4096x128 .f32) (main_v11 : IVec S8192x8192 1) (main_v15 : IVec S_ 1) (main_v19 : IVec S_ 1) : IVec S_ 1 :=
  let main_v20 : IVec S_ 1 := andi main_v15 main_v19
  let main_v21 : FVec F S4096x128 .f32 := mulf main_arg0 main_arg0
  let main_cst_2 : FVec F S_ .f32 := constant S_ .f32 0x00000000#32
  let main_v22 : FVec F S4096 .f32 := (fun x v => Host.reduceAdd x v reducesTo_S4096x128_S4096_d1 h_S_) main_v21 main_cst_2
  let main_cst_3 : FVec F S_ .f32 := constant S_ .f32 0x00000000#32
  let main_v23 : FVec F S4096 .f32 := broadcastInDim S4096 ![] bcast_S_S4096 main_cst_3
  let main_v24 : IVec S4096 1 := cmpf .ogt main_v22 main_v23
  let main_c_4 : IVec S_ 1 := constantI S_ 1 1#1
  let main_v25 : IVec S_ 1 := (fun x v => Host.reduce IntOp.andi x v reducesTo_S4096_S_d0 h_S_) main_v24 main_c_4
  let main_v26 : IVec S_ 1 := andi main_v20 main_v25
  let main_v27 : FVec F S4096x128 .f32 := mulf main_arg1 main_arg1
  let main_cst_5 : FVec F S_ .f32 := constant S_ .f32 0x00000000#32
  let main_v28 : FVec F S4096 .f32 := (fun x v => Host.reduceAdd x v reducesTo_S4096x128_S4096_d1 h_S_) main_v27 main_cst_5
  let main_cst_6 : FVec F S_ .f32 := constant S_ .f32 0x00000000#32
  let main_v29 : FVec F S4096 .f32 := broadcastInDim S4096 ![] bcast_S_S4096 main_cst_6
  let main_v30 : IVec S4096 1 := cmpf .ogt main_v28 main_v29
  let main_c_7 : IVec S_ 1 := constantI S_ 1 1#1
  let main_v31 : IVec S_ 1 := (fun x v => Host.reduce IntOp.andi x v reducesTo_S4096_S_d0 h_S_) main_v30 main_c_7
  let main_v32 : IVec S_ 1 := andi main_v26 main_v31
  let main_c_8 : IVec S_ 1 := constantI S_ 1 0#1
  let main_v33 : IVec S8192 1 := (fun x v => Host.reduce IntOp.ori x v reducesTo_S8192x8192_S8192_d1 h_S_) main_v11 main_c_8
  let main_c_9 : IVec S_ 1 := constantI S_ 1 1#1
  let main_v34 : IVec S_ 1 := (fun x v => Host.reduce IntOp.andi x v reducesTo_S8192_S_d0 h_S_) main_v33 main_c_9
  let main_v35 : IVec S_ 1 := andi main_v32 main_v34
  main_v35

def fn {F : FTy → Type} [FloatOps F] (main_arg0 : FVec F S4096x128 .f32) (main_arg1 : FVec F S4096x128 .f32) (main_arg2 : IVec S8192 32) : IVec S_ 1 :=
  let main_v0 : IVec S8192 32 := iotaInDim S8192 32 0
  let main_v1 : IVec S8192x1 32 := broadcastInDim S8192x1 ![0] bcast_S8192_S8192x1_0 main_arg2
  let main_v2 : IVec S1x8192 32 := broadcastInDim S1x8192 ![1] bcast_S8192_S1x8192_1 main_arg2
  let main_v3 : IVec S8192x8192 32 := broadcastInDim S8192x8192 ![0, 1] bcast_S8192x1_S8192x8192_0_1 main_v1
  let main_v4 : IVec S8192x8192 32 := broadcastInDim S8192x8192 ![0, 1] bcast_S1x8192_S8192x8192_0_1 main_v2
  let main_v5 : IVec S8192x8192 1 := cmpi .eq main_v3 main_v4
  let main_v6 : IVec S8192x1 32 := broadcastInDim S8192x1 ![0] bcast_S8192_S8192x1_0 main_v0
  let main_v7 : IVec S1x8192 32 := broadcastInDim S1x8192 ![1] bcast_S8192_S1x8192_1 main_v0
  let main_v8 : IVec S8192x8192 32 := broadcastInDim S8192x8192 ![0, 1] bcast_S8192x1_S8192x8192_0_1 main_v6
  let main_v9 : IVec S8192x8192 32 := broadcastInDim S8192x8192 ![0, 1] bcast_S1x8192_S8192x8192_0_1 main_v7
  let main_v10 : IVec S8192x8192 1 := cmpi .ne main_v8 main_v9
  let main_v11 : IVec S8192x8192 1 := andi main_v5 main_v10
  let main_v12 : FVec F S4096x128 .f32 := Host.absf main_arg0
  let main_cst : FVec F S_ .f32 := constant S_ .f32 0x7F800000#32
  let main_v13 : FVec F S4096x128 .f32 := broadcastInDim S4096x128 ![] bcast_S_S4096x128 main_cst
  let main_v14 : IVec S4096x128 1 := cmpf .olt main_v12 main_v13
  let main_c : IVec S_ 1 := constantI S_ 1 1#1
  let main_v15 : IVec S_ 1 := (fun x v => Host.reduce IntOp.andi x v reducesTo_S4096x128_S_d0_1 h_S_) main_v14 main_c
  let main_v16 : FVec F S4096x128 .f32 := Host.absf main_arg1
  let main_cst_0 : FVec F S_ .f32 := constant S_ .f32 0x7F800000#32
  let main_v17 : FVec F S4096x128 .f32 := broadcastInDim S4096x128 ![] bcast_S_S4096x128 main_cst_0
  let main_v18 : IVec S4096x128 1 := cmpf .olt main_v16 main_v17
  let main_c_1 : IVec S_ 1 := constantI S_ 1 1#1
  let main_v19 : IVec S_ 1 := (fun x v => Host.reduce IntOp.andi x v reducesTo_S4096x128_S_d0_1 h_S_) main_v18 main_c_1
  fn_part1 (F := F) main_arg0 main_arg1 main_v11 main_v15 main_v19
-- ==== Kernel.lean ====
abbrev S4096x128 : Shape := ⟨2, ![4096, 128]⟩
abbrev S8192 : Shape := ⟨1, ![8192]⟩
abbrev S_ : Shape := ⟨0, ![]⟩
abbrev S4096 : Shape := ⟨1, ![4096]⟩
abbrev S4096x1 : Shape := ⟨2, ![4096, 1]⟩
abbrev S8192x128 : Shape := ⟨2, ![8192, 128]⟩
abbrev S8192x1 : Shape := ⟨2, ![8192, 1]⟩
abbrev S1x8192 : Shape := ⟨2, ![1, 8192]⟩
abbrev S1024x128 : Shape := ⟨2, ![1024, 128]⟩
abbrev S1024x1 : Shape := ⟨2, ![1024, 1]⟩
abbrev S1x1024 : Shape := ⟨2, ![1, 1024]⟩
abbrev S128x1024 : Shape := ⟨2, ![128, 1024]⟩
abbrev S1024x1024 : Shape := ⟨2, ![1024, 1024]⟩
abbrev S1024 : Shape := ⟨1, ![1024]⟩

abbrev nBuf : Space → Nat
  | .hbm => 25
  | .vmem => 12
  | .smem => 0
  | _ => 0

abbrev bufTy : (tb : Table) → Fin (tcTables nBuf tb) → BufTy
  | .hbm, ⟨0, _⟩ => ⟨S4096x128, .f32⟩
  | .hbm, ⟨1, _⟩ => ⟨S4096x128, .f32⟩
  | .hbm, ⟨2, _⟩ => ⟨S8192, .i32⟩
  | .hbm, ⟨3, _⟩ => ⟨S4096x128, .f32⟩
  | .hbm, ⟨4, _⟩ => ⟨S_, .f32⟩
  | .hbm, ⟨5, _⟩ => ⟨S4096, .f32⟩
  | .hbm, ⟨6, _⟩ => ⟨S4096x1, .f32⟩
  | .hbm, ⟨7, _⟩ => ⟨S4096x1, .f32⟩
  | .hbm, ⟨8, _⟩ => ⟨S4096x128, .f32⟩
  | .hbm, ⟨9, _⟩ => ⟨S4096x128, .f32⟩
  | .hbm, ⟨10, _⟩ => ⟨S4096x128, .f32⟩
  | .hbm, ⟨11, _⟩ => ⟨S_, .f32⟩
  | .hbm, ⟨12, _⟩ => ⟨S4096, .f32⟩
  | .hbm, ⟨13, _⟩ => ⟨S4096x1, .f32⟩
  | .hbm, ⟨14, _⟩ => ⟨S4096x1, .f32⟩
  | .hbm, ⟨15, _⟩ => ⟨S4096x128, .f32⟩
  | .hbm, ⟨16, _⟩ => ⟨S4096x128, .f32⟩
  | .hbm, ⟨17, _⟩ => ⟨S8192x128, .f32⟩
  | .hbm, ⟨18, _⟩ => ⟨S8192x1, .i32⟩
  | .hbm, ⟨19, _⟩ => ⟨S1x8192, .i32⟩
  | .hbm, ⟨20, _⟩ => ⟨S8192x1, .f32⟩
  | .hbm, ⟨21, _⟩ => ⟨S_, .f32⟩
  | .hbm, ⟨22, _⟩ => ⟨S_, .f32⟩
  | .hbm, ⟨23, _⟩ => ⟨S_, .f32⟩
  | .hbm, ⟨24, _⟩ => ⟨S_, .f32⟩
  | .local _ .vmem, ⟨0, _⟩ => ⟨S1024x128, .f32⟩
  | .local _ .vmem, ⟨1, _⟩ => ⟨S1024x128, .f32⟩
  | .local _ .vmem, ⟨2, _⟩ => ⟨S1024x128, .f32⟩
  | .local _ .vmem, ⟨3, _⟩ => ⟨S1024x128, .f32⟩
  | .local _ .vmem, ⟨4, _⟩ => ⟨S1024x1, .i32⟩
  | .local _ .vmem, ⟨5, _⟩ => ⟨S1024x1, .i32⟩
  | .local _ .vmem, ⟨6, _⟩ => ⟨S1x1024, .i32⟩
  | .local _ .vmem, ⟨7, _⟩ => ⟨S1x1024, .i32⟩
  | .local _ .vmem, ⟨8, _⟩ => ⟨S1024x1, .f32⟩
  | .local _ .vmem, ⟨9, _⟩ => ⟨S1024x1, .f32⟩
  | .local _ .vmem, ⟨10, _⟩ => ⟨S1024x1, .f32⟩
  | .local _ .vmem, ⟨11, _⟩ => ⟨S1024x1, .f32⟩
  | _, _ => ⟨S4096x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_cst : Ref sig .tc := ⟨.hbm, 4, rfl⟩
abbrev main_call0_v1 : Ref sig .tc := ⟨.hbm, 5, rfl⟩
abbrev main_call0_v2 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_call1_v0 : Ref sig .tc := ⟨.hbm, 10, rfl⟩
abbrev main_call1_cst : Ref sig .tc := ⟨.hbm, 11, rfl⟩
abbrev main_call1_v1 : Ref sig .tc := ⟨.hbm, 12, rfl⟩
abbrev main_call1_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_cst : Ref sig .tc := ⟨.hbm, 21, rfl⟩
abbrev main_v10 : Ref sig .tc := ⟨.hbm, 22, rfl⟩
abbrev main_cst_0 : Ref sig .tc := ⟨.hbm, 23, rfl⟩
abbrev main_v11 : Ref sig .tc := ⟨.hbm, 24, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_scratch1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![8, 8], ![false, false]⟩

def k0_cond3 (i : grid0.Coords) : BitVec 1 :=
  let arg1 : BitVec 32 := BitVec.ofNat 32 (i 1).val
  let c7_i32 : BitVec 32 := 7#32
  let v40 : BitVec 1 := Scalar.cmpi .eq arg1 c7_i32
  let v41 : BitVec 32 := Scalar.extui v40
  let c0_i32_21 : BitVec 32 := 0#32
  let v42 : BitVec 1 := Scalar.cmpi .ne v41 c0_i32_21
  v42

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1024 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1024x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

class Facts₀ : Prop where
  reducesTo_S4096x128_S4096_d1 : S4096x128.ReducesTo [1] S4096
  h_S_ : 0 < S_.numel
  bcast_S4096_S4096x1_0 : S4096.BroadcastsInDim S4096x1 (![0] : Fin 1 → Fin S4096x1.rank)
  bcast_S4096x1_S4096x128_0_1 : S4096x1.BroadcastsInDim S4096x128 (![0, 1] : Fin 2 → Fin S4096x128.rank)
  concatenates_S4096x128_S4096x128_S8192x128_d0 : Shape.Concatenates [S4096x128, S4096x128] S8192x128 0
  bcast_S8192_S8192x1_0 : S8192.BroadcastsInDim S8192x1 (![0] : Fin 1 → Fin S8192x1.rank)
  bcast_S8192_S1x8192_1 : S8192.BroadcastsInDim S1x8192 (![1] : Fin 1 → Fin S1x8192.rank)
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  inb_S1024x128_S1024x128_0_0 : ∀ a, (![0, 0] : Fin 2 → Nat) a + S1024x128.size a ≤ S1024x128.size a
  h_S1024x128 : 0 < S1024x128.numel
  shapeCasts_S1024x128_S1024x128 : S1024x128.ShapeCasts S1024x128
  bitsLt_bf16_f32 : FTy.bits .bf16 < FTy.bits .f32
  transposes_S1024x128_p1_0_S128x1024 : S1024x128.Transposes [1, 0] S128x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1024x1_S1024x1024 : S1024x1.Broadcasts S1024x1024
  broadcasts_S1x1024_S1024x1024 : S1x1024.Broadcasts S1024x1024
  reduces_S1024x1024_S1024 : S1024x1024.Reduces [1] S1024
  shapeCasts_S1024_S1024x1 : S1024.ShapeCasts S1024x1
  iota_S1024x1024_d0_w32 : S1024x1024.Iotas .tc 32 [0]
  iota_S1024x1024_d1_w32 : S1024x1024.Iotas .tc 32 [1]
  reducesTo_S8192x1_S_d0_1 : S8192x1.ReducesTo [0, 1] S_
  dot_S1024x128_S128x1024_S1024x1024_1_0_0_1_n_n_wf : DotDims.WF S1024x128 S128x1024 S1024x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x128.size a ≤ S8192x128.size a
  hwx0_0 : ∀ i : grid0.Coords, EltTy.bits .f32 = 32 ∨ (Rect.block (s := S8192x128) S1024x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x128.size a ≤ S8192x128.size a
  hwx0_1 : ∀ i : grid0.Coords, EltTy.bits .f32 = 32 ∨ (Rect.block (s := S8192x128) S1024x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x1.size a ≤ S8192x1.size a
  hwx0_2 : ∀ i : grid0.Coords, EltTy.bits .i32 = 32 ∨ (Rect.block (s := S8192x1) S1024x1.size (cc0_transform_2 i) (hinb0_2 i)).WholeWords (EltTy.packing .i32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1024.size a ≤ S1x8192.size a
  hwx0_3 : ∀ i : grid0.Coords, EltTy.bits .i32 = 32 ∨ (Rect.block (s := S1x8192) S1x1024.size (cc0_transform_3 i) (hinb0_3 i)).WholeWords (EltTy.packing .i32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1024x1.size a ≤ S8192x1.size a
  hwx0_4 : ∀ i : grid0.Coords, EltTy.bits .f32 = 32 ∨ (Rect.block (s := S8192x1) S1024x1.size (cc0_transform_4 i) (hinb0_4 i)).WholeWords (EltTy.packing .f32)

variable [Facts₀]

def dot_S1024x128_S128x1024_S1024x1024_1_0_0_1_n_n : DotDims S1024x128 S128x1024 S1024x1024 where
  lhsContracting := [1]
  rhsContracting := [0]
  lhsNonContracting := [0]
  rhsNonContracting := [1]
  lhsBatch := []
  rhsBatch := []
  wf := dot_S1024x128_S128x1024_S1024x1024_1_0_0_1_n_n_wf

abbrev win0_0 : Pipeline.Window sig grid0 :=
  Pipeline.Window.ofSpec (Memref.whole main_v6) S1024x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v6) S1024x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v7) S1024x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v8) S1x1024.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v9) S1024x1.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev idle0 : Fin 5 → grid0.Coords → Bool := fun | 0 => fun _ => false | 1 => fun _ => false | 2 => fun _ => false | 3 => fun _ => false | 4 => fun i => !(k0_cond3 i == 1#1) | ⟨_ + 5, h⟩ => absurd h (Nat.not_lt.2 (Nat.le_add_left _ _))

class Facts : Prop extends Facts₀ where

variable [Facts]
-- ==== ReferenceIdeal.lean ====
abbrev S4096x128 : Shape := ⟨2, ![4096, 128]⟩
abbrev S8192 : Shape := ⟨1, ![8192]⟩
abbrev S_ : Shape := ⟨0, ![]⟩
abbrev S4096 : Shape := ⟨1, ![4096]⟩
abbrev S4096x1 : Shape := ⟨2, ![4096, 1]⟩
abbrev S8192x128 : Shape := ⟨2, ![8192, 128]⟩
abbrev S128x8192 : Shape := ⟨2, ![128, 8192]⟩
abbrev S8192x8192 : Shape := ⟨2, ![8192, 8192]⟩
abbrev S8192x1 : Shape := ⟨2, ![8192, 1]⟩
abbrev S1x8192 : Shape := ⟨2, ![1, 8192]⟩

abbrev nBuf : Space → Nat
  | .hbm => 54
  | .vmem => 0
  | .smem => 0
  | _ => 0

abbrev bufTy : (tb : Table) → Fin (tcTables nBuf tb) → BufTy
  | .hbm, ⟨0, _⟩ => ⟨S4096x128, .f32⟩
  | .hbm, ⟨1, _⟩ => ⟨S4096x128, .f32⟩
  | .hbm, ⟨2, _⟩ => ⟨S8192, .i32⟩
  | .hbm, ⟨3, _⟩ => ⟨S4096x128, .f32⟩
  | .hbm, ⟨4, _⟩ => ⟨S_, .f32⟩
  | .hbm, ⟨5, _⟩ => ⟨S4096, .f32⟩
  | .hbm, ⟨6, _⟩ => ⟨S4096x1, .f32⟩
  | .hbm, ⟨7, _⟩ => ⟨S4096x1, .f32⟩
  | .hbm, ⟨8, _⟩ => ⟨S4096x128, .f32⟩
  | .hbm, ⟨9, _⟩ => ⟨S4096x128, .f32⟩
  | .hbm, ⟨10, _⟩ => ⟨S4096x128, .f32⟩
  | .hbm, ⟨11, _⟩ => ⟨S_, .f32⟩
  | .hbm, ⟨12, _⟩ => ⟨S4096, .f32⟩
  | .hbm, ⟨13, _⟩ => ⟨S4096x1, .f32⟩
  | .hbm, ⟨14, _⟩ => ⟨S4096x1, .f32⟩
  | .hbm, ⟨15, _⟩ => ⟨S4096x128, .f32⟩
  | .hbm, ⟨16, _⟩ => ⟨S4096x128, .f32⟩
  | .hbm, ⟨17, _⟩ => ⟨S8192x128, .f32⟩
  | .hbm, ⟨18, _⟩ => ⟨S128x8192, .f32⟩
  | .hbm, ⟨19, _⟩ => ⟨S8192x8192, .f32⟩
  | .hbm, ⟨20, _⟩ => ⟨S8192x8192, .i32⟩
  | .hbm, ⟨21, _⟩ => ⟨S8192x8192, .i32⟩
  | .hbm, ⟨22, _⟩ => ⟨S_, .i32⟩
  | .hbm, ⟨23, _⟩ => ⟨S8192x8192, .i32⟩
  | .hbm, ⟨24, _⟩ => ⟨S8192x8192, .i32⟩
  | .hbm, ⟨25, _⟩ => ⟨S8192x8192, .i1⟩
  | .hbm, ⟨26, _⟩ => ⟨S8192x8192, .i1⟩
  | .hbm, ⟨27, _⟩ => ⟨S8192x1, .i32⟩
  | .hbm, ⟨28, _⟩ => ⟨S1x8192, .i32⟩
  | .hbm, ⟨29, _⟩ => ⟨S8192x8192, .i32⟩
  | .hbm, ⟨30, _⟩ => ⟨S8192x8192, .i32⟩
  | .hbm, ⟨31, _⟩ => ⟨S8192x8192, .i1⟩
  | .hbm, ⟨32, _⟩ => ⟨S8192x8192, .i1⟩
  | .hbm, ⟨33, _⟩ => ⟨S8192x8192, .f32⟩
  | .hbm, ⟨34, _⟩ => ⟨S8192x8192, .i1⟩
  | .hbm, ⟨35, _⟩ => ⟨S8192x8192, .i1⟩
  | .hbm, ⟨36, _⟩ => ⟨S8192x8192, .f32⟩
  | .hbm, ⟨37, _⟩ => ⟨S_, .f32⟩
  | .hbm, ⟨38, _⟩ => ⟨S8192x8192, .f32⟩
  | .hbm, ⟨39, _⟩ => ⟨S8192x8192, .f32⟩
  | .hbm, ⟨40, _⟩ => ⟨S8192x8192, .f32⟩
  | .hbm, ⟨41, _⟩ => ⟨S8192x8192, .f32⟩
  | .hbm, ⟨42, _⟩ => ⟨S8192x8192, .f32⟩
  | .hbm, ⟨43, _⟩ => ⟨S8192x8192, .f32⟩
  | .hbm, ⟨44, _⟩ => ⟨S_, .f32⟩
  | .hbm, ⟨45, _⟩ => ⟨S8192, .f32⟩
  | .hbm, ⟨46, _⟩ => ⟨S_, .f32⟩
  | .hbm, ⟨47, _⟩ => ⟨S8192, .f32⟩
  | .hbm, ⟨48, _⟩ => ⟨S8192, .f32⟩
  | .hbm, ⟨49, _⟩ => ⟨S8192, .f32⟩
  | .hbm, ⟨50, _⟩ => ⟨S_, .f32⟩
  | .hbm, ⟨51, _⟩ => ⟨S_, .f32⟩
  | .hbm, ⟨52, _⟩ => ⟨S_, .f32⟩
  | .hbm, ⟨53, _⟩ => ⟨S_, .f32⟩
  | _, _ => ⟨S4096x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_cst : Ref sig .tc := ⟨.hbm, 4, rfl⟩
abbrev main_call0_v1 : Ref sig .tc := ⟨.hbm, 5, rfl⟩
abbrev main_call0_v2 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_call1_v0 : Ref sig .tc := ⟨.hbm, 10, rfl⟩
abbrev main_call1_cst : Ref sig .tc := ⟨.hbm, 11, rfl⟩
abbrev main_call1_v1 : Ref sig .tc := ⟨.hbm, 12, rfl⟩
abbrev main_call1_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_c : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_cst : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_cst_0 : Ref sig .tc := ⟨.hbm, 44, rfl⟩
abbrev main_v31 : Ref sig .tc := ⟨.hbm, 45, rfl⟩
abbrev main_cst_1 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_cst_2 : Ref sig .tc := ⟨.hbm, 50, rfl⟩
abbrev main_v35 : Ref sig .tc := ⟨.hbm, 51, rfl⟩
abbrev main_cst_3 : Ref sig .tc := ⟨.hbm, 52, rfl⟩
abbrev main_v36 : Ref sig .tc := ⟨.hbm, 53, rfl⟩

abbrev nD : Nat := 1
abbrev τ : Topo := Topo.v7x

variable {F : FTy → Type} [FloatOps F]

class Facts₀ : Prop where
  reducesTo_S4096x128_S4096_d1 : S4096x128.ReducesTo [1] S4096
  h_S_ : 0 < S_.numel
  bcast_S4096_S4096x1_0 : S4096.BroadcastsInDim S4096x1 (![0] : Fin 1 → Fin S4096x1.rank)
  bcast_S4096x1_S4096x128_0_1 : S4096x1.BroadcastsInDim S4096x128 (![0, 1] : Fin 2 → Fin S4096x128.rank)
  concatenates_S4096x128_S4096x128_S8192x128_d0 : Shape.Concatenates [S4096x128, S4096x128] S8192x128 0
  transposes_S8192x128_S128x8192_1_0 : S8192x128.Transposes [1, 0] S128x8192
  bcast_S_S8192x8192 : S_.BroadcastsInDim S8192x8192 (![] : Fin 0 → Fin S8192x8192.rank)
  bcast_S8192_S8192x1_0 : S8192.BroadcastsInDim S8192x1 (![0] : Fin 1 → Fin S8192x1.rank)
  bcast_S8192_S1x8192_1 : S8192.BroadcastsInDim S1x8192 (![1] : Fin 1 → Fin S1x8192.rank)
  bcast_S8192x1_S8192x8192_0_1 : S8192x1.BroadcastsInDim S8192x8192 (![0, 1] : Fin 2 → Fin S8192x8192.rank)
  bcast_S1x8192_S8192x8192_0_1 : S1x8192.BroadcastsInDim S8192x8192 (![0, 1] : Fin 2 → Fin S8192x8192.rank)
  reducesTo_S8192x8192_S8192_d1 : S8192x8192.ReducesTo [1] S8192
  reducesTo_S8192_S_d0 : S8192.ReducesTo [0] S_
  dot_S8192x128_S128x8192_S8192x8192_1_0_0_1_n_n_wf : DotDims.WF S8192x128 S128x8192 S8192x8192 [1] [0] [0] [1] [] []

variable [Facts₀]

def dot_S8192x128_S128x8192_S8192x8192_1_0_0_1_n_n : DotDims S8192x128 S128x8192 S8192x8192 where
  lhsContracting := [1]
  rhsContracting := [0]
  lhsNonContracting := [0]
  rhsNonContracting := [1]
  lhsBatch := []
  rhsBatch := []
  wf := dot_S8192x128_S128x8192_S8192x8192_1_0_0_1_n_n_wf

class Facts : Prop extends Facts₀ where

variable [Facts]
-- ==== Proof.IdealBoundary.lean ====
/-
  The program around its one kernel region: host lines (each argument's rows divided by their lengths, the
  two results stacked, the labels laid out as a column and as a row), the kernel region, host lines (the sum
  of the region's result divided by 16384). This module names the contents of a core's buffers at the
  boundaries — `W0` at the start, `W1` where the region is entered, `W2` where it is left (the region's
  result array at what the write-backs made of it, everything else as entered), `W3` at the end — and states
  what the run uses of the region's proof data (`DatFacts`).
-/
import proofs.«161181_j22351009808686_2_alg».proof.Proof.Gen.KernelIdeal.Launch
import proofs.«161181_j22351009808686_2_alg».proof.Proof.Gen.KernelIdeal.Points
import Idealize.ShloMosaic.Lib.Pipeline.FrameSuffix
import Idealize.ShloMosaic.Lib.Pipeline.RegionsLoop
import Idealize.ShloMosaic.Lib.Ring
import Idealize.ShloMosaic.Lib.Tactic

set_option maxRecDepth 16384

noncomputable section

namespace Cert.KernelIdeal.Launch

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-- The contents of a core's buffers at the region's entry, as the region's proof data take them. -/
abbrev Entry (F : FTy → Type) := (c : Dev nD) → (b : Ref sig .tc) → Buf (Elt F) ((c : Thread nD τ).loc b)

/-- What the run uses of the region's proof data: the arrays' entry contents are the entry contents; the two
    windows on the stacked rows hold a half share each, the label windows the full share; the body owes no
    other core anything, bounds nothing it records, and meets its obligation at every point; the invariant takes the generator register
    and the two scratch buffers in at the first point and gives them back after the last. -/
structure DatFacts (dat : (c : Dev nD) → Dat τ (Elt F) Unit ℕ (UR sig nD τ) ℕ cfg0 c) (V : Entry F) : Prop where
  A_eq : ∀ c w, (dat c).A w = V c (Pipeline.arrRef spec0 w)
  q0 : ∀ c, (dat c).q 0 = fullShare.left
  q1 : ∀ c, (dat c).q 1 = fullShare.right
  q2 : ∀ c, (dat c).q 2 = fullShare
  q3 : ∀ c, (dat c).q 3 = fullShare
  owed : ∀ c t, (dat c).owed t = 0
  recorded : ∀ c t, (dat c).recorded t = Set.univ
  body : ∀ c, Pipeline.BodyObligationLoose (dat c) defs₀ Variants.none () Set.univ
  hin : ∀ c, iprop((∃ r, prngReg c r) ∗ Pipeline.scopedRest (Ix := Unit) (Name := ℕ) (U := UR sig nD τ) (Lvl := ℕ) (Val := Elt F) spec0 c) ⊢ (dat c).Φ 0
  hout : ∀ c, (dat c).Φ (Fin.last cfg0.N) ⊢ iprop((∃ r, prngReg c r) ∗ Pipeline.scopedRest (Ix := Unit) (Name := ℕ) (U := UR sig nD τ) (Lvl := ℕ) (Val := Elt F) spec0 c)

variable (m : (ℓ : Loc nD τ sig) → Buf (Elt F) ℓ) (ρ : Dev nD → PrngReg)

/-! ## The buffers' contents at the boundaries -/

/-- At the start. -/
abbrev W0 : Dev nD → Valuation τ sig (Elt F) := fun c b => (s₀ m ρ).mem ((c : Dev nD), b)
/-- After the first argument's row lengths, -/
abbrev Wa : Dev nD → Valuation τ sig (Elt F) := fun c => StableHlo.after hostOps0 (W0 m ρ c)
/-- its rows divided by them, -/
abbrev Wb : Dev nD → Valuation τ sig (Elt F) := fun c => StableHlo.after hostOps0_1 (Wa m ρ c)
/-- the second argument's row lengths, -/
abbrev Wc : Dev nD → Valuation τ sig (Elt F) := fun c => StableHlo.after hostOps0_2 (Wb m ρ c)
/-- and its rows divided, the stack, the labels' column and row: where the region is entered. -/
abbrev W1 : Dev nD → Valuation τ sig (Elt F) := fun c => StableHlo.after hostOps0_3 (Wc m ρ c)
/-- The same read at the TensorCore's references. -/
abbrev V1 : Entry F := fun c b => W1 m ρ c b

variable (dat : (c : Dev nD) → Dat τ (Elt F) Unit ℕ (UR sig nD τ) ℕ cfg0 c)

/-- Where the region is left: its result array at what the write-backs made of it, every other buffer as entered. -/
def W2 (c : Dev nD) : Valuation τ sig (Elt F) := fun b =>
  open Classical in
  if h : Proc.devRef .tc main_v9 = b then cast (congrArg (fun b' : DevRef τ sig => b'.ty.Contents (Elt F)) h) ((dat c).arrAt 4 cfg0.N)
  else W1 m ρ c b

theorem W2_result (c : Dev nD) : W2 m ρ dat c (Proc.devRef .tc main_v9) = (dat c).arrAt 4 cfg0.N := by
  unfold W2; rw [dif_pos rfl]; rfl

theorem W2_of_ne (c : Dev nD) (b : Ref sig .tc) (hb : main_v9 ≠ b) :
    W2 m ρ dat c (Proc.devRef .tc b) = W1 m ρ c (Proc.devRef .tc b) := by
  unfold W2; rw [dif_neg]; intro e; exact hb (Proc.devRef_injective _ e)

/-- The same read at the TensorCore's references. -/
abbrev V2 : Entry F := fun c b => W2 m ρ dat c b
/-- At the end. -/
abbrev W3 : Dev nD → Valuation τ sig (Elt F) := fun c => StableHlo.after hostOps1 (W2 m ρ dat c)

end Cert.KernelIdeal.Launch

end
-- ==== Proof.IdealLaunch.lean ====
/-
  The run of the whole program around its one kernel region, for ANY proof data of the region.

  The region's windows 0 and 1 are blocks of ONE array, the stacked rows; so at the region's entry that
  array's points-to is cut into two half shares, one per window, and the halves are joined again at the
  exit. Everything else the core holds goes round the region untouched; the two scratch accumulators and
  the generator register go through the region's invariant. The host lines before and after the region run
  as they stand. The final state is read against the contents named at the last boundary.
-/
import proofs.«161181_j22351009808686_2_alg».proof.Proof.IdealBoundary

set_option maxRecDepth 16384

noncomputable section

namespace Cert.KernelIdeal.Launch

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)
variable (dat : (c : Dev nD) → Dat τ (Elt F) Unit ℕ (UR sig nD τ) ℕ cfg0 c)

/-! ## The stacked rows' array cut in two at the entry and joined at the exit -/

/-- The four buffers behind the five windows. -/
theorem arrRefs_eq : (Finset.univ.image (Pipeline.arrRef spec0) : Finset (Ref sig .tc)) = [main_v6, main_v7, main_v8, main_v9].toFinset := by decide

/-- A conjunction over those four buffers, one by one. -/
theorem bigSep_arrRefs {M : Type} [URA M] (Φ : Ref sig .tc → sProp M) :
    bigSep (Finset.univ.image (Pipeline.arrRef spec0)) Φ = iprop(Φ main_v6 ∗ Φ main_v7 ∗ Φ main_v8 ∗ Φ main_v9) :=
  bigSep_eq_bigSepL_of_eq [main_v6, main_v7, main_v8, main_v9] arrRefs_eq (by decide) Φ

variable {dat} in
/-- At the entry: the four buffers, whole, make the five windows' arrays, the stacked rows' one as two halves. -/
theorem arrays_of_bufs (V : Entry F) (hd : DatFacts dat V) (c : Dev nD) :
    (Pipeline.arrBufs (Ix := Unit) (Name := ℕ) (U := UR sig nD τ) (Lvl := ℕ) spec0 c (V c) : sProp 𝕄) ⊢ (dat c).arrays ((dat c).arrAt · 0) := by
  unfold Pipeline.arrBufs Pipeline.Dat.arrays
  rw [bigSep_arrRefs, bigSep_W0]
  have s0 : (dat c).share 0 = fullShare.left := by unfold Pipeline.Dat.share; rw [if_neg (by decide)]; exact hd.q0 c
  have s1 : (dat c).share 1 = fullShare.right := by unfold Pipeline.Dat.share; rw [if_neg (by decide)]; exact hd.q1 c
  have s2 : (dat c).share 2 = fullShare := by unfold Pipeline.Dat.share; rw [if_neg (by decide)]; exact hd.q2 c
  have s3 : (dat c).share 3 = fullShare := by unfold Pipeline.Dat.share; rw [if_neg (by decide)]; exact hd.q3 c
  have s4 : (dat c).share 4 = fullShare := by unfold Pipeline.Dat.share; rw [if_pos (by decide)]
  have e (w : Fin 5) : (View.loc c.tc (cfg0.win w).arr.view ↦[(cfg0.win w).arr.view.set]{(dat c).share w} (dat c).arrAt w 0 : sProp 𝕄)
      = (c.tc.loc (Pipeline.arrRef spec0 w) ↦{(dat c).share w} V c (Pipeline.arrRef spec0 w)) := by
    rw [(arr_whole0 w).set_eq_univ]
    exact congrArg _ (hd.A_eq c w)
  show _ ⊢ iprop(_ ∗ _ ∗ _ ∗ _ ∗ _)
  rw [e 0, e 1, e 2, e 3, e 4, s0, s1, s2, s3, s4]
  iintro ⟨H6, H7, H8, H9⟩
  ihave Hab := (pointsTo_share (PosShare.mem_left_op_right fullShare)).1 $$ H6
  icases Hab with ⟨Ha, Hb⟩
  isplitl [Ha]; · iexact Ha
  isplitl [Hb]; · iexact Hb
  isplitl [H7]; · iexact H7
  isplitl [H8]; · iexact H8
  iexact H9

variable {dat} in
/-- At the exit: the five windows' arrays at what the region left — the inputs as entered, the result at its
    write-backs —, the two halves joined, are the four buffers whole at the exit contents. -/
theorem bufs_of_arrays (hd : DatFacts dat (V1 m ρ)) (c : Dev nD) :
    (dat c).arrays ((dat c).arrAt · cfg0.N) ⊢ (Pipeline.arrBufs (Ix := Unit) (Name := ℕ) (U := UR sig nD τ) (Lvl := ℕ) spec0 c (V2 m ρ dat c) : sProp 𝕄) := by
  unfold Pipeline.arrBufs Pipeline.Dat.arrays
  rw [bigSep_arrRefs, bigSep_W0]
  have s0 : (dat c).share 0 = fullShare.left := by unfold Pipeline.Dat.share; rw [if_neg (by decide)]; exact hd.q0 c
  have s1 : (dat c).share 1 = fullShare.right := by unfold Pipeline.Dat.share; rw [if_neg (by decide)]; exact hd.q1 c
  have s2 : (dat c).share 2 = fullShare := by unfold Pipeline.Dat.share; rw [if_neg (by decide)]; exact hd.q2 c
  have s3 : (dat c).share 3 = fullShare := by unfold Pipeline.Dat.share; rw [if_neg (by decide)]; exact hd.q3 c
  have s4 : (dat c).share 4 = fullShare := by unfold Pipeline.Dat.share; rw [if_pos (by decide)]
  have e (w : Fin 5) (hw : (cfg0.win w).isOut = false) : (View.loc c.tc (cfg0.win w).arr.view ↦[(cfg0.win w).arr.view.set]{(dat c).share w} (dat c).arrAt w cfg0.N : sProp 𝕄)
      = (c.tc.loc (Pipeline.arrRef spec0 w) ↦{(dat c).share w} V1 m ρ c (Pipeline.arrRef spec0 w)) := by
    rw [(arr_whole0 w).set_eq_univ]
    exact congrArg _ (((dat c).arrAt_in w hw _).trans (hd.A_eq c w))
  have e4 : (View.loc c.tc (cfg0.win 4).arr.view ↦[(cfg0.win 4).arr.view.set]{(dat c).share 4} (dat c).arrAt 4 cfg0.N : sProp 𝕄)
      = (c.tc.loc main_v9 ↦{(dat c).share 4} V2 m ρ dat c main_v9) := by
    rw [(arr_whole0 4).set_eq_univ]
    exact congrArg _ (W2_result m ρ dat c).symm
  have v6 : V2 m ρ dat c main_v6 = V1 m ρ c main_v6 := W2_of_ne m ρ dat c main_v6 (by decide)
  have v7 : V2 m ρ dat c main_v7 = V1 m ρ c main_v7 := W2_of_ne m ρ dat c main_v7 (by decide)
  have v8 : V2 m ρ dat c main_v8 = V1 m ρ c main_v8 := W2_of_ne m ρ dat c main_v8 (by decide)
  show iprop(_ ∗ _ ∗ _ ∗ _ ∗ _) ⊢ _
  rw [e 0 rfl, e 1 rfl, e 2 rfl, e 3 rfl, e4, s0, s1, s2, s3, s4, v6, v7, v8]
  iintro ⟨Ha, Hb, H7, H8, H9⟩
  isplitl [Ha Hb]
  · iapply (pointsTo_share (PosShare.mem_left_op_right fullShare)).2
    isplitl [Ha] <;> iassumption
  isplitl [H7]; · iexact H7
  isplitl [H8]; · iexact H8
  iexact H9

/-! ## The proof data family, the thread state, the segments -/

/-- The pipeline prefetches no table. -/
abbrev adm : (p : Fin 1) → (pcfgs (F := F) p).Adm := fun p => (cfgs p).toPCfg_adm
/-- The one pipeline's proof data. -/
abbrev pdats : (p : Fin 1) → (c : Dev nD) → Dat τ (Elt F) Unit ℕ (UR sig nD τ) ℕ (Pipeline.pin (pcfgs (F := F)) adm p) c :=
  fun _ c => dat c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the generator register at some state and the core
    owing nothing. -/
abbrev R (c : Dev nD) : sProp 𝕄 := iprop((∃ r, prngReg c r) ∗ ∃ W, owes (c : Thread nD τ) (0 : CellTallies nD τ sig Unit) W)
/-- A stretch of host lines as a segment over the unscoped buffers from the contents `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor
theorem hostOps0_3_fresh : (hostOps0_3 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

variable {dat}

set_option backward.isDefEq.respectTransparency.types false in
/-- The kernel region over the thread state: entered from every unscoped buffer at `W1`, left at `W2`. Its arrays
    are cut out of the unscoped buffers (the stacked rows' array into two halves) and put back at the exit; the
    generator register and the scratch buffers go through the invariant; nothing is owed; the kernel has no
    semaphore of its own. -/
def reg0 (hd : DatFacts dat (V1 m ρ)) : Pipeline.RegionSeg (pcfgs (F := F)) adm (pdats dat) () defs₀ 𝒱₀ L lv 0 where
  win := winFacts₀0
  block_pos := block_pos0
  stage_whole := stage_whole0
  K := PEmpty
  osem k := k.elim
  ho := Pipeline.OwnSemFacts.none _
  hbody c := hd.body c
  hwaits := Pipeline.hwaits_of_owed_zero _ _ _ _ L lv 0 fun c t => hd.owed c t
  pre c := iprop(StableHlo.held (c : Thread nD τ) (Pipeline.ucRefs τ sig) (W1 m ρ c) ∗ R c)
  post c := iprop(StableHlo.held (c : Thread nD τ) (Pipeline.ucRefs τ sig) (W2 m ρ dat c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit : (unscopedBufs (Ix := Unit) (Name := ℕ) (U := UR sig nD τ) (Lvl := ℕ) c (V1 m ρ c) : sProp 𝕄)
        ⊢ iprop((dat c).arrays ((dat c).arrAt · 0) ∗ Pipeline.unscopedRest spec0 c (V1 m ρ c)) := by
      rw [Pipeline.unscopedBufs_split₀ cfgs 0 winFacts₀0.arr_unscoped c (V1 m ρ c)]
      exact sep_mono (arrays_of_bufs (V1 m ρ) hd c) .rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      rw [show (dat c).owed 0 = 0 from hd.owed c 0]
      icases HO with ⟨%W, HO⟩; iexists W; isplitr
      · ipureintro; exact fun x _ => Or.inl (show x ∈ (dat c).recorded 0 by rw [hd.recorded c 0]; exact Set.mem_univ x)
      iexact HO
    isplitl [Hp]; · iexact Hp
    iexact Hrest
  hin c := by
    show _ ⊢ (dat c).Φ 0
    iintro ⟨Hp, -, Hr⟩
    iapply (hd.hin c)
    isplitl [Hp] <;> iassumption
  hout c := by
    rw [Pipeline.ownSems0_none]
    show (dat c).Φ (Fin.last cfg0.N) ⊢ _
    refine (hd.hout c).trans ?_
    iintro ⟨Hp, Hr⟩
    isplitl [Hp]; · iexact Hp
    isplitr; · iempintro
    iexact Hr
  hexit c := by
    have hjoin : iprop((dat c).arrays ((dat c).arrAt · cfg0.N) ∗ Pipeline.unscopedRest spec0 c (V1 m ρ c))
        ⊢ (unscopedBufs (Ix := Unit) (Name := ℕ) (U := UR sig nD τ) (Lvl := ℕ) c (V2 m ρ dat c) : sProp 𝕄) := by
      rw [Pipeline.unscopedBufs_split₀ cfgs 0 winFacts₀0.arr_unscoped c (V2 m ρ dat c)]
      refine sep_mono (bufs_of_arrays m ρ hd c) (Entails.of_eq ?_)
      unfold Pipeline.unscopedRest
      exact bigSep_congr fun b hb => by
        rw [show V2 m ρ dat c b = V1 m ρ c b from W2_of_ne m ρ dat c b fun e =>
          (Finset.mem_sdiff.mp hb).2 (e ▸ Finset.mem_image.mpr ⟨4, Finset.mem_univ _, rfl⟩)]
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    rw [show (dat c).owed (Fin.last cfg0.N) = 0 from hd.owed c _]
    icases HO with ⟨%W, -, HO⟩; iexists W; iexact HO

/-- The program's six segments in order: four stretches of host lines, the region, the last stretch. -/
abbrev segs (hd : DatFacts dat (V1 m ρ)) : List (Pipeline.Seg (pcfgs (F := F)) adm (pdats dat) () defs₀ 𝒱₀ L lv) :=
  [ .host (hseg hostOps0 hostOps0_sub hostOps0_fresh (W0 m ρ)),
    .host (hseg hostOps0_1 hostOps0_1_sub hostOps0_1_fresh (Wa m ρ)),
    .host (hseg hostOps0_2 hostOps0_2_sub hostOps0_2_fresh (Wb m ρ)),
    .host (hseg hostOps0_3 hostOps0_3_sub hostOps0_3_fresh (Wc m ρ)),
    .region (reg0 m ρ hd),
    .host (hseg hostOps1 hostOps1_sub hostOps1_fresh (W2 m ρ dat)) ]

/-- The program is the run of its segments. -/
theorem main_run (hd : DatFacts dat (V1 m ρ)) (c : Dev nD) : main (F := F) c = Pipeline.Seg.run (segs m ρ hd) :=
  (main_chain c).trans (by chain_rfl)

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-- The last thread state without what the core owes: every unscoped buffer at `W3`, the generator register. -/
abbrev Tₙ (c : Dev nD) : sProp 𝕄 := iprop(StableHlo.held (c : Thread nD τ) (Pipeline.ucRefs τ sig) (W3 m ρ dat c) ∗ ∃ r, prngReg c r)

set_option backward.isDefEq.respectTransparency.types false in
/-- THE RUN: from any memory with the counters at zero, every weakly fair execution of the program on the
    TensorCores terminates, nothing faulting, and in the final state every unscoped buffer holds `W3`. -/
theorem run (hd : DatFacts dat (V1 m ρ)) :
    θ_run defs (onTc (τ := τ) (main (F := F))) ⟨m, fun _ => 0, ρ⟩ (fun r => ∀ c : Dev nD,
      ∀ b ∈ Pipeline.ucRefs τ sig, r.2.mem (((c : Thread nD τ)).1, b) = W3 m ρ dat c b) :=
  Pipeline.θ_run_regions_kit (pcfgs (F := F)) adm (pdats dat) () cellOf_inj emb₁ defs₀ 𝒱₀ L lv m ρ main (segs m ρ hd)
    (fun c Q => by rw [main_run m ρ hd c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun c => by
      show iprop(StableHlo.held (c : Thread nD τ) (Pipeline.ucRefs τ sig) (W3 m ρ dat c) ∗ R c)
        ⊢ iprop(Tₙ m ρ c ∗ ∃ W, owes (c : Thread nD τ) (0 : CellTallies nD τ sig Unit) W)
      iintro ⟨Hh, Hp, HO⟩
      isplitl [Hh Hp]
      · isplitl [Hh] <;> iassumption
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ dat c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ dat c) s')
      isplitl [Hh] <;> iassumption)
    (hQ := fun s h c => h c)

end Cert.KernelIdeal.Launch

end
-- ==== Proof.BitsBoundary.lean ====
/-
  The program around its one kernel region: host lines (each argument's rows divided by their lengths, the
  two results stacked, the labels laid out as a column and as a row), the kernel region, host lines (the sum
  of the region's result divided by 16384). This module names the contents of a core's buffers at the
  boundaries — `W0` at the start, `W1` where the region is entered, `W2` where it is left (the region's
  result array at what the write-backs made of it, everything else as entered), `W3` at the end — and states
  what the run uses of the region's proof data (`DatFacts`).
-/
import proofs.«161181_j22351009808686_2_alg».proof.Proof.Gen.Kernel.Launch
import proofs.«161181_j22351009808686_2_alg».proof.Proof.Gen.Kernel.Points
import Idealize.ShloMosaic.Lib.Pipeline.FrameSuffix
import Idealize.ShloMosaic.Lib.Pipeline.RegionsLoop
import Idealize.ShloMosaic.Lib.Ring
import Idealize.ShloMosaic.Lib.Tactic

set_option maxRecDepth 16384

noncomputable section

namespace Cert.Kernel.Launch

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The contents of a core's buffers at the region's entry, as the region's proof data take them. -/
abbrev Entry (F : FTy → Type) := (c : Dev nD) → (b : Ref sig .tc) → Buf (Elt F) ((c : Thread nD τ).loc b)

/-- What the run uses of the region's proof data: the arrays' entry contents are the entry contents; the two
    windows on the stacked rows hold a half share each, the label windows the full share; the body owes no
    other core anything, bounds nothing it records, and meets its obligation at every point; the invariant takes the generator register
    and the two scratch buffers in at the first point and gives them back after the last. -/
structure DatFacts (dat : (c : Dev nD) → Dat τ (Elt F) Unit ℕ (UR sig nD τ) ℕ cfg0 c) (V : Entry F) : Prop where
  A_eq : ∀ c w, (dat c).A w = V c (Pipeline.arrRef spec0 w)
  q0 : ∀ c, (dat c).q 0 = fullShare.left
  q1 : ∀ c, (dat c).q 1 = fullShare.right
  q2 : ∀ c, (dat c).q 2 = fullShare
  q3 : ∀ c, (dat c).q 3 = fullShare
  owed : ∀ c t, (dat c).owed t = 0
  recorded : ∀ c t, (dat c).recorded t = Set.univ
  body : ∀ c, Pipeline.BodyObligationLoose (dat c) defs₀ Variants.none () Set.univ
  hin : ∀ c, iprop((∃ r, prngReg c r) ∗ Pipeline.scopedRest (Ix := Unit) (Name := ℕ) (U := UR sig nD τ) (Lvl := ℕ) (Val := Elt F) spec0 c) ⊢ (dat c).Φ 0
  hout : ∀ c, (dat c).Φ (Fin.last cfg0.N) ⊢ iprop((∃ r, prngReg c r) ∗ Pipeline.scopedRest (Ix := Unit) (Name := ℕ) (U := UR sig nD τ) (Lvl := ℕ) (Val := Elt F) spec0 c)

variable (m : (ℓ : Loc nD τ sig) → Buf (Elt F) ℓ) (ρ : Dev nD → PrngReg)

/-! ## The buffers' contents at the boundaries -/

/-- At the start. -/
abbrev W0 : Dev nD → Valuation τ sig (Elt F) := fun c b => (s₀ m ρ).mem ((c : Dev nD), b)
/-- After the first argument's row lengths, -/
abbrev Wa : Dev nD → Valuation τ sig (Elt F) := fun c => StableHlo.after hostOps0 (W0 m ρ c)
/-- its rows divided by them, -/
abbrev Wb : Dev nD → Valuation τ sig (Elt F) := fun c => StableHlo.after hostOps0_1 (Wa m ρ c)
/-- the second argument's row lengths, -/
abbrev Wc : Dev nD → Valuation τ sig (Elt F) := fun c => StableHlo.after hostOps0_2 (Wb m ρ c)
/-- and its rows divided, the stack, the labels' column and row: where the region is entered. -/
abbrev W1 : Dev nD → Valuation τ sig (Elt F) := fun c => StableHlo.after hostOps0_3 (Wc m ρ c)
/-- The same read at the TensorCore's references. -/
abbrev V1 : Entry F := fun c b => W1 m ρ c b

variable (dat : (c : Dev nD) → Dat τ (Elt F) Unit ℕ (UR sig nD τ) ℕ cfg0 c)

/-- Where the region is left: its result array at what the write-backs made of it, every other buffer as entered. -/
def W2 (c : Dev nD) : Valuation τ sig (Elt F) := fun b =>
  open Classical in
  if h : Proc.devRef .tc main_v9 = b then cast (congrArg (fun b' : DevRef τ sig => b'.ty.Contents (Elt F)) h) ((dat c).arrAt 4 cfg0.N)
  else W1 m ρ c b

theorem W2_result (c : Dev nD) : W2 m ρ dat c (Proc.devRef .tc main_v9) = (dat c).arrAt 4 cfg0.N := by
  unfold W2; rw [dif_pos rfl]; rfl

theorem W2_of_ne (c : Dev nD) (b : Ref sig .tc) (hb : main_v9 ≠ b) :
    W2 m ρ dat c (Proc.devRef .tc b) = W1 m ρ c (Proc.devRef .tc b) := by
  unfold W2; rw [dif_neg]; intro e; exact hb (Proc.devRef_injective _ e)

/-- The same read at the TensorCore's references. -/
abbrev V2 : Entry F := fun c b => W2 m ρ dat c b
/-- At the end. -/
abbrev W3 : Dev nD → Valuation τ sig (Elt F) := fun c => StableHlo.after hostOps1 (W2 m ρ dat c)

end Cert.Kernel.Launch

end
-- ==== Proof.BitsLaunch.lean ====
/-
  The run of the whole program around its one kernel region, for ANY proof data of the region.

  The region's windows 0 and 1 are blocks of ONE array, the stacked rows; so at the region's entry that
  array's points-to is cut into two half shares, one per window, and the halves are joined again at the
  exit. Everything else the core holds goes round the region untouched; the two scratch accumulators and
  the generator register go through the region's invariant. The host lines before and after the region run
  as they stand. The final state is read against the contents named at the last boundary.
-/
import proofs.«161181_j22351009808686_2_alg».proof.Proof.BitsBoundary

set_option maxRecDepth 16384

noncomputable section

namespace Cert.Kernel.Launch

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
variable (dat : (c : Dev nD) → Dat τ (Elt F) Unit ℕ (UR sig nD τ) ℕ cfg0 c)

/-! ## The stacked rows' array cut in two at the entry and joined at the exit -/

/-- The four buffers behind the five windows. -/
theorem arrRefs_eq : (Finset.univ.image (Pipeline.arrRef spec0) : Finset (Ref sig .tc)) = [main_v6, main_v7, main_v8, main_v9].toFinset := by decide

/-- A conjunction over those four buffers, one by one. -/
theorem bigSep_arrRefs {M : Type} [URA M] (Φ : Ref sig .tc → sProp M) :
    bigSep (Finset.univ.image (Pipeline.arrRef spec0)) Φ = iprop(Φ main_v6 ∗ Φ main_v7 ∗ Φ main_v8 ∗ Φ main_v9) :=
  bigSep_eq_bigSepL_of_eq [main_v6, main_v7, main_v8, main_v9] arrRefs_eq (by decide) Φ

variable {dat} in
/-- At the entry: the four buffers, whole, make the five windows' arrays, the stacked rows' one as two halves. -/
theorem arrays_of_bufs (V : Entry F) (hd : DatFacts dat V) (c : Dev nD) :
    (Pipeline.arrBufs (Ix := Unit) (Name := ℕ) (U := UR sig nD τ) (Lvl := ℕ) spec0 c (V c) : sProp 𝕄) ⊢ (dat c).arrays ((dat c).arrAt · 0) := by
  unfold Pipeline.arrBufs Pipeline.Dat.arrays
  rw [bigSep_arrRefs, bigSep_W0]
  have s0 : (dat c).share 0 = fullShare.left := by unfold Pipeline.Dat.share; rw [if_neg (by decide)]; exact hd.q0 c
  have s1 : (dat c).share 1 = fullShare.right := by unfold Pipeline.Dat.share; rw [if_neg (by decide)]; exact hd.q1 c
  have s2 : (dat c).share 2 = fullShare := by unfold Pipeline.Dat.share; rw [if_neg (by decide)]; exact hd.q2 c
  have s3 : (dat c).share 3 = fullShare := by unfold Pipeline.Dat.share; rw [if_neg (by decide)]; exact hd.q3 c
  have s4 : (dat c).share 4 = fullShare := by unfold Pipeline.Dat.share; rw [if_pos (by decide)]
  have e (w : Fin 5) : (View.loc c.tc (cfg0.win w).arr.view ↦[(cfg0.win w).arr.view.set]{(dat c).share w} (dat c).arrAt w 0 : sProp 𝕄)
      = (c.tc.loc (Pipeline.arrRef spec0 w) ↦{(dat c).share w} V c (Pipeline.arrRef spec0 w)) := by
    rw [(arr_whole0 w).set_eq_univ]
    exact congrArg _ (hd.A_eq c w)
  show _ ⊢ iprop(_ ∗ _ ∗ _ ∗ _ ∗ _)
  rw [e 0, e 1, e 2, e 3, e 4, s0, s1, s2, s3, s4]
  iintro ⟨H6, H7, H8, H9⟩
  ihave Hab := (pointsTo_share (PosShare.mem_left_op_right fullShare)).1 $$ H6
  icases Hab with ⟨Ha, Hb⟩
  isplitl [Ha]; · iexact Ha
  isplitl [Hb]; · iexact Hb
  isplitl [H7]; · iexact H7
  isplitl [H8]; · iexact H8
  iexact H9

variable {dat} in
/-- At the exit: the five windows' arrays at what the region left — the inputs as entered, the result at its
    write-backs —, the two halves joined, are the four buffers whole at the exit contents. -/
theorem bufs_of_arrays (hd : DatFacts dat (V1 m ρ)) (c : Dev nD) :
    (dat c).arrays ((dat c).arrAt · cfg0.N) ⊢ (Pipeline.arrBufs (Ix := Unit) (Name := ℕ) (U := UR sig nD τ) (Lvl := ℕ) spec0 c (V2 m ρ dat c) : sProp 𝕄) := by
  unfold Pipeline.arrBufs Pipeline.Dat.arrays
  rw [bigSep_arrRefs, bigSep_W0]
  have s0 : (dat c).share 0 = fullShare.left := by unfold Pipeline.Dat.share; rw [if_neg (by decide)]; exact hd.q0 c
  have s1 : (dat c).share 1 = fullShare.right := by unfold Pipeline.Dat.share; rw [if_neg (by decide)]; exact hd.q1 c
  have s2 : (dat c).share 2 = fullShare := by unfold Pipeline.Dat.share; rw [if_neg (by decide)]; exact hd.q2 c
  have s3 : (dat c).share 3 = fullShare := by unfold Pipeline.Dat.share; rw [if_neg (by decide)]; exact hd.q3 c
  have s4 : (dat c).share 4 = fullShare := by unfold Pipeline.Dat.share; rw [if_pos (by decide)]
  have e (w : Fin 5) (hw : (cfg0.win w).isOut = false) : (View.loc c.tc (cfg0.win w).arr.view ↦[(cfg0.win w).arr.view.set]{(dat c).share w} (dat c).arrAt w cfg0.N : sProp 𝕄)
      = (c.tc.loc (Pipeline.arrRef spec0 w) ↦{(dat c).share w} V1 m ρ c (Pipeline.arrRef spec0 w)) := by
    rw [(arr_whole0 w).set_eq_univ]
    exact congrArg _ (((dat c).arrAt_in w hw _).trans (hd.A_eq c w))
  have e4 : (View.loc c.tc (cfg0.win 4).arr.view ↦[(cfg0.win 4).arr.view.set]{(dat c).share 4} (dat c).arrAt 4 cfg0.N : sProp 𝕄)
      = (c.tc.loc main_v9 ↦{(dat c).share 4} V2 m ρ dat c main_v9) := by
    rw [(arr_whole0 4).set_eq_univ]
    exact congrArg _ (W2_result m ρ dat c).symm
  have v6 : V2 m ρ dat c main_v6 = V1 m ρ c main_v6 := W2_of_ne m ρ dat c main_v6 (by decide)
  have v7 : V2 m ρ dat c main_v7 = V1 m ρ c main_v7 := W2_of_ne m ρ dat c main_v7 (by decide)
  have v8 : V2 m ρ dat c main_v8 = V1 m ρ c main_v8 := W2_of_ne m ρ dat c main_v8 (by decide)
  show iprop(_ ∗ _ ∗ _ ∗ _ ∗ _) ⊢ _
  rw [e 0 rfl, e 1 rfl, e 2 rfl, e 3 rfl, e4, s0, s1, s2, s3, s4, v6, v7, v8]
  iintro ⟨Ha, Hb, H7, H8, H9⟩
  isplitl [Ha Hb]
  · iapply (pointsTo_share (PosShare.mem_left_op_right fullShare)).2
    isplitl [Ha] <;> iassumption
  isplitl [H7]; · iexact H7
  isplitl [H8]; · iexact H8
  iexact H9

/-! ## The proof data family, the thread state, the segments -/

/-- The pipeline prefetches no table. -/
abbrev adm : (p : Fin 1) → (pcfgs (F := F) p).Adm := fun p => (cfgs p).toPCfg_adm
/-- The one pipeline's proof data. -/
abbrev pdats : (p : Fin 1) → (c : Dev nD) → Dat τ (Elt F) Unit ℕ (UR sig nD τ) ℕ (Pipeline.pin (pcfgs (F := F)) adm p) c :=
  fun _ c => dat c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the generator register at some state and the core
    owing nothing. -/
abbrev R (c : Dev nD) : sProp 𝕄 := iprop((∃ r, prngReg c r) ∗ ∃ W, owes (c : Thread nD τ) (0 : CellTallies nD τ sig Unit) W)
/-- A stretch of host lines as a segment over the unscoped buffers from the contents `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor
theorem hostOps0_3_fresh : (hostOps0_3 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

variable {dat}

set_option backward.isDefEq.respectTransparency.types false in
/-- The kernel region over the thread state: entered from every unscoped buffer at `W1`, left at `W2`. Its arrays
    are cut out of the unscoped buffers (the stacked rows' array into two halves) and put back at the exit; the
    generator register and the scratch buffers go through the invariant; nothing is owed; the kernel has no
    semaphore of its own. -/
def reg0 (hd : DatFacts dat (V1 m ρ)) : Pipeline.RegionSeg (pcfgs (F := F)) adm (pdats dat) () defs₀ 𝒱₀ L lv 0 where
  win := winFacts₀0
  block_pos := block_pos0
  stage_whole := stage_whole0
  K := PEmpty
  osem k := k.elim
  ho := Pipeline.OwnSemFacts.none _
  hbody c := hd.body c
  hwaits := Pipeline.hwaits_of_owed_zero _ _ _ _ L lv 0 fun c t => hd.owed c t
  pre c := iprop(StableHlo.held (c : Thread nD τ) (Pipeline.ucRefs τ sig) (W1 m ρ c) ∗ R c)
  post c := iprop(StableHlo.held (c : Thread nD τ) (Pipeline.ucRefs τ sig) (W2 m ρ dat c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit : (unscopedBufs (Ix := Unit) (Name := ℕ) (U := UR sig nD τ) (Lvl := ℕ) c (V1 m ρ c) : sProp 𝕄)
        ⊢ iprop((dat c).arrays ((dat c).arrAt · 0) ∗ Pipeline.unscopedRest spec0 c (V1 m ρ c)) := by
      rw [Pipeline.unscopedBufs_split₀ cfgs 0 winFacts₀0.arr_unscoped c (V1 m ρ c)]
      exact sep_mono (arrays_of_bufs (V1 m ρ) hd c) .rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      rw [show (dat c).owed 0 = 0 from hd.owed c 0]
      icases HO with ⟨%W, HO⟩; iexists W; isplitr
      · ipureintro; exact fun x _ => Or.inl (show x ∈ (dat c).recorded 0 by rw [hd.recorded c 0]; exact Set.mem_univ x)
      iexact HO
    isplitl [Hp]; · iexact Hp
    iexact Hrest
  hin c := by
    show _ ⊢ (dat c).Φ 0
    iintro ⟨Hp, -, Hr⟩
    iapply (hd.hin c)
    isplitl [Hp] <;> iassumption
  hout c := by
    rw [Pipeline.ownSems0_none]
    show (dat c).Φ (Fin.last cfg0.N) ⊢ _
    refine (hd.hout c).trans ?_
    iintro ⟨Hp, Hr⟩
    isplitl [Hp]; · iexact Hp
    isplitr; · iempintro
    iexact Hr
  hexit c := by
    have hjoin : iprop((dat c).arrays ((dat c).arrAt · cfg0.N) ∗ Pipeline.unscopedRest spec0 c (V1 m ρ c))
        ⊢ (unscopedBufs (Ix := Unit) (Name := ℕ) (U := UR sig nD τ) (Lvl := ℕ) c (V2 m ρ dat c) : sProp 𝕄) := by
      rw [Pipeline.unscopedBufs_split₀ cfgs 0 winFacts₀0.arr_unscoped c (V2 m ρ dat c)]
      refine sep_mono (bufs_of_arrays m ρ hd c) (Entails.of_eq ?_)
      unfold Pipeline.unscopedRest
      exact bigSep_congr fun b hb => by
        rw [show V2 m ρ dat c b = V1 m ρ c b from W2_of_ne m ρ dat c b fun e =>
          (Finset.mem_sdiff.mp hb).2 (e ▸ Finset.mem_image.mpr ⟨4, Finset.mem_univ _, rfl⟩)]
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    rw [show (dat c).owed (Fin.last cfg0.N) = 0 from hd.owed c _]
    icases HO with ⟨%W, -, HO⟩; iexists W; iexact HO

/-- The program's six segments in order: four stretches of host lines, the region, the last stretch. -/
abbrev segs (hd : DatFacts dat (V1 m ρ)) : List (Pipeline.Seg (pcfgs (F := F)) adm (pdats dat) () defs₀ 𝒱₀ L lv) :=
  [ .host (hseg hostOps0 hostOps0_sub hostOps0_fresh (W0 m ρ)),
    .host (hseg hostOps0_1 hostOps0_1_sub hostOps0_1_fresh (Wa m ρ)),
    .host (hseg hostOps0_2 hostOps0_2_sub hostOps0_2_fresh (Wb m ρ)),
    .host (hseg hostOps0_3 hostOps0_3_sub hostOps0_3_fresh (Wc m ρ)),
    .region (reg0 m ρ hd),
    .host (hseg hostOps1 hostOps1_sub hostOps1_fresh (W2 m ρ dat)) ]

/-- The program is the run of its segments. -/
theorem main_run (hd : DatFacts dat (V1 m ρ)) (c : Dev nD) : main (F := F) c = Pipeline.Seg.run (segs m ρ hd) :=
  (main_chain c).trans (by chain_rfl)

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-- The last thread state without what the core owes: every unscoped buffer at `W3`, the generator register. -/
abbrev Tₙ (c : Dev nD) : sProp 𝕄 := iprop(StableHlo.held (c : Thread nD τ) (Pipeline.ucRefs τ sig) (W3 m ρ dat c) ∗ ∃ r, prngReg c r)

set_option backward.isDefEq.respectTransparency.types false in
/-- THE RUN: from any memory with the counters at zero, every weakly fair execution of the program on the
    TensorCores terminates, nothing faulting, and in the final state every unscoped buffer holds `W3`. -/
theorem run (hd : DatFacts dat (V1 m ρ)) :
    θ_run defs (onTc (τ := τ) (main (F := F))) ⟨m, fun _ => 0, ρ⟩ (fun r => ∀ c : Dev nD,
      ∀ b ∈ Pipeline.ucRefs τ sig, r.2.mem (((c : Thread nD τ)).1, b) = W3 m ρ dat c b) :=
  Pipeline.θ_run_regions_kit (pcfgs (F := F)) adm (pdats dat) () cellOf_inj emb₁ defs₀ 𝒱₀ L lv m ρ main (segs m ρ hd)
    (fun c Q => by rw [main_run m ρ hd c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun c => by
      show iprop(StableHlo.held (c : Thread nD τ) (Pipeline.ucRefs τ sig) (W3 m ρ dat c) ∗ R c)
        ⊢ iprop(Tₙ m ρ c ∗ ∃ W, owes (c : Thread nD τ) (0 : CellTallies nD τ sig Unit) W)
      iintro ⟨Hh, Hp, HO⟩
      isplitl [Hh Hp]
      · isplitl [Hh] <;> iassumption
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ dat c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ dat c) s')
      isplitl [Hh] <;> iassumption)
    (hQ := fun s h c => h c)

end Cert.Kernel.Launch

end
-- ==== Proof.IdealHostArgs.lean ====
/-
  No host line and no write-back of the kernel region writes an argument: at the end of the program each
  argument's buffer holds what it held at the launch.
-/
import proofs.«161181_j22351009808686_2_alg».proof.Proof.IdealBoundary

set_option maxRecDepth 16384

noncomputable section

namespace Cert.KernelIdeal.Host

open Cert.KernelIdeal Cert.KernelIdeal.Gen Cert.KernelIdeal.Launch
open Idealize.ShloMosaic Idealize.ShloMosaic.TcCoe
open Idealize.SL.Sem
open Idealize.ShloMosaic.Pipeline (Dat Cfg)

variable {F : FTy → Type} [FloatOps F] [Named F]
variable (m : (ℓ : Loc nD τ sig) → Buf (Elt F) ℓ) (ρ : Dev nD → PrngReg)
variable (dat : (c : Dev nD) → Dat τ (Elt F) Unit ℕ (UR sig nD τ) ℕ cfg0 c)

/-- A buffer that no operation of a host stretch writes holds after the stretch what it held before. -/
local macro "not_written" : tactic => `(tactic| (
  refine StableHlo.after_of_forall_not_mem _ _ (List.forall_iff_forall_mem.mp ?_)
  simp only [hostOps0, hostOps0_1, hostOps0_2, hostOps0_3, hostOps1, List.Forall, StableHlo.nullary_writes,
    StableHlo.unary_writes, StableHlo.binary_writes, Finset.mem_singleton]
  repeat' apply And.intro
  all_goals exact StableHlo.devRef_ne_of_ne (by decide)))

theorem W3_arg0 (c : Dev nD) : W3 m ρ dat c (Proc.devRef .tc main_arg0) = m ((c : Thread nD τ).loc main_arg0) :=
  calc W3 m ρ dat c (Proc.devRef .tc main_arg0)
    _ = W2 m ρ dat c (Proc.devRef .tc main_arg0) := by not_written
    _ = W1 m ρ c (Proc.devRef .tc main_arg0) := W2_of_ne m ρ dat c main_arg0 (by decide)
    _ = Wc m ρ c (Proc.devRef .tc main_arg0) := by not_written
    _ = Wb m ρ c (Proc.devRef .tc main_arg0) := by not_written
    _ = Wa m ρ c (Proc.devRef .tc main_arg0) := by not_written
    _ = W0 m ρ c (Proc.devRef .tc main_arg0) := by not_written
    _ = m ((c : Thread nD τ).loc main_arg0) := rfl

theorem W3_arg1 (c : Dev nD) : W3 m ρ dat c (Proc.devRef .tc main_arg1) = m ((c : Thread nD τ).loc main_arg1) :=
  calc W3 m ρ dat c (Proc.devRef .tc main_arg1)
    _ = W2 m ρ dat c (Proc.devRef .tc main_arg1) := by not_written
    _ = W1 m ρ c (Proc.devRef .tc main_arg1) := W2_of_ne m ρ dat c main_arg1 (by decide)
    _ = Wc m ρ c (Proc.devRef .tc main_arg1) := by not_written
    _ = Wb m ρ c (Proc.devRef .tc main_arg1) := by not_written
    _ = Wa m ρ c (Proc.devRef .tc main_arg1) := by not_written
    _ = W0 m ρ c (Proc.devRef .tc main_arg1) := by not_written
    _ = m ((c : Thread nD τ).loc main_arg1) := rfl

theorem W3_arg2 (c : Dev nD) : W3 m ρ dat c (Proc.devRef .tc main_arg2) = m ((c : Thread nD τ).loc main_arg2) :=
  calc W3 m ρ dat c (Proc.devRef .tc main_arg2)
    _ = W2 m ρ dat c (Proc.devRef .tc main_arg2) := by not_written
    _ = W1 m ρ c (Proc.devRef .tc main_arg2) := W2_of_ne m ρ dat c main_arg2 (by decide)
    _ = Wc m ρ c (Proc.devRef .tc main_arg2) := by not_written
    _ = Wb m ρ c (Proc.devRef .tc main_arg2) := by not_written
    _ = Wa m ρ c (Proc.devRef .tc main_arg2) := by not_written
    _ = W0 m ρ c (Proc.devRef .tc main_arg2) := by not_written
    _ = m ((c : Thread nD τ).loc main_arg2) := rfl

end Cert.KernelIdeal.Host

end
-- ==== Proof.BitsHostArgs.lean ====
/-
  No host line and no write-back of the kernel region writes an argument: at the end of the program each
  argument's buffer holds what it held at the launch.
-/
import proofs.«161181_j22351009808686_2_alg».proof.Proof.BitsBoundary

set_option maxRecDepth 16384

noncomputable section

namespace Cert.Kernel.Host

open Cert.Kernel Cert.Kernel.Gen Cert.Kernel.Launch
open Idealize.ShloMosaic Idealize.ShloMosaic.TcCoe
open Idealize.SL.Sem
open Idealize.ShloMosaic.Pipeline (Dat Cfg)

variable {F : FTy → Type} [FloatOps F]
variable (m : (ℓ : Loc nD τ sig) → Buf (Elt F) ℓ) (ρ : Dev nD → PrngReg)
variable (dat : (c : Dev nD) → Dat τ (Elt F) Unit ℕ (UR sig nD τ) ℕ cfg0 c)

/-- A buffer that no operation of a host stretch writes holds after the stretch what it held before. -/
local macro "not_written" : tactic => `(tactic| (
  refine StableHlo.after_of_forall_not_mem _ _ (List.forall_iff_forall_mem.mp ?_)
  simp only [hostOps0, hostOps0_1, hostOps0_2, hostOps0_3, hostOps1, List.Forall, StableHlo.nullary_writes,
    StableHlo.unary_writes, StableHlo.binary_writes, Finset.mem_singleton]
  repeat' apply And.intro
  all_goals exact StableHlo.devRef_ne_of_ne (by decide)))

theorem W3_arg0 (c : Dev nD) : W3 m ρ dat c (Proc.devRef .tc main_arg0) = m ((c : Thread nD τ).loc main_arg0) :=
  calc W3 m ρ dat c (Proc.devRef .tc main_arg0)
    _ = W2 m ρ dat c (Proc.devRef .tc main_arg0) := by not_written
    _ = W1 m ρ c (Proc.devRef .tc main_arg0) := W2_of_ne m ρ dat c main_arg0 (by decide)
    _ = Wc m ρ c (Proc.devRef .tc main_arg0) := by not_written
    _ = Wb m ρ c (Proc.devRef .tc main_arg0) := by not_written
    _ = Wa m ρ c (Proc.devRef .tc main_arg0) := by not_written
    _ = W0 m ρ c (Proc.devRef .tc main_arg0) := by not_written
    _ = m ((c : Thread nD τ).loc main_arg0) := rfl

theorem W3_arg1 (c : Dev nD) : W3 m ρ dat c (Proc.devRef .tc main_arg1) = m ((c : Thread nD τ).loc main_arg1) :=
  calc W3 m ρ dat c (Proc.devRef .tc main_arg1)
    _ = W2 m ρ dat c (Proc.devRef .tc main_arg1) := by not_written
    _ = W1 m ρ c (Proc.devRef .tc main_arg1) := W2_of_ne m ρ dat c main_arg1 (by decide)
    _ = Wc m ρ c (Proc.devRef .tc main_arg1) := by not_written
    _ = Wb m ρ c (Proc.devRef .tc main_arg1) := by not_written
    _ = Wa m ρ c (Proc.devRef .tc main_arg1) := by not_written
    _ = W0 m ρ c (Proc.devRef .tc main_arg1) := by not_written
    _ = m ((c : Thread nD τ).loc main_arg1) := rfl

theorem W3_arg2 (c : Dev nD) : W3 m ρ dat c (Proc.devRef .tc main_arg2) = m ((c : Thread nD τ).loc main_arg2) :=
  calc W3 m ρ dat c (Proc.devRef .tc main_arg2)
    _ = W2 m ρ dat c (Proc.devRef .tc main_arg2) := by not_written
    _ = W1 m ρ c (Proc.devRef .tc main_arg2) := W2_of_ne m ρ dat c main_arg2 (by decide)
    _ = Wc m ρ c (Proc.devRef .tc main_arg2) := by not_written
    _ = Wb m ρ c (Proc.devRef .tc main_arg2) := by not_written
    _ = Wa m ρ c (Proc.devRef .tc main_arg2) := by not_written
    _ = W0 m ρ c (Proc.devRef .tc main_arg2) := by not_written
    _ = m ((c : Thread nD τ).loc main_arg2) := rfl

end Cert.Kernel.Host

end
-- ==== Proof.IdealBodyData.lean ====
import proofs.«161181_j22351009808686_2_alg».proof.Proof.Gen.KernelIdeal.Launch
import proofs.«161181_j22351009808686_2_alg».proof.Proof.Gen.KernelIdeal.Skeleton
import proofs.«161181_j22351009808686_2_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F] [Named F]

local notation "𝕄" => MT nD τ sig Unit (Elt F) ℕ (UR sig nD τ) ℕ

variable (V : (c : Dev nD) → (b : Ref sig .tc) → Buf (Elt F) ((c : Thread nD τ).loc b))

/-! ## The windows' blocks -/

/-- Window w's block at point t, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-! ## The two accumulators, point by point

Point t of the 8 × 8 grid is (qi, ki) = (t / 8, t % 8): row block qi against column block ki. -/

/-- The exponentials of twice the inner products of row block qi's rows with column block ki's rows. -/
def expBlk (c : Dev nD) (t : Fin cfg0.N) : FVec F S1024x1024 .f32 := k0_pay8 (iblk V c 0 t) (iblk V c 1 t)

/-- One point's update of the pair (labelled sum, whole sum): at the first column block both start from zero;
    the block's labelled row sums and row sums are added; on the diagonal the block's own diagonal is taken off both. -/
def accStep (c : Dev nD) (t : Fin cfg0.N) (prev : Vec F S1024x1 .f32 × Vec F S1024x1 .f32) :
    Vec F S1024x1 .f32 × Vec F S1024x1 .f32 :=
  let z : Vec F S1024x1 .f32 × Vec F S1024x1 .f32 := if t.val % 8 = 0 then (k0_pay6 (F := F), k0_pay7 (F := F)) else prev
  let a : Vec F S1024x1 .f32 × Vec F S1024x1 .f32 :=
    (k0_pay9 (iblk V c 0 t) (iblk V c 1 t) (iblk V c 2 t) (iblk V c 3 t) z.1, k0_pay1 (k0_pay10 (iblk V c 0 t) (iblk V c 1 t) z.2))
  if t.val / 8 = t.val % 8 then (k0_pay3 (expBlk V c t) a.1, k0_pay4 (expBlk V c t) a.2) else a

/-- What the two scratch buffers hold after the body at position n: (labelled sum, whole sum). -/
def accAt (c : Dev nD) : (n : ℕ) → n < cfg0.N → Vec F S1024x1 .f32 × Vec F S1024x1 .f32
  | 0, hn => accStep V c ⟨0, hn⟩ (k0_pay6 (F := F), k0_pay7 (F := F))
  | n + 1, hn => accStep V c ⟨n + 1, hn⟩ (accAt c n (Nat.lt_of_succ_lt hn))

theorem accAt_zero (c : Dev nD) (hn : 0 < cfg0.N) : accAt V c 0 hn = accStep V c ⟨0, hn⟩ (k0_pay6 (F := F), k0_pay7 (F := F)) := rfl
theorem accAt_succ (c : Dev nD) (n : ℕ) (hn : n + 1 < cfg0.N) :
    accAt V c (n + 1) hn = accStep V c ⟨n + 1, hn⟩ (accAt V c n (Nat.lt_of_succ_lt hn)) := rfl
/-- At a point that is not the first: one update of what the point before left. -/
theorem accAt_pos (c : Dev nD) (t : Fin cfg0.N) (ht : t.val ≠ 0) :
    accAt V c t.val t.isLt = accStep V c t (accAt V c (t.val - 1) (Nat.lt_of_le_of_lt (Nat.sub_le _ _) t.isLt)) := by
  obtain ⟨n, hn⟩ := t
  cases n with
  | zero => exact absurd rfl ht
  | succ n => rfl

/-- The update at a first column block: from zero. -/
theorem accStep_of_ki0 (c : Dev nD) (t : Fin cfg0.N) (h : t.val % 8 = 0) (prev) :
    accStep V c t prev = accStep V c t (k0_pay6 (F := F), k0_pay7 (F := F)) := by
  unfold accStep; simp only [if_pos h]
/-- The update off the diagonal, past the first column block. -/
theorem accStep_offdiag (c : Dev nD) (t : Fin cfg0.N) (h0 : ¬t.val % 8 = 0) (hd : ¬t.val / 8 = t.val % 8) (prev) :
    accStep V c t prev = (k0_pay9 (iblk V c 0 t) (iblk V c 1 t) (iblk V c 2 t) (iblk V c 3 t) prev.1, k0_pay1 (k0_pay10 (iblk V c 0 t) (iblk V c 1 t) prev.2)) := by
  unfold accStep; simp only [if_neg h0, if_neg hd]
/-- The update on the diagonal, past the first column block. -/
theorem accStep_diag (c : Dev nD) (t : Fin cfg0.N) (h0 : ¬t.val % 8 = 0) (hd : t.val / 8 = t.val % 8) (prev) :
    accStep V c t prev = (k0_pay3 (expBlk V c t) (k0_pay9 (iblk V c 0 t) (iblk V c 1 t) (iblk V c 2 t) (iblk V c 3 t) prev.1), k0_pay4 (expBlk V c t) (k0_pay1 (k0_pay10 (iblk V c 0 t) (iblk V c 1 t) prev.2))) := by
  unfold accStep; simp only [if_neg h0, if_pos hd]

/-- The output block the body stores at a last column block: the logarithm of whole sum over labelled sum. -/
def outAt (c : Dev nD) (t : Fin cfg0.N) : Vec F S1024x1 .f32 := k0_pay5 (accAt V c t.val t.isLt).1 (accAt V c t.val t.isLt).2

/-! ## The invariant -/

abbrev scN : Memref sig .tc .vmem S1024x1 .f32 := Memref.whole cc0_scratch0
abbrev scD : Memref sig .tc .vmem S1024x1 .f32 := Memref.whole cc0_scratch1

/-- Before position n: the generator register at some state and the two scratch buffers whole — before the first point
    at anything, afterwards at what the point before left. -/
def PhiS (c : Dev nD) : (n : ℕ) → n ≤ cfg0.N → sProp 𝕄
  | 0, _ => iprop((∃ r, prngReg c r) ∗ (∃ d, owns (c : Thread nD τ) scN fullShare d) ∗ (∃ d, owns (c : Thread nD τ) scD fullShare d))
  | n + 1, hn => iprop((∃ r, prngReg c r) ∗ owns (c : Thread nD τ) scN fullShare (accAt V c n hn).1 ∗ owns (c : Thread nD τ) scD fullShare (accAt V c n hn).2)

theorem PhiS_zero (c : Dev nD) (n : ℕ) (h : n ≤ cfg0.N) (hz : n = 0) :
    PhiS V c n h = iprop((∃ r, prngReg c r) ∗ (∃ d, owns (c : Thread nD τ) scN fullShare d) ∗ (∃ d, owns (c : Thread nD τ) scD fullShare d)) := by
  subst hz; rfl
theorem PhiS_succ (c : Dev nD) (n : ℕ) (hn : n < cfg0.N) :
    PhiS V c (n + 1) hn = iprop((∃ r, prngReg c r) ∗ owns (c : Thread nD τ) scN fullShare (accAt V c n hn).1 ∗ owns (c : Thread nD τ) scD fullShare (accAt V c n hn).2) := rfl
theorem PhiS_pos (c : Dev nD) (n : ℕ) (h : n ≤ cfg0.N) (hz : n ≠ 0) :
    PhiS V c n h = iprop((∃ r, prngReg c r) ∗ owns (c : Thread nD τ) scN fullShare (accAt V c (n - 1) (by omega)).1 ∗ owns (c : Thread nD τ) scD fullShare (accAt V c (n - 1) (by omega)).2) := by
  cases n with
  | zero => exact absurd rfl hz
  | succ n => rfl

/-! ## The proof data -/

/-- The proof data of the pipeline on core c. Windows 0 and 1 read the same array: each holds half of it. -/
def dat0 (c : Dev nD) : Dat τ (Elt F) Unit ℕ (UR sig nD τ) ℕ cfg0 c where
  A w := V c (Pipeline.arrRef spec0 w)
  after w t := match w with
    | ⟨0, _⟩ => iblk V c 0 t
    | ⟨1, _⟩ => iblk V c 1 t
    | ⟨2, _⟩ => iblk V c 2 t
    | ⟨3, _⟩ => iblk V c 3 t
    | ⟨4, _⟩ => outAt V c t
  Φ t := PhiS V c t.val (Nat.le_of_lt_succ t.isLt)
  q w := match w with
    | ⟨0, _⟩ => fullShare.left
    | ⟨1, _⟩ => fullShare.right
    | ⟨2, _⟩ => fullShare
    | ⟨3, _⟩ => fullShare
    | ⟨4, _⟩ => fullShare
  owed _ := 0

theorem dat0_A (c : Dev nD) (w : Fin cfg0.W) : (dat0 V c).A w = V c (Pipeline.arrRef spec0 w) := by dsimp only [dat0]
theorem dat0_owed (c : Dev nD) (t : Fin (cfg0.N + 1)) : (dat0 V c).owed t = 0 := rfl
theorem dat0_q0 (c : Dev nD) : (dat0 V c).q 0 = fullShare.left := rfl
theorem dat0_q1 (c : Dev nD) : (dat0 V c).q 1 = fullShare.right := rfl
theorem dat0_q2 (c : Dev nD) : (dat0 V c).q 2 = fullShare := rfl
theorem dat0_q3 (c : Dev nD) : (dat0 V c).q 3 = fullShare := rfl
theorem dat0_q4 (c : Dev nD) : (dat0 V c).q 4 = fullShare := rfl
theorem dat0_Phi (c : Dev nD) (t : Fin (cfg0.N + 1)) : (dat0 V c).Φ t = PhiS V c t.val (Nat.le_of_lt_succ t.isLt) := rfl
theorem after0_0 (c : Dev nD) (t : Fin cfg0.N) : (dat0 V c).after 0 t = iblk V c 0 t := by dsimp only [dat0]
theorem after0_1 (c : Dev nD) (t : Fin cfg0.N) : (dat0 V c).after 1 t = iblk V c 1 t := by dsimp only [dat0]
theorem after0_2 (c : Dev nD) (t : Fin cfg0.N) : (dat0 V c).after 2 t = iblk V c 2 t := by dsimp only [dat0]
theorem after0_3 (c : Dev nD) (t : Fin cfg0.N) : (dat0 V c).after 3 t = iblk V c 3 t := by dsimp only [dat0]
theorem after0_4 (c : Dev nD) (t : Fin cfg0.N) : (dat0 V c).after 4 t = outAt V c t := by dsimp only [dat0]

/-- What the launch hands the region is the invariant before the first point. -/
theorem hin0 (c : Dev nD) : iprop((∃ r, prngReg c r) ∗ Pipeline.scopedRest spec0 c) ⊢ (dat0 V c).Φ 0 := by
  rw [show (dat0 V c).Φ 0 = PhiS V c 0 (Nat.zero_le _) from rfl, PhiS_zero V c 0 _ rfl, scopedRest0_eq]; simp only [scN, scD, owns_whole]
  exact Idealize.SL.BI.Entails.refl _

/-- After the last point the invariant gives it back: the accumulators' contents are forgotten. -/
theorem hout0 (c : Dev nD) : (dat0 V c).Φ (Fin.last cfg0.N) ⊢ iprop((∃ r, prngReg c r) ∗ Pipeline.scopedRest spec0 c) := by
  rw [dat0_Phi, PhiS_pos V c _ _ (by rw [Fin.val_last]; have : cfg0.N = 64 := N_0; omega), scopedRest0_eq]
  iintro ⟨Hg, HN, HD⟩
  isplitl [Hg]; · iexact Hg
  isplitl [HN]
  · iexists _; simp only [scN, owns_whole]; iexact HN
  · iexists _; simp only [scD, owns_whole]; iexact HD

end Cert.KernelIdeal.Body

end
-- ==== Proof.IdealBodyKit.lean ====
import proofs.«161181_j22351009808686_2_alg».proof.Proof.IdealBodyData
import Idealize.ShloMosaic.Lib.WholeRead

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F] [Named F]

local notation "𝕄" => MT nD τ sig Unit (Elt F) ℕ (UR sig nD τ) ℕ

variable (V : (c : Dev nD) → (b : Ref sig .tc) → Buf (Elt F) ((c : Thread nD τ).loc b))

/-! ## The body's three conditions, in closed form over the point -/

/-- First column block (ki = 0). -/
abbrev cond1 (i : grid0.Coords) : Prop := (Scalar.cmpi .ne (Scalar.extui (Scalar.cmpi .eq (BitVec.ofNat 32 (i 1).val) 0#32)) 0#32) = 1#1
theorem hcond1 : ∀ t : Fin cfg0.N, cond1 (grid0.coords t) ↔ t.val % 8 = 0 :=
  (by decide +kernel : ∀ t : Fin grid0.N, cond1 (grid0.coords t) ↔ t.val % 8 = 0)
/-- Diagonal block (qi = ki). -/
abbrev cond2 (i : grid0.Coords) : Prop := (Scalar.cmpi .ne (Scalar.extui (Scalar.cmpi .eq (BitVec.ofNat 32 (i 0).val) (BitVec.ofNat 32 (i 1).val))) 0#32) = 1#1
theorem hcond2 : ∀ t : Fin cfg0.N, cond2 (grid0.coords t) ↔ t.val / 8 = t.val % 8 :=
  (by decide +kernel : ∀ t : Fin grid0.N, cond2 (grid0.coords t) ↔ t.val / 8 = t.val % 8)
/-- Last column block (ki = 7). -/
abbrev cond3 (i : grid0.Coords) : Prop := k0_cond3 i = 1#1
theorem hcond3 : ∀ t : Fin cfg0.N, cond3 (grid0.coords t) ↔ t.val % 8 = 7 :=
  (by decide +kernel : ∀ t : Fin grid0.N, cond3 (grid0.coords t) ↔ t.val % 8 = 7)

/-! ## Where the windows are idle -/

theorem liveAt0 : ∀ t : Fin cfg0.N, cfg0.idle 0 (grid0.coords t) = false := by decide +kernel
theorem liveAt1 : ∀ t : Fin cfg0.N, cfg0.idle 1 (grid0.coords t) = false := by decide +kernel
theorem liveAt2 : ∀ t : Fin cfg0.N, cfg0.idle 2 (grid0.coords t) = false := by decide +kernel
theorem liveAt3 : ∀ t : Fin cfg0.N, cfg0.idle 3 (grid0.coords t) = false := by decide +kernel
/-- Off the last column block the output window is idle and not written back. -/
theorem idleAt4 : ∀ t : Fin cfg0.N, ¬cond3 (grid0.coords t) → cfg0.idle 4 (grid0.coords t) = true := by decide +kernel
theorem noFlush4 : ∀ t : Fin cfg0.N, ¬cond3 (grid0.coords t) → (cfg0.win 4).flush t = false := by decide +kernel
/-- At the last column block it is live. -/
theorem liveAt4 : ∀ t : Fin cfg0.N, cond3 (grid0.coords t) → cfg0.idle 4 (grid0.coords t) = false := by decide +kernel

/-! ## Whole-block loads and stores read back -/

section Whole
open Idealize.ShloMosaic.View
variable {Val : EltTy → Type} {sig' : RefSig} {κ : Kind} {sp : Space} {S : Shape} {e : EltTy}

/-- A load of the whole block from a whole memref held at the contents that read X reads X. -/
theorem readAt_unit_zero_unread {m : Memref sig' κ sp S e} (h : m.IsWhole) {off : Fin S.rank → ℕ} (hoff : off = fun _ => 0)
    (inb : ∀ a, off a + S.size a ≤ S.size a) (X : S.Idx → Val e) :
    View.readAt Val m.view (Rect.unit off S.size inb).toLoadRect (h.unread X) = X := by
  subst hoff; funext x
  rw [Memref.IsWhole.readAt_unread]
  show X ((Rect.whole S).emb x) = X x
  rw [Rect.emb_whole_apply]

/-- A store of the whole block, last, leaves its payload whatever was stored before. -/
theorem read_writes_cons_unit_zero (v : View sig' κ sp S e) (f : v.ty.Contents Val) {off : Fin S.rank → ℕ} (hoff : off = fun _ => 0)
    (inb : ∀ a, off a + S.size a ≤ S.size a) (w : S.Idx → Val e) (L : List (Piece Val S e)) :
    v.read Val (v.writes Val f ((⟨Rect.unit off S.size inb, w⟩ : Piece Val S e) :: L)) = w := by
  subst hoff; funext y
  have e := View.read_writes_cons_emb v f (Rect.whole S) w L y
  rwa [Rect.emb_whole_apply] at e

/-- A load of the whole block after a store of the whole block reads the payload stored last. -/
theorem readCov_cons_unit_zero [∀ e, Nonempty (Val e)] (v : View sig' κ sp S e) {off : Fin S.rank → ℕ} (hoff : off = fun _ => 0)
    (inb : ∀ a, off a + S.size a ≤ S.size a) (w : S.Idx → Val e) (L : List (Piece Val S e)) :
    v.readCov ((⟨Rect.unit off S.size inb, w⟩ : Piece Val S e) :: L) (Rect.unit off S.size inb).toLoadRect = w := by
  subst hoff
  rw [View.readCov_eq_canon_ld _ _ _ (fun y => ⟨_, List.mem_cons_self, by
    show y ∈ (Rect.whole S).set; rw [Rect.set_whole]; exact Finset.mem_univ y⟩), View.canon_cons_unit_zero rfl, View.ld_unit_zero rfl]

theorem zz : (![0, 0] : Fin 2 → ℕ) = fun _ => 0 := by funext a; fin_cases a <;> rfl

end Whole

/-! ## One point's update, as a function of the blocks -/

/-- One point's update of the pair of accumulators from the four blocks: b1 — first column block, b2 — diagonal block. -/
def stepG (b1 b2 : Prop) [Decidable b1] [Decidable b2] (x0 : Vec F S1024x128 .f32) (x1 : Vec F S1024x128 .f32) (x2 : Vec F S1024x1 .i32) (x3 : Vec F S1x1024 .i32) (s : Vec F S1024x1 .f32 × Vec F S1024x1 .f32) :
    Vec F S1024x1 .f32 × Vec F S1024x1 .f32 :=
  let z : Vec F S1024x1 .f32 × Vec F S1024x1 .f32 := if b1 then (k0_pay6 (F := F), k0_pay7 (F := F)) else s
  let a : Vec F S1024x1 .f32 × Vec F S1024x1 .f32 := (k0_pay9 x0 x1 x2 x3 z.1, k0_pay1 (k0_pay10 x0 x1 z.2))
  if b2 then (k0_pay3 (k0_pay8 x0 x1) a.1, k0_pay4 (k0_pay8 x0 x1) a.2) else a

theorem accStep_eq_stepG (c : Dev nD) (t : Fin cfg0.N) (s) :
    accStep V c t s = stepG (t.val % 8 = 0) (t.val / 8 = t.val % 8) (iblk V c 0 t) (iblk V c 1 t) (iblk V c 2 t) (iblk V c 3 t) s := rfl

/-- At the first point the accumulators are one update of anything. -/
theorem accAt_of_zero (c : Dev nD) (t : Fin cfg0.N) (hz : t.val = 0) (s) : accAt V c t.val t.isLt = accStep V c t s := by
  obtain ⟨n, hn⟩ := t
  dsimp only at hz; subst hz
  rw [accAt_zero]; exact (accStep_of_ki0 V c ⟨0, hn⟩ (Nat.zero_mod _) s).symm

/-! ## What the body finds in the input windows: their blocks -/

theorem before0 (c : Dev nD) (t : Fin cfg0.N) (d) : (dat0 V c).before 0 t d = iblk V c 0 t :=
  ((dat0 V c).before_in_eq_fetched 0 rfl (fun _ => rfl) (fun _ _ _ => rfl) (fun t => by rw [after0_0]; unfold Dat.blockOf iblk; rw [dat0_A]; try rfl) t d).trans
    (by unfold Dat.fetched Dat.blockOf iblk; rw [dat0_A]; try rfl)
theorem before1 (c : Dev nD) (t : Fin cfg0.N) (d) : (dat0 V c).before 1 t d = iblk V c 1 t :=
  ((dat0 V c).before_in_eq_fetched 1 rfl (fun _ => rfl) (fun _ _ _ => rfl) (fun t => by rw [after0_1]; unfold Dat.blockOf iblk; rw [dat0_A]; try rfl) t d).trans
    (by unfold Dat.fetched Dat.blockOf iblk; rw [dat0_A]; try rfl)
theorem before2 (c : Dev nD) (t : Fin cfg0.N) (d) : (dat0 V c).before 2 t d = iblk V c 2 t :=
  ((dat0 V c).before_in_eq_fetched 2 rfl (fun _ => rfl) (fun _ _ _ => rfl) (fun t => by rw [after0_2]; unfold Dat.blockOf iblk; rw [dat0_A]; try rfl) t d).trans
    (by unfold Dat.fetched Dat.blockOf iblk; rw [dat0_A]; try rfl)
theorem before3 (c : Dev nD) (t : Fin cfg0.N) (d) : (dat0 V c).before 3 t d = iblk V c 3 t :=
  ((dat0 V c).before_in_eq_fetched 3 rfl (fun _ => rfl) (fun _ _ _ => rfl) (fun t => by rw [after0_3]; unfold Dat.blockOf iblk; rw [dat0_A]; try rfl) t d).trans
    (by unfold Dat.fetched Dat.blockOf iblk; rw [dat0_A]; try rfl)

end Cert.KernelIdeal.Body

end
-- ==== Proof.IdealBodyFirstRuns.lean ====
import proofs.«161181_j22351009808686_2_alg».proof.Proof.IdealBodyKit

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F] [Named F]

local notation "𝕄" => MT nD τ sig Unit (Elt F) ℕ (UR sig nD τ) ℕ

variable (V : (c : Dev nD) → (b : Ref sig .tc) → Buf (Elt F) ((c : Thread nD τ).loc b))

/-! ## The body on any whole memrefs, at a first column block (both accumulators zeroed first) -/

set_option maxHeartbeats 4000000 in
theorem run_ttf (c : Dev nD) (i : grid0.Coords) (arg2 : Memref sig .tc .vmem S1024x128 .f32) (harg2 : arg2.IsWhole) (arg3 : Memref sig .tc .vmem S1024x128 .f32) (harg3 : arg3.IsWhole) (arg4 : Memref sig .tc .vmem S1024x1 .i32) (harg4 : arg4.IsWhole) (arg5 : Memref sig .tc .vmem S1x1024 .i32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (hc1 : cond1 i) (hc2 : cond2 i) (hc3 : ¬cond3 i)
    (x0 : Vec F S1024x128 .f32) (x1 : Vec F S1024x128 .f32) (x2 : Vec F S1024x1 .i32) (x3 : Vec F S1x1024 .i32) (s0 s1 : Vec F S1024x1 .f32) (xi : Vec F S1024x1 .f32) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3
        ∗ owns (c : Thread nD τ) arg6 fullShare xi ∗ owns (c : Thread nD τ) arg7 fullShare s0 ∗ owns (c : Thread nD τ) arg8 fullShare s1
        ∗ (iprop(owns (c : Thread nD τ) arg2 fullShare x0 ∗ owns (c : Thread nD τ) arg3 fullShare x1 ∗ owns (c : Thread nD τ) arg4 fullShare x2 ∗ owns (c : Thread nD τ) arg5 fullShare x3
            ∗ owns (c : Thread nD τ) arg6 fullShare xi ∗ owns (c : Thread nD τ) arg7 fullShare (k0_pay3 (k0_pay8 x0 x1) (k0_pay9 x0 x1 x2 x3 (k0_pay6 (F := F)))) ∗ owns (c : Thread nD τ) arg8 fullShare (k0_pay4 (k0_pay8 x0 x1) (k0_pay1 (k0_pay10 x0 x1 (k0_pay7 (F := F)))))) -∗ K ⟨⟩))
      ⊢ wp frame (wpE (defs₀ (F := F)) Variants.none c none) E (cc0__contrastive_kernel i arg2 harg2 arg3 harg3 arg4 harg4 arg5 harg5 arg6 harg6 arg7 harg7 arg8 harg8) K := by
  simp only [cc0__contrastive_kernel_eq_skeleton]; unfold cc0__contrastive_kernel_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%f6, %hf6, H6⟩, ⟨%f7, %hf7, H7⟩, ⟨%f8, %hf8, H8⟩, Hk⟩
  obtain rfl := harg2.eq_unread hf0; obtain rfl := harg3.eq_unread hf1; obtain rfl := harg4.eq_unread hf2; obtain rfl := harg5.eq_unread hf3
  obtain rfl := harg6.eq_unread hf6; obtain rfl := harg7.eq_unread hf7; obtain rfl := harg8.eq_unread hf8
  sl_exec (disch := first | exact hc1 | exact hc2 | exact hc3)
  sl_step
  have r0 : View.readAt (Elt F) arg2.view (Rect.unit ![0, 0] S1024x128.size Facts₀.inb_S1024x128_S1024x128_0_0).toLoadRect (harg2.unread x0) = x0 := readAt_unit_zero_unread harg2 zz _ x0
  have r1 : View.readAt (Elt F) arg3.view (Rect.unit ![0, 0] S1024x128.size Facts₀.inb_S1024x128_S1024x128_0_0).toLoadRect (harg3.unread x1) = x1 := readAt_unit_zero_unread harg3 zz _ x1
  have r2 : View.readAt (Elt F) arg4.view (Rect.unit ![0, 0] S1024x1.size Facts₀.inb_S1024x1_S1024x1_0_0).toLoadRect (harg4.unread x2) = x2 := readAt_unit_zero_unread harg4 zz _ x2
  have r3 : View.readAt (Elt F) arg5.view (Rect.unit ![0, 0] S1x1024.size Facts₀.inb_S1x1024_S1x1024_0_0).toLoadRect (harg5.unread x3) = x3 := readAt_unit_zero_unread harg5 zz _ x3
  have r7 : View.readAt (Elt F) arg7.view (Rect.unit ![0, 0] S1024x1.size Facts₀.inb_S1024x1_S1024x1_0_0).toLoadRect (harg7.unread s0) = s0 := readAt_unit_zero_unread harg7 zz _ s0
  have r8 : View.readAt (Elt F) arg8.view (Rect.unit ![0, 0] S1024x1.size Facts₀.inb_S1024x1_S1024x1_0_0).toLoadRect (harg8.unread s1) = s1 := readAt_unit_zero_unread harg8 zz _ s1
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H6]
  · iexists _; isplitr
    swap; · iexact H6
    ipureintro; exact harg6.read_unread _
  isplitl [H7]
  · iexists _; isplitr
    swap; · iexact H7
    ipureintro
    refine (read_writes_cons_unit_zero _ _ zz _ _ _).trans ?_
    sl_unfold_run_names
    simp only [r0, r1, r2, r3, r7, r8, readCov_cons_unit_zero arg7.view zz, readCov_cons_unit_zero arg8.view zz]
  · iexists _; isplitr
    swap; · iexact H8
    ipureintro
    refine (read_writes_cons_unit_zero _ _ zz _ _ _).trans ?_
    sl_unfold_run_names
    simp only [r0, r1, r2, r3, r7, r8, readCov_cons_unit_zero arg7.view zz, readCov_cons_unit_zero arg8.view zz]

set_option maxHeartbeats 4000000 in
theorem run_tff (c : Dev nD) (i : grid0.Coords) (arg2 : Memref sig .tc .vmem S1024x128 .f32) (harg2 : arg2.IsWhole) (arg3 : Memref sig .tc .vmem S1024x128 .f32) (harg3 : arg3.IsWhole) (arg4 : Memref sig .tc .vmem S1024x1 .i32) (harg4 : arg4.IsWhole) (arg5 : Memref sig .tc .vmem S1x1024 .i32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (hc1 : cond1 i) (hc2 : ¬cond2 i) (hc3 : ¬cond3 i)
    (x0 : Vec F S1024x128 .f32) (x1 : Vec F S1024x128 .f32) (x2 : Vec F S1024x1 .i32) (x3 : Vec F S1x1024 .i32) (s0 s1 : Vec F S1024x1 .f32) (xi : Vec F S1024x1 .f32) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3
        ∗ owns (c : Thread nD τ) arg6 fullShare xi ∗ owns (c : Thread nD τ) arg7 fullShare s0 ∗ owns (c : Thread nD τ) arg8 fullShare s1
        ∗ (iprop(owns (c : Thread nD τ) arg2 fullShare x0 ∗ owns (c : Thread nD τ) arg3 fullShare x1 ∗ owns (c : Thread nD τ) arg4 fullShare x2 ∗ owns (c : Thread nD τ) arg5 fullShare x3
            ∗ owns (c : Thread nD τ) arg6 fullShare xi ∗ owns (c : Thread nD τ) arg7 fullShare (k0_pay9 x0 x1 x2 x3 (k0_pay6 (F := F))) ∗ owns (c : Thread nD τ) arg8 fullShare (k0_pay1 (k0_pay10 x0 x1 (k0_pay7 (F := F))))) -∗ K ⟨⟩))
      ⊢ wp frame (wpE (defs₀ (F := F)) Variants.none c none) E (cc0__contrastive_kernel i arg2 harg2 arg3 harg3 arg4 harg4 arg5 harg5 arg6 harg6 arg7 harg7 arg8 harg8) K := by
  simp only [cc0__contrastive_kernel_eq_skeleton]; unfold cc0__contrastive_kernel_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%f6, %hf6, H6⟩, ⟨%f7, %hf7, H7⟩, ⟨%f8, %hf8, H8⟩, Hk⟩
  obtain rfl := harg2.eq_unread hf0; obtain rfl := harg3.eq_unread hf1; obtain rfl := harg4.eq_unread hf2; obtain rfl := harg5.eq_unread hf3
  obtain rfl := harg6.eq_unread hf6; obtain rfl := harg7.eq_unread hf7; obtain rfl := harg8.eq_unread hf8
  sl_exec (disch := first | exact hc1 | exact hc2 | exact hc3)
  sl_step
  have r0 : View.readAt (Elt F) arg2.view (Rect.unit ![0, 0] S1024x128.size Facts₀.inb_S1024x128_S1024x128_0_0).toLoadRect (harg2.unread x0) = x0 := readAt_unit_zero_unread harg2 zz _ x0
  have r1 : View.readAt (Elt F) arg3.view (Rect.unit ![0, 0] S1024x128.size Facts₀.inb_S1024x128_S1024x128_0_0).toLoadRect (harg3.unread x1) = x1 := readAt_unit_zero_unread harg3 zz _ x1
  have r2 : View.readAt (Elt F) arg4.view (Rect.unit ![0, 0] S1024x1.size Facts₀.inb_S1024x1_S1024x1_0_0).toLoadRect (harg4.unread x2) = x2 := readAt_unit_zero_unread harg4 zz _ x2
  have r3 : View.readAt (Elt F) arg5.view (Rect.unit ![0, 0] S1x1024.size Facts₀.inb_S1x1024_S1x1024_0_0).toLoadRect (harg5.unread x3) = x3 := readAt_unit_zero_unread harg5 zz _ x3
  have r7 : View.readAt (Elt F) arg7.view (Rect.unit ![0, 0] S1024x1.size Facts₀.inb_S1024x1_S1024x1_0_0).toLoadRect (harg7.unread s0) = s0 := readAt_unit_zero_unread harg7 zz _ s0
  have r8 : View.readAt (Elt F) arg8.view (Rect.unit ![0, 0] S1024x1.size Facts₀.inb_S1024x1_S1024x1_0_0).toLoadRect (harg8.unread s1) = s1 := readAt_unit_zero_unread harg8 zz _ s1
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H6]
  · iexists _; isplitr
    swap; · iexact H6
    ipureintro; exact harg6.read_unread _
  isplitl [H7]
  · iexists _; isplitr
    swap; · iexact H7
    ipureintro
    refine (read_writes_cons_unit_zero _ _ zz _ _ _).trans ?_
    sl_unfold_run_names
    simp only [r0, r1, r2, r3, r7, r8, readCov_cons_unit_zero arg7.view zz, readCov_cons_unit_zero arg8.view zz]
  · iexists _; isplitr
    swap; · iexact H8
    ipureintro
    refine (read_writes_cons_unit_zero _ _ zz _ _ _).trans ?_
    sl_unfold_run_names
    simp only [r0, r1, r2, r3, r7, r8, readCov_cons_unit_zero arg7.view zz, readCov_cons_unit_zero arg8.view zz]

end Cert.KernelIdeal.Body

end
-- ==== Proof.IdealBodyMid.lean ====
/-
  The kernel body at the points of the middle column blocks (0 < ki < 7), as a triple of the region's proof data.

  At such a point the body adds the block's labelled row sums and row sums to the two accumulators and, on the
  diagonal point (qi = ki), takes the rows' own entries off both. The inputs are left as found; the output block is
  not stored into and is handed back as given.
-/
import proofs.«161181_j22351009808686_2_alg».proof.Proof.IdealBodyData
import Idealize.ShloMosaic.Lib.WholeRead

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F] [Named F]

local notation "𝕄" => MT nD τ sig Unit (Elt F) ℕ (UR sig nD τ) ℕ

variable (V : (c : Dev nD) → (b : Ref sig .tc) → Buf (Elt F) ((c : Thread nD τ).loc b))

namespace Mid

/-! ## The body's three conditions, in closed form over the point -/

/-- First column block (ki = 0). -/
abbrev c1 (i : grid0.Coords) : Prop :=
  (Scalar.cmpi .ne (Scalar.extui (Scalar.cmpi .eq (BitVec.ofNat 32 (i 1).val) 0#32)) 0#32) = 1#1
theorem hc1 : ∀ t : Fin cfg0.N, c1 (grid0.coords t) ↔ t.val % 8 = 0 :=
  (by decide +kernel : ∀ t : Fin grid0.N, c1 (grid0.coords t) ↔ t.val % 8 = 0)
/-- Diagonal block (qi = ki). -/
abbrev c2 (i : grid0.Coords) : Prop :=
  (Scalar.cmpi .ne (Scalar.extui (Scalar.cmpi .eq (BitVec.ofNat 32 (i 0).val) (BitVec.ofNat 32 (i 1).val))) 0#32) = 1#1
theorem hc2 : ∀ t : Fin cfg0.N, c2 (grid0.coords t) ↔ t.val / 8 = t.val % 8 :=
  (by decide +kernel : ∀ t : Fin grid0.N, c2 (grid0.coords t) ↔ t.val / 8 = t.val % 8)
/-- Last column block (ki = 7). -/
abbrev c3 (i : grid0.Coords) : Prop := k0_cond3 i = 1#1
theorem hc3 : ∀ t : Fin cfg0.N, c3 (grid0.coords t) ↔ t.val % 8 = 7 :=
  (by decide +kernel : ∀ t : Fin grid0.N, c3 (grid0.coords t) ↔ t.val % 8 = 7)

/-! ## Where the windows are live -/

theorem live0 : ∀ t : Fin cfg0.N, cfg0.idle 0 (grid0.coords t) = false := by decide +kernel
theorem live1 : ∀ t : Fin cfg0.N, cfg0.idle 1 (grid0.coords t) = false := by decide +kernel
theorem live2 : ∀ t : Fin cfg0.N, cfg0.idle 2 (grid0.coords t) = false := by decide +kernel
theorem live3 : ∀ t : Fin cfg0.N, cfg0.idle 3 (grid0.coords t) = false := by decide +kernel
/-- Off the last column block the output window is idle and not written back. -/
theorem idle4 : ∀ t : Fin cfg0.N, ¬c3 (grid0.coords t) → cfg0.idle 4 (grid0.coords t) = true := by decide +kernel
theorem noFlush4 : ∀ t : Fin cfg0.N, ¬c3 (grid0.coords t) → (cfg0.win 4).flush t = false := by decide +kernel

/-! ## Whole-block loads and stores read back -/

section Whole
open Idealize.ShloMosaic.View
variable {Val : EltTy → Type} {sig' : RefSig} {κ : Kind} {sp : Space} {S : Shape} {e : EltTy}

/-- A load of the whole block from a whole memref held at the contents that read X reads X. -/
theorem readAt_whole_unread {m : Memref sig' κ sp S e} (h : m.IsWhole) {off : Fin S.rank → ℕ} (hoff : off = fun _ => 0)
    (inb : ∀ a, off a + S.size a ≤ S.size a) (X : S.Idx → Val e) :
    View.readAt Val m.view (Rect.unit off S.size inb).toLoadRect (h.unread X) = X := by
  subst hoff; funext x
  rw [Memref.IsWhole.readAt_unread]
  show X ((Rect.whole S).emb x) = X x
  rw [Rect.emb_whole_apply]

/-- A store of the whole block, last, leaves its payload whatever was stored before. -/
theorem read_writes_whole (v : View sig' κ sp S e) (f : v.ty.Contents Val) {off : Fin S.rank → ℕ} (hoff : off = fun _ => 0)
    (inb : ∀ a, off a + S.size a ≤ S.size a) (w : S.Idx → Val e) (L : List (Piece Val S e)) :
    v.read Val (v.writes Val f ((⟨Rect.unit off S.size inb, w⟩ : Piece Val S e) :: L)) = w := by
  subst hoff; funext y
  have e := View.read_writes_cons_emb v f (Rect.whole S) w L y
  rwa [Rect.emb_whole_apply] at e

/-- A load of the whole block after a store of the whole block reads the payload stored last. -/
theorem readCov_whole [∀ e, Nonempty (Val e)] (v : View sig' κ sp S e) {off : Fin S.rank → ℕ} (hoff : off = fun _ => 0)
    (inb : ∀ a, off a + S.size a ≤ S.size a) (w : S.Idx → Val e) (L : List (Piece Val S e)) :
    v.readCov ((⟨Rect.unit off S.size inb, w⟩ : Piece Val S e) :: L) (Rect.unit off S.size inb).toLoadRect = w := by
  subst hoff
  rw [View.readCov_eq_canon_ld _ _ _ (fun y => ⟨_, List.mem_cons_self, by
    show y ∈ (Rect.whole S).set; rw [Rect.set_whole]; exact Finset.mem_univ y⟩), View.canon_cons_unit_zero rfl, View.ld_unit_zero rfl]

theorem zz : (![0, 0] : Fin 2 → ℕ) = fun _ => 0 := by funext a; fin_cases a <;> rfl

end Whole

/-! ## What the staging buffers hold when the body runs -/

section Before
variable (c : Dev nD) (t : Fin cfg0.N)

/-- An input window's current staging buffer holds its block at every point, fetched there or not. -/
theorem before0 (d) : (dat0 V c).before 0 t d = iblk V c 0 t :=
  ((dat0 V c).before_in_eq_fetched 0 rfl (fun _ => rfl) (fun _ _ _ => rfl)
    (fun t => by rw [after0_0]; unfold Dat.blockOf iblk; rw [dat0_A]; try rfl) t d).trans
    (by unfold Dat.fetched Dat.blockOf iblk; rw [dat0_A]; try rfl)
theorem before1 (d) : (dat0 V c).before 1 t d = iblk V c 1 t :=
  ((dat0 V c).before_in_eq_fetched 1 rfl (fun _ => rfl) (fun _ _ _ => rfl)
    (fun t => by rw [after0_1]; unfold Dat.blockOf iblk; rw [dat0_A]; try rfl) t d).trans
    (by unfold Dat.fetched Dat.blockOf iblk; rw [dat0_A]; try rfl)
theorem before2 (d) : (dat0 V c).before 2 t d = iblk V c 2 t :=
  ((dat0 V c).before_in_eq_fetched 2 rfl (fun _ => rfl) (fun _ _ _ => rfl)
    (fun t => by rw [after0_2]; unfold Dat.blockOf iblk; rw [dat0_A]; try rfl) t d).trans
    (by unfold Dat.fetched Dat.blockOf iblk; rw [dat0_A]; try rfl)
theorem before3 (d) : (dat0 V c).before 3 t d = iblk V c 3 t :=
  ((dat0 V c).before_in_eq_fetched 3 rfl (fun _ => rfl) (fun _ _ _ => rfl)
    (fun t => by rw [after0_3]; unfold Dat.blockOf iblk; rw [dat0_A]; try rfl) t d).trans
    (by unfold Dat.fetched Dat.blockOf iblk; rw [dat0_A]; try rfl)

/-- An input window's post: its staging buffer at its block. -/
theorem leaves0 : (dat0 V c).leavesExact 0 t = owns (c : Thread nD τ) (st0_0 t) fullShare (iblk V c 0 t) := by
  rw [show (dat0 V c).leavesExact 0 t = owns (c : Thread nD τ) (st0_0 t) fullShare ((dat0 V c).after 0 t) from by
    unfold Dat.leavesExact; rw [live0 t], after0_0]
theorem leaves1 : (dat0 V c).leavesExact 1 t = owns (c : Thread nD τ) (st0_1 t) fullShare (iblk V c 1 t) := by
  rw [show (dat0 V c).leavesExact 1 t = owns (c : Thread nD τ) (st0_1 t) fullShare ((dat0 V c).after 1 t) from by
    unfold Dat.leavesExact; rw [live1 t], after0_1]
theorem leaves2 : (dat0 V c).leavesExact 2 t = owns (c : Thread nD τ) (st0_2 t) fullShare (iblk V c 2 t) := by
  rw [show (dat0 V c).leavesExact 2 t = owns (c : Thread nD τ) (st0_2 t) fullShare ((dat0 V c).after 2 t) from by
    unfold Dat.leavesExact; rw [live2 t], after0_2]
theorem leaves3 : (dat0 V c).leavesExact 3 t = owns (c : Thread nD τ) (st0_3 t) fullShare (iblk V c 3 t) := by
  rw [show (dat0 V c).leavesExact 3 t = owns (c : Thread nD τ) (st0_3 t) fullShare ((dat0 V c).after 3 t) from by
    unfold Dat.leavesExact; rw [live3 t], after0_3]

end Before

set_option maxHeartbeats 4000000 in
/-- The body off the diagonal at a middle column block: the accumulators gain the block's sums; the output block is not touched. -/
theorem run_fff (c : Dev nD) (i : grid0.Coords) (arg2 : Memref sig .tc .vmem S1024x128 .f32) (harg2 : arg2.IsWhole) (arg3 : Memref sig .tc .vmem S1024x128 .f32) (harg3 : arg3.IsWhole) (arg4 : Memref sig .tc .vmem S1024x1 .i32) (harg4 : arg4.IsWhole) (arg5 : Memref sig .tc .vmem S1x1024 .i32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (h1 : ¬c1 i) (h2 : ¬c2 i) (h3 : ¬c3 i)
    (x0 : Vec F S1024x128 .f32) (x1 : Vec F S1024x128 .f32) (x2 : Vec F S1024x1 .i32) (x3 : Vec F S1x1024 .i32) (s0 s1 : Vec F S1024x1 .f32) (xi : Vec F S1024x1 .f32) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3
        ∗ owns (c : Thread nD τ) arg6 fullShare xi ∗ owns (c : Thread nD τ) arg7 fullShare s0 ∗ owns (c : Thread nD τ) arg8 fullShare s1
        ∗ (iprop(owns (c : Thread nD τ) arg2 fullShare x0 ∗ owns (c : Thread nD τ) arg3 fullShare x1 ∗ owns (c : Thread nD τ) arg4 fullShare x2 ∗ owns (c : Thread nD τ) arg5 fullShare x3
            ∗ owns (c : Thread nD τ) arg6 fullShare xi
            ∗ owns (c : Thread nD τ) arg7 fullShare (k0_pay9 x0 x1 x2 x3 s0) ∗ owns (c : Thread nD τ) arg8 fullShare (k0_pay1 (k0_pay10 x0 x1 s1))) -∗ K ⟨⟩))
      ⊢ wp frame (wpE (defs₀ (F := F)) Variants.none c none) E (cc0__contrastive_kernel i arg2 harg2 arg3 harg3 arg4 harg4 arg5 harg5 arg6 harg6 arg7 harg7 arg8 harg8) K := by
  simp only [cc0__contrastive_kernel_eq_skeleton]; unfold cc0__contrastive_kernel_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%f6, %hf6, H6⟩, ⟨%f7, %hf7, H7⟩, ⟨%f8, %hf8, H8⟩, Hk⟩
  obtain rfl := harg2.eq_unread hf0; obtain rfl := harg3.eq_unread hf1; obtain rfl := harg4.eq_unread hf2; obtain rfl := harg5.eq_unread hf3
  obtain rfl := harg6.eq_unread hf6; obtain rfl := harg7.eq_unread hf7; obtain rfl := harg8.eq_unread hf8
  sl_exec (disch := first | exact h1 | exact h2 | exact h3)
  sl_step
  have r0 : ∀ inb, View.readAt (Elt F) arg2.view (Rect.unit ![0, 0] S1024x128.size inb).toLoadRect (harg2.unread x0) = x0 :=
    fun inb => readAt_whole_unread harg2 zz inb x0
  have r1 : ∀ inb, View.readAt (Elt F) arg3.view (Rect.unit ![0, 0] S1024x128.size inb).toLoadRect (harg3.unread x1) = x1 :=
    fun inb => readAt_whole_unread harg3 zz inb x1
  have r2 : ∀ inb, View.readAt (Elt F) arg4.view (Rect.unit ![0, 0] S1024x1.size inb).toLoadRect (harg4.unread x2) = x2 :=
    fun inb => readAt_whole_unread harg4 zz inb x2
  have r3 : ∀ inb, View.readAt (Elt F) arg5.view (Rect.unit ![0, 0] S1x1024.size inb).toLoadRect (harg5.unread x3) = x3 :=
    fun inb => readAt_whole_unread harg5 zz inb x3
  have r7 : ∀ inb, View.readAt (Elt F) arg7.view (Rect.unit ![0, 0] S1024x1.size inb).toLoadRect (harg7.unread s0) = s0 :=
    fun inb => readAt_whole_unread harg7 zz inb s0
  have r8 : ∀ inb, View.readAt (Elt F) arg8.view (Rect.unit ![0, 0] S1024x1.size inb).toLoadRect (harg8.unread s1) = s1 :=
    fun inb => readAt_whole_unread harg8 zz inb s1
  have q7 : ∀ inb w L, arg7.view.readCov ((⟨Rect.unit ![0, 0] S1024x1.size inb, w⟩ : View.Piece (Elt F) S1024x1 .f32) :: L)
      (Rect.unit ![0, 0] S1024x1.size inb).toLoadRect = w := fun inb w L => readCov_whole arg7.view zz inb w L
  have q8 : ∀ inb w L, arg8.view.readCov ((⟨Rect.unit ![0, 0] S1024x1.size inb, w⟩ : View.Piece (Elt F) S1024x1 .f32) :: L)
      (Rect.unit ![0, 0] S1024x1.size inb).toLoadRect = w := fun inb w L => readCov_whole arg8.view zz inb w L
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H6]
  · iexists _; isplitr; · ipureintro; exact harg6.read_unread _
    iexact H6
  isplitl [H7]
  · iexists _; isplitr
    swap; · iexact H7
    ipureintro
    refine (read_writes_whole _ _ zz _ _ _).trans ?_
    sl_unfold_run_names
    dsimp only
    simp only [r0, r1, r2, r3, r7, r8, q7, q8]
  iexists _; isplitr
  swap; · iexact H8
  ipureintro
  refine (read_writes_whole _ _ zz _ _ _).trans ?_
  sl_unfold_run_names
  dsimp only
  simp only [r0, r1, r2, r3, r7, r8, q7, q8]

set_option maxHeartbeats 4000000 in
/-- The body on the diagonal at a middle column block: the accumulators gain the block's sums less the rows' own entries; the output block is not touched. -/
theorem run_ftf (c : Dev nD) (i : grid0.Coords) (arg2 : Memref sig .tc .vmem S1024x128 .f32) (harg2 : arg2.IsWhole) (arg3 : Memref sig .tc .vmem S1024x128 .f32) (harg3 : arg3.IsWhole) (arg4 : Memref sig .tc .vmem S1024x1 .i32) (harg4 : arg4.IsWhole) (arg5 : Memref sig .tc .vmem S1x1024 .i32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (h1 : ¬c1 i) (h2 : c2 i) (h3 : ¬c3 i)
    (x0 : Vec F S1024x128 .f32) (x1 : Vec F S1024x128 .f32) (x2 : Vec F S1024x1 .i32) (x3 : Vec F S1x1024 .i32) (s0 s1 : Vec F S1024x1 .f32) (xi : Vec F S1024x1 .f32) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3
        ∗ owns (c : Thread nD τ) arg6 fullShare xi ∗ owns (c : Thread nD τ) arg7 fullShare s0 ∗ owns (c : Thread nD τ) arg8 fullShare s1
        ∗ (iprop(owns (c : Thread nD τ) arg2 fullShare x0 ∗ owns (c : Thread nD τ) arg3 fullShare x1 ∗ owns (c : Thread nD τ) arg4 fullShare x2 ∗ owns (c : Thread nD τ) arg5 fullShare x3
            ∗ owns (c : Thread nD τ) arg6 fullShare xi
            ∗ owns (c : Thread nD τ) arg7 fullShare (k0_pay3 (k0_pay8 x0 x1) (k0_pay9 x0 x1 x2 x3 s0)) ∗ owns (c : Thread nD τ) arg8 fullShare (k0_pay4 (k0_pay8 x0 x1) (k0_pay1 (k0_pay10 x0 x1 s1)))) -∗ K ⟨⟩))
      ⊢ wp frame (wpE (defs₀ (F := F)) Variants.none c none) E (cc0__contrastive_kernel i arg2 harg2 arg3 harg3 arg4 harg4 arg5 harg5 arg6 harg6 arg7 harg7 arg8 harg8) K := by
  simp only [cc0__contrastive_kernel_eq_skeleton]; unfold cc0__contrastive_kernel_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%f6, %hf6, H6⟩, ⟨%f7, %hf7, H7⟩, ⟨%f8, %hf8, H8⟩, Hk⟩
  obtain rfl := harg2.eq_unread hf0; obtain rfl := harg3.eq_unread hf1; obtain rfl := harg4.eq_unread hf2; obtain rfl := harg5.eq_unread hf3
  obtain rfl := harg6.eq_unread hf6; obtain rfl := harg7.eq_unread hf7; obtain rfl := harg8.eq_unread hf8
  sl_exec (disch := first | exact h1 | exact h2 | exact h3)
  sl_step
  have r0 : ∀ inb, View.readAt (Elt F) arg2.view (Rect.unit ![0, 0] S1024x128.size inb).toLoadRect (harg2.unread x0) = x0 :=
    fun inb => readAt_whole_unread harg2 zz inb x0
  have r1 : ∀ inb, View.readAt (Elt F) arg3.view (Rect.unit ![0, 0] S1024x128.size inb).toLoadRect (harg3.unread x1) = x1 :=
    fun inb => readAt_whole_unread harg3 zz inb x1
  have r2 : ∀ inb, View.readAt (Elt F) arg4.view (Rect.unit ![0, 0] S1024x1.size inb).toLoadRect (harg4.unread x2) = x2 :=
    fun inb => readAt_whole_unread harg4 zz inb x2
  have r3 : ∀ inb, View.readAt (Elt F) arg5.view (Rect.unit ![0, 0] S1x1024.size inb).toLoadRect (harg5.unread x3) = x3 :=
    fun inb => readAt_whole_unread harg5 zz inb x3
  have r7 : ∀ inb, View.readAt (Elt F) arg7.view (Rect.unit ![0, 0] S1024x1.size inb).toLoadRect (harg7.unread s0) = s0 :=
    fun inb => readAt_whole_unread harg7 zz inb s0
  have r8 : ∀ inb, View.readAt (Elt F) arg8.view (Rect.unit ![0, 0] S1024x1.size inb).toLoadRect (harg8.unread s1) = s1 :=
    fun inb => readAt_whole_unread harg8 zz inb s1
  have q7 : ∀ inb w L, arg7.view.readCov ((⟨Rect.unit ![0, 0] S1024x1.size inb, w⟩ : View.Piece (Elt F) S1024x1 .f32) :: L)
      (Rect.unit ![0, 0] S1024x1.size inb).toLoadRect = w := fun inb w L => readCov_whole arg7.view zz inb w L
  have q8 : ∀ inb w L, arg8.view.readCov ((⟨Rect.unit ![0, 0] S1024x1.size inb, w⟩ : View.Piece (Elt F) S1024x1 .f32) :: L)
      (Rect.unit ![0, 0] S1024x1.size inb).toLoadRect = w := fun inb w L => readCov_whole arg8.view zz inb w L
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H6]
  · iexists _; isplitr; · ipureintro; exact harg6.read_unread _
    iexact H6
  isplitl [H7]
  · iexists _; isplitr
    swap; · iexact H7
    ipureintro
    refine (read_writes_whole _ _ zz _ _ _).trans ?_
    sl_unfold_run_names
    dsimp only
    simp only [r0, r1, r2, r3, r7, r8, q7, q8]
  iexists _; isplitr
  swap; · iexact H8
  ipureintro
  refine (read_writes_whole _ _ zz _ _ _).trans ?_
  sl_unfold_run_names
  dsimp only
  simp only [r0, r1, r2, r3, r7, r8, q7, q8]

end Mid

set_option maxHeartbeats 4000000 in
/-- The body's triple at a point of a middle column block. -/
theorem sound_mid (c : Dev nD) (t : Fin cfg0.N) (h0 : t.val % 8 ≠ 0) (h7 : t.val % 8 ≠ 7) :
    iprop((dat0 V c).Φ t.castSucc ∗ (dat0 V c).owesAt () t.castSucc
      ∗ (∃ d, owns (c : Thread nD τ) (st0_0 t) fullShare ((dat0 V c).before 0 t d))
      ∗ (∃ d, owns (c : Thread nD τ) (st0_1 t) fullShare ((dat0 V c).before 1 t d))
      ∗ (∃ d, owns (c : Thread nD τ) (st0_2 t) fullShare ((dat0 V c).before 2 t d))
      ∗ (∃ d, owns (c : Thread nD τ) (st0_3 t) fullShare ((dat0 V c).before 3 t d))
      ∗ (∃ d, owns (c : Thread nD τ) (st0_4 t) fullShare ((dat0 V c).before 4 t d)))
    ⊢ wp frame (wpE (defs₀ (F := F)) Variants.none c none) Set.univ (bodyAt0 t) (fun _ =>
      iprop((dat0 V c).Φ t.succ ∗ (dat0 V c).owesAt () t.succ
        ∗ (dat0 V c).leavesExact 0 t
        ∗ (dat0 V c).leavesExact 1 t
        ∗ (dat0 V c).leavesExact 2 t
        ∗ (dat0 V c).leavesExact 3 t
        ∗ (dat0 V c).leavesExact 4 t)) := by
  have hz : t.val ≠ 0 := fun e => h0 (by rw [e])
  have n1 : ¬Mid.c1 (grid0.coords t) := fun h => h0 ((Mid.hc1 t).mp h)
  have n3 : ¬Mid.c3 (grid0.coords t) := fun h => h7 ((Mid.hc3 t).mp h)
  simp only [Mid.before0, Mid.before1, Mid.before2, Mid.before3]
  rw [Mid.leaves0, Mid.leaves1, Mid.leaves2, Mid.leaves3,
    Dat.leavesExact_idle (dat0 V c) 4 t (Mid.idle4 t n3) (Mid.noFlush4 t n3)]
  rw [show (dat0 V c).owesAt () t.succ = (dat0 V c).owesAt () t.castSucc from rfl]
  rw [show (dat0 V c).Φ t.succ = PhiS V c (t.val + 1) t.isLt from rfl, PhiS_succ]
  rw [show (dat0 V c).Φ t.castSucc = PhiS V c t.val (Nat.le_of_lt t.isLt) from rfl, PhiS_pos V c _ _ hz]
  rw [accAt_pos V c t hz]
  by_cases hd : t.val / 8 = t.val % 8
  · rw [accStep_diag V c t h0 hd]
    unfold expBlk
    iintro ⟨⟨Hg, HN, HD⟩, Ho, ⟨%d0, H0⟩, ⟨%d1, H1⟩, ⟨%d2, H2⟩, ⟨%d3, H3⟩, ⟨%d4, H4⟩⟩
    iapply (Mid.run_ftf c (grid0.coords t) _ _ _ _ _ _ _ _ _ _ _ _ _ _ n1 ((Mid.hc2 t).mpr hd) n3
      (iblk V c 0 t) (iblk V c 1 t) (iblk V c 2 t) (iblk V c 3 t) _ _ _ Set.univ _)
    isplitl [H0]; · iexact H0
    isplitl [H1]; · iexact H1
    isplitl [H2]; · iexact H2
    isplitl [H3]; · iexact H3
    isplitl [H4]; · iexact H4
    isplitl [HN]; · iexact HN
    isplitl [HD]; · iexact HD
    iintro ⟨H0, H1, H2, H3, H4, HN, HD⟩
    isplitl [Hg HN HD]
    · isplitl [Hg]; · iexact Hg
      isplitl [HN]; · iexact HN
      iexact HD
    isplitl [Ho]; · iexact Ho
    isplitl [H0]; · iexact H0
    isplitl [H1]; · iexact H1
    isplitl [H2]; · iexact H2
    isplitl [H3]; · iexact H3
    iexists _; iexact H4
  · rw [accStep_offdiag V c t h0 hd]
    iintro ⟨⟨Hg, HN, HD⟩, Ho, ⟨%d0, H0⟩, ⟨%d1, H1⟩, ⟨%d2, H2⟩, ⟨%d3, H3⟩, ⟨%d4, H4⟩⟩
    iapply (Mid.run_fff c (grid0.coords t) _ _ _ _ _ _ _ _ _ _ _ _ _ _ n1 (fun h => hd ((Mid.hc2 t).mp h)) n3
      (iblk V c 0 t) (iblk V c 1 t) (iblk V c 2 t) (iblk V c 3 t) _ _ _ Set.univ _)
    isplitl [H0]; · iexact H0
    isplitl [H1]; · iexact H1
    isplitl [H2]; · iexact H2
    isplitl [H3]; · iexact H3
    isplitl [H4]; · iexact H4
    isplitl [HN]; · iexact HN
    isplitl [HD]; · iexact HD
    iintro ⟨H0, H1, H2, H3, H4, HN, HD⟩
    isplitl [Hg HN HD]
    · isplitl [Hg]; · iexact Hg
      isplitl [HN]; · iexact HN
      iexact HD
    isplitl [Ho]; · iexact Ho
    isplitl [H0]; · iexact H0
    isplitl [H1]; · iexact H1
    isplitl [H2]; · iexact H2
    isplitl [H3]; · iexact H3
    iexists _; iexact H4

end Cert.KernelIdeal.Body

end
-- ==== Proof.IdealBodyLast.lean ====
/-
  The kernel body at the points of the last column block (ki = 7), as a triple of the region's proof data.

  At such a point the body adds the block's row sums to the two accumulators (and on the diagonal point,
  where also qi = 7, takes the rows' own entries off), then stores the logarithm of whole sum over labelled
  sum into the output block, which the pipeline writes back. The inputs are left as found.
-/
import proofs.«161181_j22351009808686_2_alg».proof.Proof.IdealBodyData
import Idealize.ShloMosaic.Lib.WholeRead

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F] [Named F]

local notation "𝕄" => MT nD τ sig Unit (Elt F) ℕ (UR sig nD τ) ℕ

variable (V : (c : Dev nD) → (b : Ref sig .tc) → Buf (Elt F) ((c : Thread nD τ).loc b))

namespace Last

/-! ## The body's three conditions, in closed form over the point -/

/-- First column block (ki = 0). -/
abbrev c1 (i : grid0.Coords) : Prop :=
  (Scalar.cmpi .ne (Scalar.extui (Scalar.cmpi .eq (BitVec.ofNat 32 (i 1).val) 0#32)) 0#32) = 1#1
theorem hc1 : ∀ t : Fin cfg0.N, c1 (grid0.coords t) ↔ t.val % 8 = 0 :=
  (by decide +kernel : ∀ t : Fin grid0.N, c1 (grid0.coords t) ↔ t.val % 8 = 0)
/-- Diagonal block (qi = ki). -/
abbrev c2 (i : grid0.Coords) : Prop :=
  (Scalar.cmpi .ne (Scalar.extui (Scalar.cmpi .eq (BitVec.ofNat 32 (i 0).val) (BitVec.ofNat 32 (i 1).val))) 0#32) = 1#1
theorem hc2 : ∀ t : Fin cfg0.N, c2 (grid0.coords t) ↔ t.val / 8 = t.val % 8 :=
  (by decide +kernel : ∀ t : Fin grid0.N, c2 (grid0.coords t) ↔ t.val / 8 = t.val % 8)
/-- Last column block (ki = 7). -/
abbrev c3 (i : grid0.Coords) : Prop := k0_cond3 i = 1#1
theorem hc3 : ∀ t : Fin cfg0.N, c3 (grid0.coords t) ↔ t.val % 8 = 7 :=
  (by decide +kernel : ∀ t : Fin grid0.N, c3 (grid0.coords t) ↔ t.val % 8 = 7)

/-! ## Where the windows are live -/

theorem live0 : ∀ t : Fin cfg0.N, cfg0.idle 0 (grid0.coords t) = false := by decide +kernel
theorem live1 : ∀ t : Fin cfg0.N, cfg0.idle 1 (grid0.coords t) = false := by decide +kernel
theorem live2 : ∀ t : Fin cfg0.N, cfg0.idle 2 (grid0.coords t) = false := by decide +kernel
theorem live3 : ∀ t : Fin cfg0.N, cfg0.idle 3 (grid0.coords t) = false := by decide +kernel
/-- At the last column block the output window is live. -/
theorem live4 : ∀ t : Fin cfg0.N, c3 (grid0.coords t) → cfg0.idle 4 (grid0.coords t) = false := by decide +kernel

end Last

namespace Last

/-! ## Whole-block loads and stores read back -/

section Whole
open Idealize.ShloMosaic.View
variable {Val : EltTy → Type} {sig' : RefSig} {κ : Kind} {sp : Space} {S : Shape} {e : EltTy}

/-- A load of the whole block from a whole memref held at the contents that read X reads X. -/
theorem readAt_whole_unread {m : Memref sig' κ sp S e} (h : m.IsWhole) {off : Fin S.rank → ℕ} (hoff : off = fun _ => 0)
    (inb : ∀ a, off a + S.size a ≤ S.size a) (X : S.Idx → Val e) :
    View.readAt Val m.view (Rect.unit off S.size inb).toLoadRect (h.unread X) = X := by
  subst hoff; funext x
  rw [Memref.IsWhole.readAt_unread]
  show X ((Rect.whole S).emb x) = X x
  rw [Rect.emb_whole_apply]

/-- A store of the whole block, last, leaves its payload whatever was stored before. -/
theorem read_writes_whole (v : View sig' κ sp S e) (f : v.ty.Contents Val) {off : Fin S.rank → ℕ} (hoff : off = fun _ => 0)
    (inb : ∀ a, off a + S.size a ≤ S.size a) (w : S.Idx → Val e) (L : List (Piece Val S e)) :
    v.read Val (v.writes Val f ((⟨Rect.unit off S.size inb, w⟩ : Piece Val S e) :: L)) = w := by
  subst hoff; funext y
  have e := View.read_writes_cons_emb v f (Rect.whole S) w L y
  rwa [Rect.emb_whole_apply] at e

/-- A load of the whole block after a store of the whole block reads the payload stored last. -/
theorem readCov_whole [∀ e, Nonempty (Val e)] (v : View sig' κ sp S e) {off : Fin S.rank → ℕ} (hoff : off = fun _ => 0)
    (inb : ∀ a, off a + S.size a ≤ S.size a) (w : S.Idx → Val e) (L : List (Piece Val S e)) :
    v.readCov ((⟨Rect.unit off S.size inb, w⟩ : Piece Val S e) :: L) (Rect.unit off S.size inb).toLoadRect = w := by
  subst hoff
  rw [View.readCov_eq_canon_ld _ _ _ (fun y => ⟨_, List.mem_cons_self, by
    show y ∈ (Rect.whole S).set; rw [Rect.set_whole]; exact Finset.mem_univ y⟩), View.canon_cons_unit_zero rfl, View.ld_unit_zero rfl]

theorem zz : (![0, 0] : Fin 2 → ℕ) = fun _ => 0 := by funext a; fin_cases a <;> rfl

end Whole

end Last

namespace Last
set_option maxHeartbeats 4000000 in
/-- The body off the diagonal at a last column block: the accumulators gain the block's sums and the output
    block takes the logarithm of their quotient. -/
theorem run_fft (c : Dev nD) (i : grid0.Coords) (arg2 : Memref sig .tc .vmem S1024x128 .f32) (harg2 : arg2.IsWhole) (arg3 : Memref sig .tc .vmem S1024x128 .f32) (harg3 : arg3.IsWhole) (arg4 : Memref sig .tc .vmem S1024x1 .i32) (harg4 : arg4.IsWhole) (arg5 : Memref sig .tc .vmem S1x1024 .i32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (h1 : ¬c1 i) (h2 : ¬c2 i) (h3 : c3 i)
    (x0 : Vec F S1024x128 .f32) (x1 : Vec F S1024x128 .f32) (x2 : Vec F S1024x1 .i32) (x3 : Vec F S1x1024 .i32) (s0 s1 : Vec F S1024x1 .f32) (xi : Vec F S1024x1 .f32) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3
        ∗ owns (c : Thread nD τ) arg6 fullShare xi ∗ owns (c : Thread nD τ) arg7 fullShare s0 ∗ owns (c : Thread nD τ) arg8 fullShare s1
        ∗ (iprop(owns (c : Thread nD τ) arg2 fullShare x0 ∗ owns (c : Thread nD τ) arg3 fullShare x1 ∗ owns (c : Thread nD τ) arg4 fullShare x2 ∗ owns (c : Thread nD τ) arg5 fullShare x3
            ∗ owns (c : Thread nD τ) arg6 fullShare (k0_pay5 (k0_pay9 x0 x1 x2 x3 s0) (k0_pay1 (k0_pay10 x0 x1 s1)))
            ∗ owns (c : Thread nD τ) arg7 fullShare (k0_pay9 x0 x1 x2 x3 s0) ∗ owns (c : Thread nD τ) arg8 fullShare (k0_pay1 (k0_pay10 x0 x1 s1))) -∗ K ⟨⟩))
      ⊢ wp frame (wpE (defs₀ (F := F)) Variants.none c none) E (cc0__contrastive_kernel i arg2 harg2 arg3 harg3 arg4 harg4 arg5 harg5 arg6 harg6 arg7 harg7 arg8 harg8) K := by
  simp only [cc0__contrastive_kernel_eq_skeleton]; unfold cc0__contrastive_kernel_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%f6, %hf6, H6⟩, ⟨%f7, %hf7, H7⟩, ⟨%f8, %hf8, H8⟩, Hk⟩
  obtain rfl := harg2.eq_unread hf0; obtain rfl := harg3.eq_unread hf1; obtain rfl := harg4.eq_unread hf2; obtain rfl := harg5.eq_unread hf3
  obtain rfl := harg6.eq_unread hf6; obtain rfl := harg7.eq_unread hf7; obtain rfl := harg8.eq_unread hf8
  sl_exec (disch := first | exact h1 | exact h2 | exact h3)
  sl_step
  have r0 : View.readAt (Elt F) arg2.view (Rect.unit ![0, 0] S1024x128.size Gen.inb_S1024x128_S1024x128_0_0).toLoadRect (harg2.unread x0) = x0 := readAt_whole_unread harg2 zz _ x0
  have r1 : View.readAt (Elt F) arg3.view (Rect.unit ![0, 0] S1024x128.size Gen.inb_S1024x128_S1024x128_0_0).toLoadRect (harg3.unread x1) = x1 := readAt_whole_unread harg3 zz _ x1
  have r2 : View.readAt (Elt F) arg4.view (Rect.unit ![0, 0] S1024x1.size Gen.inb_S1024x1_S1024x1_0_0).toLoadRect (harg4.unread x2) = x2 := readAt_whole_unread harg4 zz _ x2
  have r3 : View.readAt (Elt F) arg5.view (Rect.unit ![0, 0] S1x1024.size Gen.inb_S1x1024_S1x1024_0_0).toLoadRect (harg5.unread x3) = x3 := readAt_whole_unread harg5 zz _ x3
  have r7 : View.readAt (Elt F) arg7.view (Rect.unit ![0, 0] S1024x1.size Gen.inb_S1024x1_S1024x1_0_0).toLoadRect (harg7.unread s0) = s0 := readAt_whole_unread harg7 zz _ s0
  have r8 : View.readAt (Elt F) arg8.view (Rect.unit ![0, 0] S1024x1.size Gen.inb_S1024x1_S1024x1_0_0).toLoadRect (harg8.unread s1) = s1 := readAt_whole_unread harg8 zz _ s1
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H6]
  · iexists _; isplitr
    swap; · iexact H6
    ipureintro
    refine (read_writes_whole _ _ zz _ _ _).trans ?_
    sl_unfold_run_names
    rw [r0, r1, r2, r3, r7, r8]
    refine congrArg₂ (k0_pay5 (F := F)) ?_ ?_
    · exact readCov_whole _ zz _ _ _
    · exact readCov_whole _ zz _ _ _
  isplitl [H7]
  · iexists _; isplitr
    swap; · iexact H7
    ipureintro
    sl_unfold_run_names
    rw [r0, r1, r2, r3, r7]
    exact read_writes_whole _ _ zz _ _ _
  iexists _; isplitr
  swap; · iexact H8
  ipureintro
  sl_unfold_run_names
  rw [r0, r1, r8]
  exact read_writes_whole _ _ zz _ _ _

end Last

namespace Last
set_option maxHeartbeats 4000000 in
/-- The body on the diagonal at the last column block: as off it, with the rows' own entries taken off both
    accumulators before the logarithm. -/
theorem run_ftt (c : Dev nD) (i : grid0.Coords) (arg2 : Memref sig .tc .vmem S1024x128 .f32) (harg2 : arg2.IsWhole) (arg3 : Memref sig .tc .vmem S1024x128 .f32) (harg3 : arg3.IsWhole) (arg4 : Memref sig .tc .vmem S1024x1 .i32) (harg4 : arg4.IsWhole) (arg5 : Memref sig .tc .vmem S1x1024 .i32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (h1 : ¬c1 i) (h2 : c2 i) (h3 : c3 i)
    (x0 : Vec F S1024x128 .f32) (x1 : Vec F S1024x128 .f32) (x2 : Vec F S1024x1 .i32) (x3 : Vec F S1x1024 .i32) (s0 s1 : Vec F S1024x1 .f32) (xi : Vec F S1024x1 .f32) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3
        ∗ owns (c : Thread nD τ) arg6 fullShare xi ∗ owns (c : Thread nD τ) arg7 fullShare s0 ∗ owns (c : Thread nD τ) arg8 fullShare s1
        ∗ (iprop(owns (c : Thread nD τ) arg2 fullShare x0 ∗ owns (c : Thread nD τ) arg3 fullShare x1 ∗ owns (c : Thread nD τ) arg4 fullShare x2 ∗ owns (c : Thread nD τ) arg5 fullShare x3
            ∗ owns (c : Thread nD τ) arg6 fullShare (k0_pay5 (k0_pay3 (k0_pay8 x0 x1) (k0_pay9 x0 x1 x2 x3 s0)) (k0_pay4 (k0_pay8 x0 x1) (k0_pay1 (k0_pay10 x0 x1 s1))))
            ∗ owns (c : Thread nD τ) arg7 fullShare (k0_pay3 (k0_pay8 x0 x1) (k0_pay9 x0 x1 x2 x3 s0)) ∗ owns (c : Thread nD τ) arg8 fullShare (k0_pay4 (k0_pay8 x0 x1) (k0_pay1 (k0_pay10 x0 x1 s1)))) -∗ K ⟨⟩))
      ⊢ wp frame (wpE (defs₀ (F := F)) Variants.none c none) E (cc0__contrastive_kernel i arg2 harg2 arg3 harg3 arg4 harg4 arg5 harg5 arg6 harg6 arg7 harg7 arg8 harg8) K := by
  simp only [cc0__contrastive_kernel_eq_skeleton]; unfold cc0__contrastive_kernel_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%f6, %hf6, H6⟩, ⟨%f7, %hf7, H7⟩, ⟨%f8, %hf8, H8⟩, Hk⟩
  obtain rfl := harg2.eq_unread hf0; obtain rfl := harg3.eq_unread hf1; obtain rfl := harg4.eq_unread hf2; obtain rfl := harg5.eq_unread hf3
  obtain rfl := harg6.eq_unread hf6; obtain rfl := harg7.eq_unread hf7; obtain rfl := harg8.eq_unread hf8
  sl_exec (disch := first | exact h1 | exact h2 | exact h3)
  sl_step
  have r0 : View.readAt (Elt F) arg2.view (Rect.unit ![0, 0] S1024x128.size Gen.inb_S1024x128_S1024x128_0_0).toLoadRect (harg2.unread x0) = x0 := readAt_whole_unread harg2 zz _ x0
  have r1 : View.readAt (Elt F) arg3.view (Rect.unit ![0, 0] S1024x128.size Gen.inb_S1024x128_S1024x128_0_0).toLoadRect (harg3.unread x1) = x1 := readAt_whole_unread harg3 zz _ x1
  have r2 : View.readAt (Elt F) arg4.view (Rect.unit ![0, 0] S1024x1.size Gen.inb_S1024x1_S1024x1_0_0).toLoadRect (harg4.unread x2) = x2 := readAt_whole_unread harg4 zz _ x2
  have r3 : View.readAt (Elt F) arg5.view (Rect.unit ![0, 0] S1x1024.size Gen.inb_S1x1024_S1x1024_0_0).toLoadRect (harg5.unread x3) = x3 := readAt_whole_unread harg5 zz _ x3
  have r7 : View.readAt (Elt F) arg7.view (Rect.unit ![0, 0] S1024x1.size Gen.inb_S1024x1_S1024x1_0_0).toLoadRect (harg7.unread s0) = s0 := readAt_whole_unread harg7 zz _ s0
  have r8 : View.readAt (Elt F) arg8.view (Rect.unit ![0, 0] S1024x1.size Gen.inb_S1024x1_S1024x1_0_0).toLoadRect (harg8.unread s1) = s1 := readAt_whole_unread harg8 zz _ s1
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H6]
  · iexists _; isplitr
    swap; · iexact H6
    ipureintro
    refine (read_writes_whole _ _ zz _ _ _).trans ?_
    sl_unfold_run_names
    simp only [r0, r1, r2, r3, r7, r8, readCov_whole arg7.view zz, readCov_whole arg8.view zz]
  isplitl [H7]
  · iexists _; isplitr
    swap; · iexact H7
    ipureintro
    refine (read_writes_whole _ _ zz _ _ _).trans ?_
    sl_unfold_run_names
    simp only [r0, r1, r2, r3, r7, r8, readCov_whole arg7.view zz, readCov_whole arg8.view zz]
  iexists _; isplitr
  swap; · iexact H8
  ipureintro
  refine (read_writes_whole _ _ zz _ _ _).trans ?_
  sl_unfold_run_names
  simp only [r0, r1, r2, r3, r7, r8, readCov_whole arg7.view zz, readCov_whole arg8.view zz]

end Last

namespace Last

/-! ## What the windows' buffers hold when the body is called -/

/-- An input window's current buffer holds its block at every point, fetched there or kept from the point before. -/
theorem before_in0 (c : Dev nD) (t : Fin cfg0.N) (d) : (dat0 V c).before 0 t d = iblk V c 0 t :=
  ((dat0 V c).before_in_eq_fetched 0 rfl (fun _ => rfl) (fun _ _ _ => rfl)
    (fun t => by rw [after0_0]; unfold Dat.blockOf iblk; rw [dat0_A]; try rfl) t d).trans
    (by unfold Dat.fetched Dat.blockOf iblk; rw [dat0_A]; try rfl)
theorem before_in1 (c : Dev nD) (t : Fin cfg0.N) (d) : (dat0 V c).before 1 t d = iblk V c 1 t :=
  ((dat0 V c).before_in_eq_fetched 1 rfl (fun _ => rfl) (fun _ _ _ => rfl)
    (fun t => by rw [after0_1]; unfold Dat.blockOf iblk; rw [dat0_A]; try rfl) t d).trans
    (by unfold Dat.fetched Dat.blockOf iblk; rw [dat0_A]; try rfl)
theorem before_in2 (c : Dev nD) (t : Fin cfg0.N) (d) : (dat0 V c).before 2 t d = iblk V c 2 t :=
  ((dat0 V c).before_in_eq_fetched 2 rfl (fun _ => rfl) (fun _ _ _ => rfl)
    (fun t => by rw [after0_2]; unfold Dat.blockOf iblk; rw [dat0_A]; try rfl) t d).trans
    (by unfold Dat.fetched Dat.blockOf iblk; rw [dat0_A]; try rfl)
theorem before_in3 (c : Dev nD) (t : Fin cfg0.N) (d) : (dat0 V c).before 3 t d = iblk V c 3 t :=
  ((dat0 V c).before_in_eq_fetched 3 rfl (fun _ => rfl) (fun _ _ _ => rfl)
    (fun t => by rw [after0_3]; unfold Dat.blockOf iblk; rw [dat0_A]; try rfl) t d).trans
    (by unfold Dat.fetched Dat.blockOf iblk; rw [dat0_A]; try rfl)

/-- The invariant at a point's start, restated at the point's number. -/
theorem Phi_castSucc (c : Dev nD) (t : Fin cfg0.N) :
    (dat0 V c).Φ t.castSucc = PhiS V c t.val (Nat.le_of_lt t.isLt) := rfl

end Last

set_option maxHeartbeats 4800000 in
/-- The body's triple at a point of the last column block. -/
theorem sound_last (c : Dev nD) (t : Fin cfg0.N) (h7 : t.val % 8 = 7) :
    iprop((dat0 V c).Φ t.castSucc ∗ (dat0 V c).owesAt () t.castSucc
      ∗ (∃ d, owns (c : Thread nD τ) (st0_0 t) fullShare ((dat0 V c).before 0 t d))
      ∗ (∃ d, owns (c : Thread nD τ) (st0_1 t) fullShare ((dat0 V c).before 1 t d))
      ∗ (∃ d, owns (c : Thread nD τ) (st0_2 t) fullShare ((dat0 V c).before 2 t d))
      ∗ (∃ d, owns (c : Thread nD τ) (st0_3 t) fullShare ((dat0 V c).before 3 t d))
      ∗ (∃ d, owns (c : Thread nD τ) (st0_4 t) fullShare ((dat0 V c).before 4 t d)))
    ⊢ wp frame (wpE (defs₀ (F := F)) Variants.none c none) Set.univ (bodyAt0 t) (fun _ =>
      iprop((dat0 V c).Φ t.succ ∗ (dat0 V c).owesAt () t.succ
        ∗ (dat0 V c).leavesExact 0 t
        ∗ (dat0 V c).leavesExact 1 t
        ∗ (dat0 V c).leavesExact 2 t
        ∗ (dat0 V c).leavesExact 3 t
        ∗ (dat0 V c).leavesExact 4 t)) := by
  have hN : t.val < 64 := lt_of_lt_of_eq t.isLt N_0
  have hz : t.val ≠ 0 := by omega
  have h0 : ¬t.val % 8 = 0 := by omega
  have hk1 : ¬Last.c1 (grid0.coords t) := fun h => h0 ((Last.hc1 t).mp h)
  have hk3 : Last.c3 (grid0.coords t) := (Last.hc3 t).mpr h7
  unfold bodyAt0
  simp only [Last.before_in0, Last.before_in1, Last.before_in2, Last.before_in3]
  rw [show (dat0 V c).owesAt () t.succ = (dat0 V c).owesAt () t.castSucc from rfl]
  rw [show (dat0 V c).Φ t.succ = PhiS V c (t.val + 1) t.isLt from rfl, PhiS_succ]
  rw [show (dat0 V c).leavesExact 0 t = owns (c : Thread nD τ) (st0_0 t) fullShare ((dat0 V c).after 0 t) from by
    unfold Dat.leavesExact; rw [Last.live0 t], after0_0]
  rw [show (dat0 V c).leavesExact 1 t = owns (c : Thread nD τ) (st0_1 t) fullShare ((dat0 V c).after 1 t) from by
    unfold Dat.leavesExact; rw [Last.live1 t], after0_1]
  rw [show (dat0 V c).leavesExact 2 t = owns (c : Thread nD τ) (st0_2 t) fullShare ((dat0 V c).after 2 t) from by
    unfold Dat.leavesExact; rw [Last.live2 t], after0_2]
  rw [show (dat0 V c).leavesExact 3 t = owns (c : Thread nD τ) (st0_3 t) fullShare ((dat0 V c).after 3 t) from by
    unfold Dat.leavesExact; rw [Last.live3 t], after0_3]
  rw [show (dat0 V c).leavesExact 4 t = owns (c : Thread nD τ) (st0_4 t) fullShare ((dat0 V c).after 4 t) from by
    unfold Dat.leavesExact; rw [Last.live4 t hk3], after0_4]
  rw [Last.Phi_castSucc V c t, PhiS_pos V c _ _ hz]
  unfold outAt
  by_cases hd : t.val / 8 = t.val % 8
  · have hk2 : Last.c2 (grid0.coords t) := (Last.hc2 t).mpr hd
    rw [accAt_pos V c t hz, accStep_diag V c t h0 hd]
    unfold expBlk
    iintro ⟨⟨Hg, HN, HD⟩, Ho, ⟨%d0, H0⟩, ⟨%d1, H1⟩, ⟨%d2, H2⟩, ⟨%d3, H3⟩, ⟨%d4, H4⟩⟩
    iapply (Last.run_ftt c (grid0.coords t) _ _ _ _ _ _ _ _ _ _ _ _ _ _ hk1 hk2 hk3 (iblk V c 0 t) (iblk V c 1 t) (iblk V c 2 t) (iblk V c 3 t) _ _ _ Set.univ _)
    isplitl [H0]; · iexact H0
    isplitl [H1]; · iexact H1
    isplitl [H2]; · iexact H2
    isplitl [H3]; · iexact H3
    isplitl [H4]; · iexact H4
    isplitl [HN]; · iexact HN
    isplitl [HD]; · iexact HD
    iintro ⟨H0, H1, H2, H3, H4, HN, HD⟩
    isplitl [Hg HN HD]
    · isplitl [Hg]; · iexact Hg
      isplitl [HN]; · iexact HN
      iexact HD
    isplitl [Ho]; · iexact Ho
    isplitl [H0]; · iexact H0
    isplitl [H1]; · iexact H1
    isplitl [H2]; · iexact H2
    isplitl [H3]; · iexact H3
    iexact H4
  · have hk2 : ¬Last.c2 (grid0.coords t) := fun h => hd ((Last.hc2 t).mp h)
    rw [accAt_pos V c t hz, accStep_offdiag V c t h0 hd]
    iintro ⟨⟨Hg, HN, HD⟩, Ho, ⟨%d0, H0⟩, ⟨%d1, H1⟩, ⟨%d2, H2⟩, ⟨%d3, H3⟩, ⟨%d4, H4⟩⟩
    iapply (Last.run_fft c (grid0.coords t) _ _ _ _ _ _ _ _ _ _ _ _ _ _ hk1 hk2 hk3 (iblk V c 0 t) (iblk V c 1 t) (iblk V c 2 t) (iblk V c 3 t) _ _ _ Set.univ _)
    isplitl [H0]; · iexact H0
    isplitl [H1]; · iexact H1
    isplitl [H2]; · iexact H2
    isplitl [H3]; · iexact H3
    isplitl [H4]; · iexact H4
    isplitl [HN]; · iexact HN
    isplitl [HD]; · iexact HD
    iintro ⟨H0, H1, H2, H3, H4, HN, HD⟩
    isplitl [Hg HN HD]
    · isplitl [Hg]; · iexact Hg
      isplitl [HN]; · iexact HN
      iexact HD
    isplitl [Ho]; · iexact Ho
    isplitl [H0]; · iexact H0
    isplitl [H1]; · iexact H1
    isplitl [H2]; · iexact H2
    isplitl [H3]; · iexact H3
    iexact H4

end Cert.KernelIdeal.Body

end
-- ==== Proof.IdealBody.lean ====
import proofs.«161181_j22351009808686_2_alg».proof.Proof.IdealBodyFirstRuns
import proofs.«161181_j22351009808686_2_alg».proof.Proof.IdealBodyMid
import proofs.«161181_j22351009808686_2_alg».proof.Proof.IdealBodyLast
import proofs.«161181_j22351009808686_2_alg».proof.Proof.IdealBoundary

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F] [Named F]

local notation "𝕄" => MT nD τ sig Unit (Elt F) ℕ (UR sig nD τ) ℕ

variable (V : (c : Dev nD) → (b : Ref sig .tc) → Buf (Elt F) ((c : Thread nD τ).loc b))

/-! ## The body obligation at a first column block -/

set_option maxHeartbeats 4000000 in
/-- At a point with ki = 0: the body zeroes both accumulators, adds the block's sums, on the diagonal (the first point) takes
    the diagonal off, and stores no output. -/
theorem sound_first (c : Dev nD) (t : Fin cfg0.N) (h0 : t.val % 8 = 0) :
    iprop((dat0 V c).Φ t.castSucc ∗ (dat0 V c).owesAt () t.castSucc
      ∗ (∃ d, owns (c : Thread nD τ) (st0_0 t) fullShare ((dat0 V c).before 0 t d)) ∗ (∃ d, owns (c : Thread nD τ) (st0_1 t) fullShare ((dat0 V c).before 1 t d)) ∗ (∃ d, owns (c : Thread nD τ) (st0_2 t) fullShare ((dat0 V c).before 2 t d)) ∗ (∃ d, owns (c : Thread nD τ) (st0_3 t) fullShare ((dat0 V c).before 3 t d)) ∗ (∃ d, owns (c : Thread nD τ) (st0_4 t) fullShare ((dat0 V c).before 4 t d)))
    ⊢ wp frame (wpE (defs₀ (F := F)) Variants.none c none) Set.univ (bodyAt0 t) (fun _ =>
      iprop((dat0 V c).Φ t.succ ∗ (dat0 V c).owesAt () t.succ ∗ (dat0 V c).leavesExact 0 t ∗ (dat0 V c).leavesExact 1 t ∗ (dat0 V c).leavesExact 2 t ∗ (dat0 V c).leavesExact 3 t ∗ (dat0 V c).leavesExact 4 t)) := by
  unfold bodyAt0
  simp only [before0, before1, before2, before3]
  rw [show (dat0 V c).owesAt () t.succ = (dat0 V c).owesAt () t.castSucc from rfl]
  rw [show (dat0 V c).Φ t.succ = PhiS V c (t.val + 1) t.isLt from rfl, PhiS_succ]
  have hN : t.val < 64 := lt_of_lt_of_eq t.isLt (show cfg0.N = 64 from N_0)
  have h3 : ¬t.val % 8 = 7 := by omega
  have hc1 : cond1 (grid0.coords t) := (hcond1 t).mpr h0
  have hc3 : ¬cond3 (grid0.coords t) := fun h => h3 ((hcond3 t).mp h)
  rw [show (dat0 V c).leavesExact 0 t = owns (c : Thread nD τ) (st0_0 t) fullShare ((dat0 V c).after 0 t) from by
    unfold Dat.leavesExact; rw [liveAt0 t], after0_0]
  rw [show (dat0 V c).leavesExact 1 t = owns (c : Thread nD τ) (st0_1 t) fullShare ((dat0 V c).after 1 t) from by
    unfold Dat.leavesExact; rw [liveAt1 t], after0_1]
  rw [show (dat0 V c).leavesExact 2 t = owns (c : Thread nD τ) (st0_2 t) fullShare ((dat0 V c).after 2 t) from by
    unfold Dat.leavesExact; rw [liveAt2 t], after0_2]
  rw [show (dat0 V c).leavesExact 3 t = owns (c : Thread nD τ) (st0_3 t) fullShare ((dat0 V c).after 3 t) from by
    unfold Dat.leavesExact; rw [liveAt3 t], after0_3]
  rw [Dat.leavesExact_idle (dat0 V c) 4 t (idleAt4 t hc3) (noFlush4 t hc3)]
  by_cases hd : t.val / 8 = t.val % 8
  ·
    have hz : t.val = 0 := by omega
    have hc2 : cond2 (grid0.coords t) := (hcond2 t).mpr hd
    rw [show (dat0 V c).Φ t.castSucc = PhiS V c t.val (Nat.le_of_lt t.isLt) from rfl, PhiS_zero V c _ _ hz]
    iintro ⟨⟨Hg, ⟨%dn, HN⟩, ⟨%dd, HD⟩⟩, Ho, ⟨%d0, H0⟩, ⟨%d1, H1⟩, ⟨%d2, H2⟩, ⟨%d3, H3⟩, ⟨%d4, H4⟩⟩
    rw [accAt_of_zero V c t hz (dn, dd), accStep_eq_stepG]
    simp only [stepG, if_pos h0, if_pos hd]
    iapply (run_ttf c (grid0.coords t) _ _ _ _ _ _ _ _ _ _ _ _ _ _ hc1 hc2 hc3 (iblk V c 0 t) (iblk V c 1 t) (iblk V c 2 t) (iblk V c 3 t) dn dd _ Set.univ _)
    isplitl [H0]; · iexact H0
    isplitl [H1]; · iexact H1
    isplitl [H2]; · iexact H2
    isplitl [H3]; · iexact H3
    isplitl [H4]; · iexact H4
    isplitl [HN]; · iexact HN
    isplitl [HD]; · iexact HD
    iintro ⟨H0, H1, H2, H3, H4, HN, HD⟩
    isplitl [Hg HN HD]
    · isplitl [Hg]; · iexact Hg
      isplitl [HN]; · iexact HN
      iexact HD
    isplitl [Ho]; · iexact Ho
    isplitl [H0]; · iexact H0
    isplitl [H1]; · iexact H1
    isplitl [H2]; · iexact H2
    isplitl [H3]; · iexact H3
    iexists _; iexact H4
  ·
    have hz : t.val ≠ 0 := by omega
    have hc2 : ¬cond2 (grid0.coords t) := fun h => hd ((hcond2 t).mp h)
    rw [show (dat0 V c).Φ t.castSucc = PhiS V c t.val (Nat.le_of_lt t.isLt) from rfl, PhiS_pos V c _ _ hz]
    iintro ⟨⟨Hg, HN, HD⟩, Ho, ⟨%d0, H0⟩, ⟨%d1, H1⟩, ⟨%d2, H2⟩, ⟨%d3, H3⟩, ⟨%d4, H4⟩⟩
    rw [accAt_pos V c t hz, accStep_eq_stepG]
    simp only [stepG, if_pos h0, if_neg hd]
    iapply (run_tff c (grid0.coords t) _ _ _ _ _ _ _ _ _ _ _ _ _ _ hc1 hc2 hc3 (iblk V c 0 t) (iblk V c 1 t) (iblk V c 2 t) (iblk V c 3 t) _ _ _ Set.univ _)
    isplitl [H0]; · iexact H0
    isplitl [H1]; · iexact H1
    isplitl [H2]; · iexact H2
    isplitl [H3]; · iexact H3
    isplitl [H4]; · iexact H4
    isplitl [HN]; · iexact HN
    isplitl [HD]; · iexact HD
    iintro ⟨H0, H1, H2, H3, H4, HN, HD⟩
    isplitl [Hg HN HD]
    · isplitl [Hg]; · iexact Hg
      isplitl [HN]; · iexact HN
      iexact HD
    isplitl [Ho]; · iexact Ho
    isplitl [H0]; · iexact H0
    isplitl [H1]; · iexact H1
    isplitl [H2]; · iexact H2
    isplitl [H3]; · iexact H3
    iexists _; iexact H4

/-! ## The body obligation at every point, and the bundle the launch takes -/

/-- The library's body obligation: by the point's column block — first, last, or between. -/
theorem body_obligation_exact (c : Dev nD) : BodyObligation (dat0 V c) (defs₀ (F := F)) Variants.none () Set.univ := fun t => by
  rw [bigSep_W0, bigSep_W0]
  by_cases h0 : t.val % 8 = 0
  · exact sound_first V c t h0
  · by_cases h7 : t.val % 8 = 7
    · exact sound_last V c t h7
    · exact sound_mid V c t h0 h7

/-- As the loop uses it. -/
theorem body_obligation (c : Dev nD) : Pipeline.BodyObligationLoose (dat0 V c) (defs₀ (F := F)) Variants.none () Set.univ :=
  (body_obligation_exact V c).loose

/-- What the launch uses of the proof data. -/
theorem datFacts (V : Cert.KernelIdeal.Launch.Entry F) : Cert.KernelIdeal.Launch.DatFacts (dat0 V) V :=
  { A_eq := dat0_A V, q0 := dat0_q0 V, q1 := dat0_q1 V, q2 := dat0_q2 V, q3 := dat0_q3 V, owed := dat0_owed V,
    recorded := fun _ _ => rfl, body := body_obligation V, hin := hin0 V, hout := hout0 V }

end Cert.KernelIdeal.Body

end
-- ==== Proof.BitsBodyData.lean ====
import proofs.«161181_j22351009808686_2_alg».proof.Proof.Gen.Kernel.Launch
import proofs.«161181_j22351009808686_2_alg».proof.Proof.Gen.Kernel.Skeleton
import proofs.«161181_j22351009808686_2_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window w's block at point t, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-! ## The two accumulators, point by point

Point t of the 8 × 8 grid is (qi, ki) = (t / 8, t % 8): row block qi against column block ki. -/

/-- The exponentials of twice the inner products of row block qi's rows with column block ki's rows. -/
def expBlk (c : Dev nD) (t : Fin cfg0.N) : FVec F S1024x1024 .f32 := k0_pay8 (iblk V c 0 t) (iblk V c 1 t)

/-- One point's update of the pair (labelled sum, whole sum): at the first column block both start from zero;
    the block's labelled row sums and row sums are added; on the diagonal the block's own diagonal is taken off both. -/
def accStep (c : Dev nD) (t : Fin cfg0.N) (prev : Vec F S1024x1 .f32 × Vec F S1024x1 .f32) :
    Vec F S1024x1 .f32 × Vec F S1024x1 .f32 :=
  let z : Vec F S1024x1 .f32 × Vec F S1024x1 .f32 := if t.val % 8 = 0 then (k0_pay6 (F := F), k0_pay7 (F := F)) else prev
  let a : Vec F S1024x1 .f32 × Vec F S1024x1 .f32 :=
    (k0_pay9 (iblk V c 0 t) (iblk V c 1 t) (iblk V c 2 t) (iblk V c 3 t) z.1, k0_pay1 (k0_pay10 (iblk V c 0 t) (iblk V c 1 t) z.2))
  if t.val / 8 = t.val % 8 then (k0_pay3 (expBlk V c t) a.1, k0_pay4 (expBlk V c t) a.2) else a

/-- What the two scratch buffers hold after the body at position n: (labelled sum, whole sum). -/
def accAt (c : Dev nD) : (n : ℕ) → n < cfg0.N → Vec F S1024x1 .f32 × Vec F S1024x1 .f32
  | 0, hn => accStep V c ⟨0, hn⟩ (k0_pay6 (F := F), k0_pay7 (F := F))
  | n + 1, hn => accStep V c ⟨n + 1, hn⟩ (accAt c n (Nat.lt_of_succ_lt hn))

theorem accAt_zero (c : Dev nD) (hn : 0 < cfg0.N) : accAt V c 0 hn = accStep V c ⟨0, hn⟩ (k0_pay6 (F := F), k0_pay7 (F := F)) := rfl
theorem accAt_succ (c : Dev nD) (n : ℕ) (hn : n + 1 < cfg0.N) :
    accAt V c (n + 1) hn = accStep V c ⟨n + 1, hn⟩ (accAt V c n (Nat.lt_of_succ_lt hn)) := rfl
/-- At a point that is not the first: one update of what the point before left. -/
theorem accAt_pos (c : Dev nD) (t : Fin cfg0.N) (ht : t.val ≠ 0) :
    accAt V c t.val t.isLt = accStep V c t (accAt V c (t.val - 1) (Nat.lt_of_le_of_lt (Nat.sub_le _ _) t.isLt)) := by
  obtain ⟨n, hn⟩ := t
  cases n with
  | zero => exact absurd rfl ht
  | succ n => rfl

/-- The update at a first column block: from zero. -/
theorem accStep_of_ki0 (c : Dev nD) (t : Fin cfg0.N) (h : t.val % 8 = 0) (prev) :
    accStep V c t prev = accStep V c t (k0_pay6 (F := F), k0_pay7 (F := F)) := by
  unfold accStep; simp only [if_pos h]
/-- The update off the diagonal, past the first column block. -/
theorem accStep_offdiag (c : Dev nD) (t : Fin cfg0.N) (h0 : ¬t.val % 8 = 0) (hd : ¬t.val / 8 = t.val % 8) (prev) :
    accStep V c t prev = (k0_pay9 (iblk V c 0 t) (iblk V c 1 t) (iblk V c 2 t) (iblk V c 3 t) prev.1, k0_pay1 (k0_pay10 (iblk V c 0 t) (iblk V c 1 t) prev.2)) := by
  unfold accStep; simp only [if_neg h0, if_neg hd]
/-- The update on the diagonal, past the first column block. -/
theorem accStep_diag (c : Dev nD) (t : Fin cfg0.N) (h0 : ¬t.val % 8 = 0) (hd : t.val / 8 = t.val % 8) (prev) :
    accStep V c t prev = (k0_pay3 (expBlk V c t) (k0_pay9 (iblk V c 0 t) (iblk V c 1 t) (iblk V c 2 t) (iblk V c 3 t) prev.1), k0_pay4 (expBlk V c t) (k0_pay1 (k0_pay10 (iblk V c 0 t) (iblk V c 1 t) prev.2))) := by
  unfold accStep; simp only [if_neg h0, if_pos hd]

/-- The output block the body stores at a last column block: the logarithm of whole sum over labelled sum. -/
def outAt (c : Dev nD) (t : Fin cfg0.N) : Vec F S1024x1 .f32 := k0_pay5 (accAt V c t.val t.isLt).1 (accAt V c t.val t.isLt).2

/-! ## The invariant -/

abbrev scN : Memref sig .tc .vmem S1024x1 .f32 := Memref.whole cc0_scratch0
abbrev scD : Memref sig .tc .vmem S1024x1 .f32 := Memref.whole cc0_scratch1

/-- Before position n: the generator register at some state and the two scratch buffers whole — before the first point
    at anything, afterwards at what the point before left. -/
def PhiS (c : Dev nD) : (n : ℕ) → n ≤ cfg0.N → sProp 𝕄
  | 0, _ => iprop((∃ r, prngReg c r) ∗ (∃ d, owns (c : Thread nD τ) scN fullShare d) ∗ (∃ d, owns (c : Thread nD τ) scD fullShare d))
  | n + 1, hn => iprop((∃ r, prngReg c r) ∗ owns (c : Thread nD τ) scN fullShare (accAt V c n hn).1 ∗ owns (c : Thread nD τ) scD fullShare (accAt V c n hn).2)

theorem PhiS_zero (c : Dev nD) (n : ℕ) (h : n ≤ cfg0.N) (hz : n = 0) :
    PhiS V c n h = iprop((∃ r, prngReg c r) ∗ (∃ d, owns (c : Thread nD τ) scN fullShare d) ∗ (∃ d, owns (c : Thread nD τ) scD fullShare d)) := by
  subst hz; rfl
theorem PhiS_succ (c : Dev nD) (n : ℕ) (hn : n < cfg0.N) :
    PhiS V c (n + 1) hn = iprop((∃ r, prngReg c r) ∗ owns (c : Thread nD τ) scN fullShare (accAt V c n hn).1 ∗ owns (c : Thread nD τ) scD fullShare (accAt V c n hn).2) := rfl
theorem PhiS_pos (c : Dev nD) (n : ℕ) (h : n ≤ cfg0.N) (hz : n ≠ 0) :
    PhiS V c n h = iprop((∃ r, prngReg c r) ∗ owns (c : Thread nD τ) scN fullShare (accAt V c (n - 1) (by omega)).1 ∗ owns (c : Thread nD τ) scD fullShare (accAt V c (n - 1) (by omega)).2) := by
  cases n with
  | zero => exact absurd rfl hz
  | succ n => rfl

/-! ## The proof data -/

/-- The proof data of the pipeline on core c. Windows 0 and 1 read the same array: each holds half of it. -/
def dat0 (c : Dev nD) : Dat τ (Elt F) Unit ℕ (UR sig nD τ) ℕ cfg0 c where
  A w := V c (Pipeline.arrRef spec0 w)
  after w t := match w with
    | ⟨0, _⟩ => iblk V c 0 t
    | ⟨1, _⟩ => iblk V c 1 t
    | ⟨2, _⟩ => iblk V c 2 t
    | ⟨3, _⟩ => iblk V c 3 t
    | ⟨4, _⟩ => outAt V c t
  Φ t := PhiS V c t.val (Nat.le_of_lt_succ t.isLt)
  q w := match w with
    | ⟨0, _⟩ => fullShare.left
    | ⟨1, _⟩ => fullShare.right
    | ⟨2, _⟩ => fullShare
    | ⟨3, _⟩ => fullShare
    | ⟨4, _⟩ => fullShare
  owed _ := 0

theorem dat0_A (c : Dev nD) (w : Fin cfg0.W) : (dat0 V c).A w = V c (Pipeline.arrRef spec0 w) := by dsimp only [dat0]
theorem dat0_owed (c : Dev nD) (t : Fin (cfg0.N + 1)) : (dat0 V c).owed t = 0 := rfl
theorem dat0_q0 (c : Dev nD) : (dat0 V c).q 0 = fullShare.left := rfl
theorem dat0_q1 (c : Dev nD) : (dat0 V c).q 1 = fullShare.right := rfl
theorem dat0_q2 (c : Dev nD) : (dat0 V c).q 2 = fullShare := rfl
theorem dat0_q3 (c : Dev nD) : (dat0 V c).q 3 = fullShare := rfl
theorem dat0_q4 (c : Dev nD) : (dat0 V c).q 4 = fullShare := rfl
theorem dat0_Phi (c : Dev nD) (t : Fin (cfg0.N + 1)) : (dat0 V c).Φ t = PhiS V c t.val (Nat.le_of_lt_succ t.isLt) := rfl
theorem after0_0 (c : Dev nD) (t : Fin cfg0.N) : (dat0 V c).after 0 t = iblk V c 0 t := by dsimp only [dat0]
theorem after0_1 (c : Dev nD) (t : Fin cfg0.N) : (dat0 V c).after 1 t = iblk V c 1 t := by dsimp only [dat0]
theorem after0_2 (c : Dev nD) (t : Fin cfg0.N) : (dat0 V c).after 2 t = iblk V c 2 t := by dsimp only [dat0]
theorem after0_3 (c : Dev nD) (t : Fin cfg0.N) : (dat0 V c).after 3 t = iblk V c 3 t := by dsimp only [dat0]
theorem after0_4 (c : Dev nD) (t : Fin cfg0.N) : (dat0 V c).after 4 t = outAt V c t := by dsimp only [dat0]

/-- What the launch hands the region is the invariant before the first point. -/
theorem hin0 (c : Dev nD) : iprop((∃ r, prngReg c r) ∗ Pipeline.scopedRest spec0 c) ⊢ (dat0 V c).Φ 0 := by
  rw [show (dat0 V c).Φ 0 = PhiS V c 0 (Nat.zero_le _) from rfl, PhiS_zero V c 0 _ rfl, scopedRest0_eq]; simp only [scN, scD, owns_whole]
  exact Idealize.SL.BI.Entails.refl _

/-- After the last point the invariant gives it back: the accumulators' contents are forgotten. -/
theorem hout0 (c : Dev nD) : (dat0 V c).Φ (Fin.last cfg0.N) ⊢ iprop((∃ r, prngReg c r) ∗ Pipeline.scopedRest spec0 c) := by
  rw [dat0_Phi, PhiS_pos V c _ _ (by rw [Fin.val_last]; have : cfg0.N = 64 := N_0; omega), scopedRest0_eq]
  iintro ⟨Hg, HN, HD⟩
  isplitl [Hg]; · iexact Hg
  isplitl [HN]
  · iexists _; simp only [scN, owns_whole]; iexact HN
  · iexists _; simp only [scD, owns_whole]; iexact HD

end Cert.Kernel.Body

end
-- ==== Proof.BitsBodyKit.lean ====
import proofs.«161181_j22351009808686_2_alg».proof.Proof.BitsBodyData
import Idealize.ShloMosaic.Lib.WholeRead

set_option maxRecDepth 16384

noncomputable section

namespace Cert.Kernel.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The body's three conditions, in closed form over the point -/

/-- First column block (ki = 0). -/
abbrev cond1 (i : grid0.Coords) : Prop := (Scalar.cmpi .ne (Scalar.extui (Scalar.cmpi .eq (BitVec.ofNat 32 (i 1).val) 0#32)) 0#32) = 1#1
theorem hcond1 : ∀ t : Fin cfg0.N, cond1 (grid0.coords t) ↔ t.val % 8 = 0 :=
  (by decide +kernel : ∀ t : Fin grid0.N, cond1 (grid0.coords t) ↔ t.val % 8 = 0)
/-- Diagonal block (qi = ki). -/
abbrev cond2 (i : grid0.Coords) : Prop := (Scalar.cmpi .ne (Scalar.extui (Scalar.cmpi .eq (BitVec.ofNat 32 (i 0).val) (BitVec.ofNat 32 (i 1).val))) 0#32) = 1#1
theorem hcond2 : ∀ t : Fin cfg0.N, cond2 (grid0.coords t) ↔ t.val / 8 = t.val % 8 :=
  (by decide +kernel : ∀ t : Fin grid0.N, cond2 (grid0.coords t) ↔ t.val / 8 = t.val % 8)
/-- Last column block (ki = 7). -/
abbrev cond3 (i : grid0.Coords) : Prop := k0_cond3 i = 1#1
theorem hcond3 : ∀ t : Fin cfg0.N, cond3 (grid0.coords t) ↔ t.val % 8 = 7 :=
  (by decide +kernel : ∀ t : Fin grid0.N, cond3 (grid0.coords t) ↔ t.val % 8 = 7)

/-! ## Where the windows are idle -/

theorem liveAt0 : ∀ t : Fin cfg0.N, cfg0.idle 0 (grid0.coords t) = false := by decide +kernel
theorem liveAt1 : ∀ t : Fin cfg0.N, cfg0.idle 1 (grid0.coords t) = false := by decide +kernel
theorem liveAt2 : ∀ t : Fin cfg0.N, cfg0.idle 2 (grid0.coords t) = false := by decide +kernel
theorem liveAt3 : ∀ t : Fin cfg0.N, cfg0.idle 3 (grid0.coords t) = false := by decide +kernel
/-- Off the last column block the output window is idle and not written back. -/
theorem idleAt4 : ∀ t : Fin cfg0.N, ¬cond3 (grid0.coords t) → cfg0.idle 4 (grid0.coords t) = true := by decide +kernel
theorem noFlush4 : ∀ t : Fin cfg0.N, ¬cond3 (grid0.coords t) → (cfg0.win 4).flush t = false := by decide +kernel
/-- At the last column block it is live. -/
theorem liveAt4 : ∀ t : Fin cfg0.N, cond3 (grid0.coords t) → cfg0.idle 4 (grid0.coords t) = false := by decide +kernel

/-! ## Whole-block loads and stores read back -/

section Whole
open Idealize.ShloMosaic.View
variable {Val : EltTy → Type} {sig' : RefSig} {κ : Kind} {sp : Space} {S : Shape} {e : EltTy}

/-- A load of the whole block from a whole memref held at the contents that read X reads X. -/
theorem readAt_unit_zero_unread {m : Memref sig' κ sp S e} (h : m.IsWhole) {off : Fin S.rank → ℕ} (hoff : off = fun _ => 0)
    (inb : ∀ a, off a + S.size a ≤ S.size a) (X : S.Idx → Val e) :
    View.readAt Val m.view (Rect.unit off S.size inb).toLoadRect (h.unread X) = X := by
  subst hoff; funext x
  rw [Memref.IsWhole.readAt_unread]
  show X ((Rect.whole S).emb x) = X x
  rw [Rect.emb_whole_apply]

/-- A store of the whole block, last, leaves its payload whatever was stored before. -/
theorem read_writes_cons_unit_zero (v : View sig' κ sp S e) (f : v.ty.Contents Val) {off : Fin S.rank → ℕ} (hoff : off = fun _ => 0)
    (inb : ∀ a, off a + S.size a ≤ S.size a) (w : S.Idx → Val e) (L : List (Piece Val S e)) :
    v.read Val (v.writes Val f ((⟨Rect.unit off S.size inb, w⟩ : Piece Val S e) :: L)) = w := by
  subst hoff; funext y
  have e := View.read_writes_cons_emb v f (Rect.whole S) w L y
  rwa [Rect.emb_whole_apply] at e

/-- A load of the whole block after a store of the whole block reads the payload stored last. -/
theorem readCov_cons_unit_zero [∀ e, Nonempty (Val e)] (v : View sig' κ sp S e) {off : Fin S.rank → ℕ} (hoff : off = fun _ => 0)
    (inb : ∀ a, off a + S.size a ≤ S.size a) (w : S.Idx → Val e) (L : List (Piece Val S e)) :
    v.readCov ((⟨Rect.unit off S.size inb, w⟩ : Piece Val S e) :: L) (Rect.unit off S.size inb).toLoadRect = w := by
  subst hoff
  rw [View.readCov_eq_canon_ld _ _ _ (fun y => ⟨_, List.mem_cons_self, by
    show y ∈ (Rect.whole S).set; rw [Rect.set_whole]; exact Finset.mem_univ y⟩), View.canon_cons_unit_zero rfl, View.ld_unit_zero rfl]

theorem zz : (![0, 0] : Fin 2 → ℕ) = fun _ => 0 := by funext a; fin_cases a <;> rfl

end Whole

/-! ## One point's update, as a function of the blocks -/

/-- One point's update of the pair of accumulators from the four blocks: b1 — first column block, b2 — diagonal block. -/
def stepG (b1 b2 : Prop) [Decidable b1] [Decidable b2] (x0 : Vec F S1024x128 .f32) (x1 : Vec F S1024x128 .f32) (x2 : Vec F S1024x1 .i32) (x3 : Vec F S1x1024 .i32) (s : Vec F S1024x1 .f32 × Vec F S1024x1 .f32) :
    Vec F S1024x1 .f32 × Vec F S1024x1 .f32 :=
  let z : Vec F S1024x1 .f32 × Vec F S1024x1 .f32 := if b1 then (k0_pay6 (F := F), k0_pay7 (F := F)) else s
  let a : Vec F S1024x1 .f32 × Vec F S1024x1 .f32 := (k0_pay9 x0 x1 x2 x3 z.1, k0_pay1 (k0_pay10 x0 x1 z.2))
  if b2 then (k0_pay3 (k0_pay8 x0 x1) a.1, k0_pay4 (k0_pay8 x0 x1) a.2) else a

theorem accStep_eq_stepG (c : Dev nD) (t : Fin cfg0.N) (s) :
    accStep V c t s = stepG (t.val % 8 = 0) (t.val / 8 = t.val % 8) (iblk V c 0 t) (iblk V c 1 t) (iblk V c 2 t) (iblk V c 3 t) s := rfl

/-- At the first point the accumulators are one update of anything. -/
theorem accAt_of_zero (c : Dev nD) (t : Fin cfg0.N) (hz : t.val = 0) (s) : accAt V c t.val t.isLt = accStep V c t s := by
  obtain ⟨n, hn⟩ := t
  dsimp only at hz; subst hz
  rw [accAt_zero]; exact (accStep_of_ki0 V c ⟨0, hn⟩ (Nat.zero_mod _) s).symm

/-! ## What the body finds in the input windows: their blocks -/

theorem before0 (c : Dev nD) (t : Fin cfg0.N) (d) : (dat0 V c).before 0 t d = iblk V c 0 t :=
  ((dat0 V c).before_in_eq_fetched 0 rfl (fun _ => rfl) (fun _ _ _ => rfl) (fun t => by rw [after0_0]; unfold Dat.blockOf iblk; rw [dat0_A]; try rfl) t d).trans
    (by unfold Dat.fetched Dat.blockOf iblk; rw [dat0_A]; try rfl)
theorem before1 (c : Dev nD) (t : Fin cfg0.N) (d) : (dat0 V c).before 1 t d = iblk V c 1 t :=
  ((dat0 V c).before_in_eq_fetched 1 rfl (fun _ => rfl) (fun _ _ _ => rfl) (fun t => by rw [after0_1]; unfold Dat.blockOf iblk; rw [dat0_A]; try rfl) t d).trans
    (by unfold Dat.fetched Dat.blockOf iblk; rw [dat0_A]; try rfl)
theorem before2 (c : Dev nD) (t : Fin cfg0.N) (d) : (dat0 V c).before 2 t d = iblk V c 2 t :=
  ((dat0 V c).before_in_eq_fetched 2 rfl (fun _ => rfl) (fun _ _ _ => rfl) (fun t => by rw [after0_2]; unfold Dat.blockOf iblk; rw [dat0_A]; try rfl) t d).trans
    (by unfold Dat.fetched Dat.blockOf iblk; rw [dat0_A]; try rfl)
theorem before3 (c : Dev nD) (t : Fin cfg0.N) (d) : (dat0 V c).before 3 t d = iblk V c 3 t :=
  ((dat0 V c).before_in_eq_fetched 3 rfl (fun _ => rfl) (fun _ _ _ => rfl) (fun t => by rw [after0_3]; unfold Dat.blockOf iblk; rw [dat0_A]; try rfl) t d).trans
    (by unfold Dat.fetched Dat.blockOf iblk; rw [dat0_A]; try rfl)

end Cert.Kernel.Body

end
-- ==== Proof.BitsBodyFirstRuns.lean ====
import proofs.«161181_j22351009808686_2_alg».proof.Proof.BitsBodyKit

set_option maxRecDepth 16384

noncomputable section

namespace Cert.Kernel.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The body on any whole memrefs, at a first column block (both accumulators zeroed first) -/

set_option maxHeartbeats 4000000 in
theorem run_ttf (c : Dev nD) (i : grid0.Coords) (arg2 : Memref sig .tc .vmem S1024x128 .f32) (harg2 : arg2.IsWhole) (arg3 : Memref sig .tc .vmem S1024x128 .f32) (harg3 : arg3.IsWhole) (arg4 : Memref sig .tc .vmem S1024x1 .i32) (harg4 : arg4.IsWhole) (arg5 : Memref sig .tc .vmem S1x1024 .i32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (hc1 : cond1 i) (hc2 : cond2 i) (hc3 : ¬cond3 i)
    (x0 : Vec F S1024x128 .f32) (x1 : Vec F S1024x128 .f32) (x2 : Vec F S1024x1 .i32) (x3 : Vec F S1x1024 .i32) (s0 s1 : Vec F S1024x1 .f32) (xi : Vec F S1024x1 .f32) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3
        ∗ owns (c : Thread nD τ) arg6 fullShare xi ∗ owns (c : Thread nD τ) arg7 fullShare s0 ∗ owns (c : Thread nD τ) arg8 fullShare s1
        ∗ (iprop(owns (c : Thread nD τ) arg2 fullShare x0 ∗ owns (c : Thread nD τ) arg3 fullShare x1 ∗ owns (c : Thread nD τ) arg4 fullShare x2 ∗ owns (c : Thread nD τ) arg5 fullShare x3
            ∗ owns (c : Thread nD τ) arg6 fullShare xi ∗ owns (c : Thread nD τ) arg7 fullShare (k0_pay3 (k0_pay8 x0 x1) (k0_pay9 x0 x1 x2 x3 (k0_pay6 (F := F)))) ∗ owns (c : Thread nD τ) arg8 fullShare (k0_pay4 (k0_pay8 x0 x1) (k0_pay1 (k0_pay10 x0 x1 (k0_pay7 (F := F)))))) -∗ K ⟨⟩))
      ⊢ wp frame (wpE (defs₀ (F := F)) Variants.none c none) E (cc0__contrastive_kernel i arg2 harg2 arg3 harg3 arg4 harg4 arg5 harg5 arg6 harg6 arg7 harg7 arg8 harg8) K := by
  simp only [cc0__contrastive_kernel_eq_skeleton]; unfold cc0__contrastive_kernel_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%f6, %hf6, H6⟩, ⟨%f7, %hf7, H7⟩, ⟨%f8, %hf8, H8⟩, Hk⟩
  obtain rfl := harg2.eq_unread hf0; obtain rfl := harg3.eq_unread hf1; obtain rfl := harg4.eq_unread hf2; obtain rfl := harg5.eq_unread hf3
  obtain rfl := harg6.eq_unread hf6; obtain rfl := harg7.eq_unread hf7; obtain rfl := harg8.eq_unread hf8
  sl_exec (disch := first | exact hc1 | exact hc2 | exact hc3)
  sl_step
  have r0 : View.readAt (Elt F) arg2.view (Rect.unit ![0, 0] S1024x128.size Facts₀.inb_S1024x128_S1024x128_0_0).toLoadRect (harg2.unread x0) = x0 := readAt_unit_zero_unread harg2 zz _ x0
  have r1 : View.readAt (Elt F) arg3.view (Rect.unit ![0, 0] S1024x128.size Facts₀.inb_S1024x128_S1024x128_0_0).toLoadRect (harg3.unread x1) = x1 := readAt_unit_zero_unread harg3 zz _ x1
  have r2 : View.readAt (Elt F) arg4.view (Rect.unit ![0, 0] S1024x1.size Facts₀.inb_S1024x1_S1024x1_0_0).toLoadRect (harg4.unread x2) = x2 := readAt_unit_zero_unread harg4 zz _ x2
  have r3 : View.readAt (Elt F) arg5.view (Rect.unit ![0, 0] S1x1024.size Facts₀.inb_S1x1024_S1x1024_0_0).toLoadRect (harg5.unread x3) = x3 := readAt_unit_zero_unread harg5 zz _ x3
  have r7 : View.readAt (Elt F) arg7.view (Rect.unit ![0, 0] S1024x1.size Facts₀.inb_S1024x1_S1024x1_0_0).toLoadRect (harg7.unread s0) = s0 := readAt_unit_zero_unread harg7 zz _ s0
  have r8 : View.readAt (Elt F) arg8.view (Rect.unit ![0, 0] S1024x1.size Facts₀.inb_S1024x1_S1024x1_0_0).toLoadRect (harg8.unread s1) = s1 := readAt_unit_zero_unread harg8 zz _ s1
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H6]
  · iexists _; isplitr
    swap; · iexact H6
    ipureintro; exact harg6.read_unread _
  isplitl [H7]
  · iexists _; isplitr
    swap; · iexact H7
    ipureintro
    refine (read_writes_cons_unit_zero _ _ zz _ _ _).trans ?_
    sl_unfold_run_names
    simp only [r0, r1, r2, r3, r7, r8, readCov_cons_unit_zero arg7.view zz, readCov_cons_unit_zero arg8.view zz]
  · iexists _; isplitr
    swap; · iexact H8
    ipureintro
    refine (read_writes_cons_unit_zero _ _ zz _ _ _).trans ?_
    sl_unfold_run_names
    simp only [r0, r1, r2, r3, r7, r8, readCov_cons_unit_zero arg7.view zz, readCov_cons_unit_zero arg8.view zz]

set_option maxHeartbeats 4000000 in
theorem run_tff (c : Dev nD) (i : grid0.Coords) (arg2 : Memref sig .tc .vmem S1024x128 .f32) (harg2 : arg2.IsWhole) (arg3 : Memref sig .tc .vmem S1024x128 .f32) (harg3 : arg3.IsWhole) (arg4 : Memref sig .tc .vmem S1024x1 .i32) (harg4 : arg4.IsWhole) (arg5 : Memref sig .tc .vmem S1x1024 .i32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (hc1 : cond1 i) (hc2 : ¬cond2 i) (hc3 : ¬cond3 i)
    (x0 : Vec F S1024x128 .f32) (x1 : Vec F S1024x128 .f32) (x2 : Vec F S1024x1 .i32) (x3 : Vec F S1x1024 .i32) (s0 s1 : Vec F S1024x1 .f32) (xi : Vec F S1024x1 .f32) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3
        ∗ owns (c : Thread nD τ) arg6 fullShare xi ∗ owns (c : Thread nD τ) arg7 fullShare s0 ∗ owns (c : Thread nD τ) arg8 fullShare s1
        ∗ (iprop(owns (c : Thread nD τ) arg2 fullShare x0 ∗ owns (c : Thread nD τ) arg3 fullShare x1 ∗ owns (c : Thread nD τ) arg4 fullShare x2 ∗ owns (c : Thread nD τ) arg5 fullShare x3
            ∗ owns (c : Thread nD τ) arg6 fullShare xi ∗ owns (c : Thread nD τ) arg7 fullShare (k0_pay9 x0 x1 x2 x3 (k0_pay6 (F := F))) ∗ owns (c : Thread nD τ) arg8 fullShare (k0_pay1 (k0_pay10 x0 x1 (k0_pay7 (F := F))))) -∗ K ⟨⟩))
      ⊢ wp frame (wpE (defs₀ (F := F)) Variants.none c none) E (cc0__contrastive_kernel i arg2 harg2 arg3 harg3 arg4 harg4 arg5 harg5 arg6 harg6 arg7 harg7 arg8 harg8) K := by
  simp only [cc0__contrastive_kernel_eq_skeleton]; unfold cc0__contrastive_kernel_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%f6, %hf6, H6⟩, ⟨%f7, %hf7, H7⟩, ⟨%f8, %hf8, H8⟩, Hk⟩
  obtain rfl := harg2.eq_unread hf0; obtain rfl := harg3.eq_unread hf1; obtain rfl := harg4.eq_unread hf2; obtain rfl := harg5.eq_unread hf3
  obtain rfl := harg6.eq_unread hf6; obtain rfl := harg7.eq_unread hf7; obtain rfl := harg8.eq_unread hf8
  sl_exec (disch := first | exact hc1 | exact hc2 | exact hc3)
  sl_step
  have r0 : View.readAt (Elt F) arg2.view (Rect.unit ![0, 0] S1024x128.size Facts₀.inb_S1024x128_S1024x128_0_0).toLoadRect (harg2.unread x0) = x0 := readAt_unit_zero_unread harg2 zz _ x0
  have r1 : View.readAt (Elt F) arg3.view (Rect.unit ![0, 0] S1024x128.size Facts₀.inb_S1024x128_S1024x128_0_0).toLoadRect (harg3.unread x1) = x1 := readAt_unit_zero_unread harg3 zz _ x1
  have r2 : View.readAt (Elt F) arg4.view (Rect.unit ![0, 0] S1024x1.size Facts₀.inb_S1024x1_S1024x1_0_0).toLoadRect (harg4.unread x2) = x2 := readAt_unit_zero_unread harg4 zz _ x2
  have r3 : View.readAt (Elt F) arg5.view (Rect.unit ![0, 0] S1x1024.size Facts₀.inb_S1x1024_S1x1024_0_0).toLoadRect (harg5.unread x3) = x3 := readAt_unit_zero_unread harg5 zz _ x3
  have r7 : View.readAt (Elt F) arg7.view (Rect.unit ![0, 0] S1024x1.size Facts₀.inb_S1024x1_S1024x1_0_0).toLoadRect (harg7.unread s0) = s0 := readAt_unit_zero_unread harg7 zz _ s0
  have r8 : View.readAt (Elt F) arg8.view (Rect.unit ![0, 0] S1024x1.size Facts₀.inb_S1024x1_S1024x1_0_0).toLoadRect (harg8.unread s1) = s1 := readAt_unit_zero_unread harg8 zz _ s1
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H6]
  · iexists _; isplitr
    swap; · iexact H6
    ipureintro; exact harg6.read_unread _
  isplitl [H7]
  · iexists _; isplitr
    swap; · iexact H7
    ipureintro
    refine (read_writes_cons_unit_zero _ _ zz _ _ _).trans ?_
    sl_unfold_run_names
    simp only [r0, r1, r2, r3, r7, r8, readCov_cons_unit_zero arg7.view zz, readCov_cons_unit_zero arg8.view zz]
  · iexists _; isplitr
    swap; · iexact H8
    ipureintro
    refine (read_writes_cons_unit_zero _ _ zz _ _ _).trans ?_
    sl_unfold_run_names
    simp only [r0, r1, r2, r3, r7, r8, readCov_cons_unit_zero arg7.view zz, readCov_cons_unit_zero arg8.view zz]

end Cert.Kernel.Body

end
-- ==== Proof.BitsBodyMid.lean ====
/-
  The kernel body at the points of the middle column blocks (0 < ki < 7), as a triple of the region's proof data.

  At such a point the body adds the block's labelled row sums and row sums to the two accumulators and, on the
  diagonal point (qi = ki), takes the rows' own entries off both. The inputs are left as found; the output block is
  not stored into and is handed back as given.
-/
import proofs.«161181_j22351009808686_2_alg».proof.Proof.BitsBodyData
import Idealize.ShloMosaic.Lib.WholeRead

set_option maxRecDepth 16384

noncomputable section

namespace Cert.Kernel.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

namespace Mid

/-! ## The body's three conditions, in closed form over the point -/

/-- First column block (ki = 0). -/
abbrev c1 (i : grid0.Coords) : Prop :=
  (Scalar.cmpi .ne (Scalar.extui (Scalar.cmpi .eq (BitVec.ofNat 32 (i 1).val) 0#32)) 0#32) = 1#1
theorem hc1 : ∀ t : Fin cfg0.N, c1 (grid0.coords t) ↔ t.val % 8 = 0 :=
  (by decide +kernel : ∀ t : Fin grid0.N, c1 (grid0.coords t) ↔ t.val % 8 = 0)
/-- Diagonal block (qi = ki). -/
abbrev c2 (i : grid0.Coords) : Prop :=
  (Scalar.cmpi .ne (Scalar.extui (Scalar.cmpi .eq (BitVec.ofNat 32 (i 0).val) (BitVec.ofNat 32 (i 1).val))) 0#32) = 1#1
theorem hc2 : ∀ t : Fin cfg0.N, c2 (grid0.coords t) ↔ t.val / 8 = t.val % 8 :=
  (by decide +kernel : ∀ t : Fin grid0.N, c2 (grid0.coords t) ↔ t.val / 8 = t.val % 8)
/-- Last column block (ki = 7). -/
abbrev c3 (i : grid0.Coords) : Prop := k0_cond3 i = 1#1
theorem hc3 : ∀ t : Fin cfg0.N, c3 (grid0.coords t) ↔ t.val % 8 = 7 :=
  (by decide +kernel : ∀ t : Fin grid0.N, c3 (grid0.coords t) ↔ t.val % 8 = 7)

/-! ## Where the windows are live -/

theorem live0 : ∀ t : Fin cfg0.N, cfg0.idle 0 (grid0.coords t) = false := by decide +kernel
theorem live1 : ∀ t : Fin cfg0.N, cfg0.idle 1 (grid0.coords t) = false := by decide +kernel
theorem live2 : ∀ t : Fin cfg0.N, cfg0.idle 2 (grid0.coords t) = false := by decide +kernel
theorem live3 : ∀ t : Fin cfg0.N, cfg0.idle 3 (grid0.coords t) = false := by decide +kernel
/-- Off the last column block the output window is idle and not written back. -/
theorem idle4 : ∀ t : Fin cfg0.N, ¬c3 (grid0.coords t) → cfg0.idle 4 (grid0.coords t) = true := by decide +kernel
theorem noFlush4 : ∀ t : Fin cfg0.N, ¬c3 (grid0.coords t) → (cfg0.win 4).flush t = false := by decide +kernel

/-! ## Whole-block loads and stores read back -/

section Whole
open Idealize.ShloMosaic.View
variable {Val : EltTy → Type} {sig' : RefSig} {κ : Kind} {sp : Space} {S : Shape} {e : EltTy}

/-- A load of the whole block from a whole memref held at the contents that read X reads X. -/
theorem readAt_whole_unread {m : Memref sig' κ sp S e} (h : m.IsWhole) {off : Fin S.rank → ℕ} (hoff : off = fun _ => 0)
    (inb : ∀ a, off a + S.size a ≤ S.size a) (X : S.Idx → Val e) :
    View.readAt Val m.view (Rect.unit off S.size inb).toLoadRect (h.unread X) = X := by
  subst hoff; funext x
  rw [Memref.IsWhole.readAt_unread]
  show X ((Rect.whole S).emb x) = X x
  rw [Rect.emb_whole_apply]

/-- A store of the whole block, last, leaves its payload whatever was stored before. -/
theorem read_writes_whole (v : View sig' κ sp S e) (f : v.ty.Contents Val) {off : Fin S.rank → ℕ} (hoff : off = fun _ => 0)
    (inb : ∀ a, off a + S.size a ≤ S.size a) (w : S.Idx → Val e) (L : List (Piece Val S e)) :
    v.read Val (v.writes Val f ((⟨Rect.unit off S.size inb, w⟩ : Piece Val S e) :: L)) = w := by
  subst hoff; funext y
  have e := View.read_writes_cons_emb v f (Rect.whole S) w L y
  rwa [Rect.emb_whole_apply] at e

/-- A load of the whole block after a store of the whole block reads the payload stored last. -/
theorem readCov_whole [∀ e, Nonempty (Val e)] (v : View sig' κ sp S e) {off : Fin S.rank → ℕ} (hoff : off = fun _ => 0)
    (inb : ∀ a, off a + S.size a ≤ S.size a) (w : S.Idx → Val e) (L : List (Piece Val S e)) :
    v.readCov ((⟨Rect.unit off S.size inb, w⟩ : Piece Val S e) :: L) (Rect.unit off S.size inb).toLoadRect = w := by
  subst hoff
  rw [View.readCov_eq_canon_ld _ _ _ (fun y => ⟨_, List.mem_cons_self, by
    show y ∈ (Rect.whole S).set; rw [Rect.set_whole]; exact Finset.mem_univ y⟩), View.canon_cons_unit_zero rfl, View.ld_unit_zero rfl]

theorem zz : (![0, 0] : Fin 2 → ℕ) = fun _ => 0 := by funext a; fin_cases a <;> rfl

end Whole

/-! ## What the staging buffers hold when the body runs -/

section Before
variable (c : Dev nD) (t : Fin cfg0.N)

/-- An input window's current staging buffer holds its block at every point, fetched there or not. -/
theorem before0 (d) : (dat0 V c).before 0 t d = iblk V c 0 t :=
  ((dat0 V c).before_in_eq_fetched 0 rfl (fun _ => rfl) (fun _ _ _ => rfl)
    (fun t => by rw [after0_0]; unfold Dat.blockOf iblk; rw [dat0_A]; try rfl) t d).trans
    (by unfold Dat.fetched Dat.blockOf iblk; rw [dat0_A]; try rfl)
theorem before1 (d) : (dat0 V c).before 1 t d = iblk V c 1 t :=
  ((dat0 V c).before_in_eq_fetched 1 rfl (fun _ => rfl) (fun _ _ _ => rfl)
    (fun t => by rw [after0_1]; unfold Dat.blockOf iblk; rw [dat0_A]; try rfl) t d).trans
    (by unfold Dat.fetched Dat.blockOf iblk; rw [dat0_A]; try rfl)
theorem before2 (d) : (dat0 V c).before 2 t d = iblk V c 2 t :=
  ((dat0 V c).before_in_eq_fetched 2 rfl (fun _ => rfl) (fun _ _ _ => rfl)
    (fun t => by rw [after0_2]; unfold Dat.blockOf iblk; rw [dat0_A]; try rfl) t d).trans
    (by unfold Dat.fetched Dat.blockOf iblk; rw [dat0_A]; try rfl)
theorem before3 (d) : (dat0 V c).before 3 t d = iblk V c 3 t :=
  ((dat0 V c).before_in_eq_fetched 3 rfl (fun _ => rfl) (fun _ _ _ => rfl)
    (fun t => by rw [after0_3]; unfold Dat.blockOf iblk; rw [dat0_A]; try rfl) t d).trans
    (by unfold Dat.fetched Dat.blockOf iblk; rw [dat0_A]; try rfl)

/-- An input window's post: its staging buffer at its block. -/
theorem leaves0 : (dat0 V c).leavesExact 0 t = owns (c : Thread nD τ) (st0_0 t) fullShare (iblk V c 0 t) := by
  rw [show (dat0 V c).leavesExact 0 t = owns (c : Thread nD τ) (st0_0 t) fullShare ((dat0 V c).after 0 t) from by
    unfold Dat.leavesExact; rw [live0 t], after0_0]
theorem leaves1 : (dat0 V c).leavesExact 1 t = owns (c : Thread nD τ) (st0_1 t) fullShare (iblk V c 1 t) := by
  rw [show (dat0 V c).leavesExact 1 t = owns (c : Thread nD τ) (st0_1 t) fullShare ((dat0 V c).after 1 t) from by
    unfold Dat.leavesExact; rw [live1 t], after0_1]
theorem leaves2 : (dat0 V c).leavesExact 2 t = owns (c : Thread nD τ) (st0_2 t) fullShare (iblk V c 2 t) := by
  rw [show (dat0 V c).leavesExact 2 t = owns (c : Thread nD τ) (st0_2 t) fullShare ((dat0 V c).after 2 t) from by
    unfold Dat.leavesExact; rw [live2 t], after0_2]
theorem leaves3 : (dat0 V c).leavesExact 3 t = owns (c : Thread nD τ) (st0_3 t) fullShare (iblk V c 3 t) := by
  rw [show (dat0 V c).leavesExact 3 t = owns (c : Thread nD τ) (st0_3 t) fullShare ((dat0 V c).after 3 t) from by
    unfold Dat.leavesExact; rw [live3 t], after0_3]

end Before

set_option maxHeartbeats 4000000 in
/-- The body off the diagonal at a middle column block: the accumulators gain the block's sums; the output block is not touched. -/
theorem run_fff (c : Dev nD) (i : grid0.Coords) (arg2 : Memref sig .tc .vmem S1024x128 .f32) (harg2 : arg2.IsWhole) (arg3 : Memref sig .tc .vmem S1024x128 .f32) (harg3 : arg3.IsWhole) (arg4 : Memref sig .tc .vmem S1024x1 .i32) (harg4 : arg4.IsWhole) (arg5 : Memref sig .tc .vmem S1x1024 .i32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (h1 : ¬c1 i) (h2 : ¬c2 i) (h3 : ¬c3 i)
    (x0 : Vec F S1024x128 .f32) (x1 : Vec F S1024x128 .f32) (x2 : Vec F S1024x1 .i32) (x3 : Vec F S1x1024 .i32) (s0 s1 : Vec F S1024x1 .f32) (xi : Vec F S1024x1 .f32) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3
        ∗ owns (c : Thread nD τ) arg6 fullShare xi ∗ owns (c : Thread nD τ) arg7 fullShare s0 ∗ owns (c : Thread nD τ) arg8 fullShare s1
        ∗ (iprop(owns (c : Thread nD τ) arg2 fullShare x0 ∗ owns (c : Thread nD τ) arg3 fullShare x1 ∗ owns (c : Thread nD τ) arg4 fullShare x2 ∗ owns (c : Thread nD τ) arg5 fullShare x3
            ∗ owns (c : Thread nD τ) arg6 fullShare xi
            ∗ owns (c : Thread nD τ) arg7 fullShare (k0_pay9 x0 x1 x2 x3 s0) ∗ owns (c : Thread nD τ) arg8 fullShare (k0_pay1 (k0_pay10 x0 x1 s1))) -∗ K ⟨⟩))
      ⊢ wp frame (wpE (defs₀ (F := F)) Variants.none c none) E (cc0__contrastive_kernel i arg2 harg2 arg3 harg3 arg4 harg4 arg5 harg5 arg6 harg6 arg7 harg7 arg8 harg8) K := by
  simp only [cc0__contrastive_kernel_eq_skeleton]; unfold cc0__contrastive_kernel_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%f6, %hf6, H6⟩, ⟨%f7, %hf7, H7⟩, ⟨%f8, %hf8, H8⟩, Hk⟩
  obtain rfl := harg2.eq_unread hf0; obtain rfl := harg3.eq_unread hf1; obtain rfl := harg4.eq_unread hf2; obtain rfl := harg5.eq_unread hf3
  obtain rfl := harg6.eq_unread hf6; obtain rfl := harg7.eq_unread hf7; obtain rfl := harg8.eq_unread hf8
  sl_exec (disch := first | exact h1 | exact h2 | exact h3)
  sl_step
  have r0 : ∀ inb, View.readAt (Elt F) arg2.view (Rect.unit ![0, 0] S1024x128.size inb).toLoadRect (harg2.unread x0) = x0 :=
    fun inb => readAt_whole_unread harg2 zz inb x0
  have r1 : ∀ inb, View.readAt (Elt F) arg3.view (Rect.unit ![0, 0] S1024x128.size inb).toLoadRect (harg3.unread x1) = x1 :=
    fun inb => readAt_whole_unread harg3 zz inb x1
  have r2 : ∀ inb, View.readAt (Elt F) arg4.view (Rect.unit ![0, 0] S1024x1.size inb).toLoadRect (harg4.unread x2) = x2 :=
    fun inb => readAt_whole_unread harg4 zz inb x2
  have r3 : ∀ inb, View.readAt (Elt F) arg5.view (Rect.unit ![0, 0] S1x1024.size inb).toLoadRect (harg5.unread x3) = x3 :=
    fun inb => readAt_whole_unread harg5 zz inb x3
  have r7 : ∀ inb, View.readAt (Elt F) arg7.view (Rect.unit ![0, 0] S1024x1.size inb).toLoadRect (harg7.unread s0) = s0 :=
    fun inb => readAt_whole_unread harg7 zz inb s0
  have r8 : ∀ inb, View.readAt (Elt F) arg8.view (Rect.unit ![0, 0] S1024x1.size inb).toLoadRect (harg8.unread s1) = s1 :=
    fun inb => readAt_whole_unread harg8 zz inb s1
  have q7 : ∀ inb w L, arg7.view.readCov ((⟨Rect.unit ![0, 0] S1024x1.size inb, w⟩ : View.Piece (Elt F) S1024x1 .f32) :: L)
      (Rect.unit ![0, 0] S1024x1.size inb).toLoadRect = w := fun inb w L => readCov_whole arg7.view zz inb w L
  have q8 : ∀ inb w L, arg8.view.readCov ((⟨Rect.unit ![0, 0] S1024x1.size inb, w⟩ : View.Piece (Elt F) S1024x1 .f32) :: L)
      (Rect.unit ![0, 0] S1024x1.size inb).toLoadRect = w := fun inb w L => readCov_whole arg8.view zz inb w L
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H6]
  · iexists _; isplitr; · ipureintro; exact harg6.read_unread _
    iexact H6
  isplitl [H7]
  · iexists _; isplitr
    swap; · iexact H7
    ipureintro
    refine (read_writes_whole _ _ zz _ _ _).trans ?_
    sl_unfold_run_names
    dsimp only
    simp only [r0, r1, r2, r3, r7, r8, q7, q8]
  iexists _; isplitr
  swap; · iexact H8
  ipureintro
  refine (read_writes_whole _ _ zz _ _ _).trans ?_
  sl_unfold_run_names
  dsimp only
  simp only [r0, r1, r2, r3, r7, r8, q7, q8]

set_option maxHeartbeats 4000000 in
/-- The body on the diagonal at a middle column block: the accumulators gain the block's sums less the rows' own entries; the output block is not touched. -/
theorem run_ftf (c : Dev nD) (i : grid0.Coords) (arg2 : Memref sig .tc .vmem S1024x128 .f32) (harg2 : arg2.IsWhole) (arg3 : Memref sig .tc .vmem S1024x128 .f32) (harg3 : arg3.IsWhole) (arg4 : Memref sig .tc .vmem S1024x1 .i32) (harg4 : arg4.IsWhole) (arg5 : Memref sig .tc .vmem S1x1024 .i32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (h1 : ¬c1 i) (h2 : c2 i) (h3 : ¬c3 i)
    (x0 : Vec F S1024x128 .f32) (x1 : Vec F S1024x128 .f32) (x2 : Vec F S1024x1 .i32) (x3 : Vec F S1x1024 .i32) (s0 s1 : Vec F S1024x1 .f32) (xi : Vec F S1024x1 .f32) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3
        ∗ owns (c : Thread nD τ) arg6 fullShare xi ∗ owns (c : Thread nD τ) arg7 fullShare s0 ∗ owns (c : Thread nD τ) arg8 fullShare s1
        ∗ (iprop(owns (c : Thread nD τ) arg2 fullShare x0 ∗ owns (c : Thread nD τ) arg3 fullShare x1 ∗ owns (c : Thread nD τ) arg4 fullShare x2 ∗ owns (c : Thread nD τ) arg5 fullShare x3
            ∗ owns (c : Thread nD τ) arg6 fullShare xi
            ∗ owns (c : Thread nD τ) arg7 fullShare (k0_pay3 (k0_pay8 x0 x1) (k0_pay9 x0 x1 x2 x3 s0)) ∗ owns (c : Thread nD τ) arg8 fullShare (k0_pay4 (k0_pay8 x0 x1) (k0_pay1 (k0_pay10 x0 x1 s1)))) -∗ K ⟨⟩))
      ⊢ wp frame (wpE (defs₀ (F := F)) Variants.none c none) E (cc0__contrastive_kernel i arg2 harg2 arg3 harg3 arg4 harg4 arg5 harg5 arg6 harg6 arg7 harg7 arg8 harg8) K := by
  simp only [cc0__contrastive_kernel_eq_skeleton]; unfold cc0__contrastive_kernel_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%f6, %hf6, H6⟩, ⟨%f7, %hf7, H7⟩, ⟨%f8, %hf8, H8⟩, Hk⟩
  obtain rfl := harg2.eq_unread hf0; obtain rfl := harg3.eq_unread hf1; obtain rfl := harg4.eq_unread hf2; obtain rfl := harg5.eq_unread hf3
  obtain rfl := harg6.eq_unread hf6; obtain rfl := harg7.eq_unread hf7; obtain rfl := harg8.eq_unread hf8
  sl_exec (disch := first | exact h1 | exact h2 | exact h3)
  sl_step
  have r0 : ∀ inb, View.readAt (Elt F) arg2.view (Rect.unit ![0, 0] S1024x128.size inb).toLoadRect (harg2.unread x0) = x0 :=
    fun inb => readAt_whole_unread harg2 zz inb x0
  have r1 : ∀ inb, View.readAt (Elt F) arg3.view (Rect.unit ![0, 0] S1024x128.size inb).toLoadRect (harg3.unread x1) = x1 :=
    fun inb => readAt_whole_unread harg3 zz inb x1
  have r2 : ∀ inb, View.readAt (Elt F) arg4.view (Rect.unit ![0, 0] S1024x1.size inb).toLoadRect (harg4.unread x2) = x2 :=
    fun inb => readAt_whole_unread harg4 zz inb x2
  have r3 : ∀ inb, View.readAt (Elt F) arg5.view (Rect.unit ![0, 0] S1x1024.size inb).toLoadRect (harg5.unread x3) = x3 :=
    fun inb => readAt_whole_unread harg5 zz inb x3
  have r7 : ∀ inb, View.readAt (Elt F) arg7.view (Rect.unit ![0, 0] S1024x1.size inb).toLoadRect (harg7.unread s0) = s0 :=
    fun inb => readAt_whole_unread harg7 zz inb s0
  have r8 : ∀ inb, View.readAt (Elt F) arg8.view (Rect.unit ![0, 0] S1024x1.size inb).toLoadRect (harg8.unread s1) = s1 :=
    fun inb => readAt_whole_unread harg8 zz inb s1
  have q7 : ∀ inb w L, arg7.view.readCov ((⟨Rect.unit ![0, 0] S1024x1.size inb, w⟩ : View.Piece (Elt F) S1024x1 .f32) :: L)
      (Rect.unit ![0, 0] S1024x1.size inb).toLoadRect = w := fun inb w L => readCov_whole arg7.view zz inb w L
  have q8 : ∀ inb w L, arg8.view.readCov ((⟨Rect.unit ![0, 0] S1024x1.size inb, w⟩ : View.Piece (Elt F) S1024x1 .f32) :: L)
      (Rect.unit ![0, 0] S1024x1.size inb).toLoadRect = w := fun inb w L => readCov_whole arg8.view zz inb w L
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H6]
  · iexists _; isplitr; · ipureintro; exact harg6.read_unread _
    iexact H6
  isplitl [H7]
  · iexists _; isplitr
    swap; · iexact H7
    ipureintro
    refine (read_writes_whole _ _ zz _ _ _).trans ?_
    sl_unfold_run_names
    dsimp only
    simp only [r0, r1, r2, r3, r7, r8, q7, q8]
  iexists _; isplitr
  swap; · iexact H8
  ipureintro
  refine (read_writes_whole _ _ zz _ _ _).trans ?_
  sl_unfold_run_names
  dsimp only
  simp only [r0, r1, r2, r3, r7, r8, q7, q8]

end Mid

set_option maxHeartbeats 4000000 in
/-- The body's triple at a point of a middle column block. -/
theorem sound_mid (c : Dev nD) (t : Fin cfg0.N) (h0 : t.val % 8 ≠ 0) (h7 : t.val % 8 ≠ 7) :
    iprop((dat0 V c).Φ t.castSucc ∗ (dat0 V c).owesAt () t.castSucc
      ∗ (∃ d, owns (c : Thread nD τ) (st0_0 t) fullShare ((dat0 V c).before 0 t d))
      ∗ (∃ d, owns (c : Thread nD τ) (st0_1 t) fullShare ((dat0 V c).before 1 t d))
      ∗ (∃ d, owns (c : Thread nD τ) (st0_2 t) fullShare ((dat0 V c).before 2 t d))
      ∗ (∃ d, owns (c : Thread nD τ) (st0_3 t) fullShare ((dat0 V c).before 3 t d))
      ∗ (∃ d, owns (c : Thread nD τ) (st0_4 t) fullShare ((dat0 V c).before 4 t d)))
    ⊢ wp frame (wpE (defs₀ (F := F)) Variants.none c none) Set.univ (bodyAt0 t) (fun _ =>
      iprop((dat0 V c).Φ t.succ ∗ (dat0 V c).owesAt () t.succ
        ∗ (dat0 V c).leavesExact 0 t
        ∗ (dat0 V c).leavesExact 1 t
        ∗ (dat0 V c).leavesExact 2 t
        ∗ (dat0 V c).leavesExact 3 t
        ∗ (dat0 V c).leavesExact 4 t)) := by
  have hz : t.val ≠ 0 := fun e => h0 (by rw [e])
  have n1 : ¬Mid.c1 (grid0.coords t) := fun h => h0 ((Mid.hc1 t).mp h)
  have n3 : ¬Mid.c3 (grid0.coords t) := fun h => h7 ((Mid.hc3 t).mp h)
  simp only [Mid.before0, Mid.before1, Mid.before2, Mid.before3]
  rw [Mid.leaves0, Mid.leaves1, Mid.leaves2, Mid.leaves3,
    Dat.leavesExact_idle (dat0 V c) 4 t (Mid.idle4 t n3) (Mid.noFlush4 t n3)]
  rw [show (dat0 V c).owesAt () t.succ = (dat0 V c).owesAt () t.castSucc from rfl]
  rw [show (dat0 V c).Φ t.succ = PhiS V c (t.val + 1) t.isLt from rfl, PhiS_succ]
  rw [show (dat0 V c).Φ t.castSucc = PhiS V c t.val (Nat.le_of_lt t.isLt) from rfl, PhiS_pos V c _ _ hz]
  rw [accAt_pos V c t hz]
  by_cases hd : t.val / 8 = t.val % 8
  · rw [accStep_diag V c t h0 hd]
    unfold expBlk
    iintro ⟨⟨Hg, HN, HD⟩, Ho, ⟨%d0, H0⟩, ⟨%d1, H1⟩, ⟨%d2, H2⟩, ⟨%d3, H3⟩, ⟨%d4, H4⟩⟩
    iapply (Mid.run_ftf c (grid0.coords t) _ _ _ _ _ _ _ _ _ _ _ _ _ _ n1 ((Mid.hc2 t).mpr hd) n3
      (iblk V c 0 t) (iblk V c 1 t) (iblk V c 2 t) (iblk V c 3 t) _ _ _ Set.univ _)
    isplitl [H0]; · iexact H0
    isplitl [H1]; · iexact H1
    isplitl [H2]; · iexact H2
    isplitl [H3]; · iexact H3
    isplitl [H4]; · iexact H4
    isplitl [HN]; · iexact HN
    isplitl [HD]; · iexact HD
    iintro ⟨H0, H1, H2, H3, H4, HN, HD⟩
    isplitl [Hg HN HD]
    · isplitl [Hg]; · iexact Hg
      isplitl [HN]; · iexact HN
      iexact HD
    isplitl [Ho]; · iexact Ho
    isplitl [H0]; · iexact H0
    isplitl [H1]; · iexact H1
    isplitl [H2]; · iexact H2
    isplitl [H3]; · iexact H3
    iexists _; iexact H4
  · rw [accStep_offdiag V c t h0 hd]
    iintro ⟨⟨Hg, HN, HD⟩, Ho, ⟨%d0, H0⟩, ⟨%d1, H1⟩, ⟨%d2, H2⟩, ⟨%d3, H3⟩, ⟨%d4, H4⟩⟩
    iapply (Mid.run_fff c (grid0.coords t) _ _ _ _ _ _ _ _ _ _ _ _ _ _ n1 (fun h => hd ((Mid.hc2 t).mp h)) n3
      (iblk V c 0 t) (iblk V c 1 t) (iblk V c 2 t) (iblk V c 3 t) _ _ _ Set.univ _)
    isplitl [H0]; · iexact H0
    isplitl [H1]; · iexact H1
    isplitl [H2]; · iexact H2
    isplitl [H3]; · iexact H3
    isplitl [H4]; · iexact H4
    isplitl [HN]; · iexact HN
    isplitl [HD]; · iexact HD
    iintro ⟨H0, H1, H2, H3, H4, HN, HD⟩
    isplitl [Hg HN HD]
    · isplitl [Hg]; · iexact Hg
      isplitl [HN]; · iexact HN
      iexact HD
    isplitl [Ho]; · iexact Ho
    isplitl [H0]; · iexact H0
    isplitl [H1]; · iexact H1
    isplitl [H2]; · iexact H2
    isplitl [H3]; · iexact H3
    iexists _; iexact H4

end Cert.Kernel.Body

end
-- ==== Proof.BitsBodyLast.lean ====
/-
  The kernel body at the points of the last column block (ki = 7), as a triple of the region's proof data.

  At such a point the body adds the block's row sums to the two accumulators (and on the diagonal point,
  where also qi = 7, takes the rows' own entries off), then stores the logarithm of whole sum over labelled
  sum into the output block, which the pipeline writes back. The inputs are left as found.
-/
import proofs.«161181_j22351009808686_2_alg».proof.Proof.BitsBodyData
import Idealize.ShloMosaic.Lib.WholeRead

set_option maxRecDepth 16384

noncomputable section

namespace Cert.Kernel.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

namespace Last

/-! ## The body's three conditions, in closed form over the point -/

/-- First column block (ki = 0). -/
abbrev c1 (i : grid0.Coords) : Prop :=
  (Scalar.cmpi .ne (Scalar.extui (Scalar.cmpi .eq (BitVec.ofNat 32 (i 1).val) 0#32)) 0#32) = 1#1
theorem hc1 : ∀ t : Fin cfg0.N, c1 (grid0.coords t) ↔ t.val % 8 = 0 :=
  (by decide +kernel : ∀ t : Fin grid0.N, c1 (grid0.coords t) ↔ t.val % 8 = 0)
/-- Diagonal block (qi = ki). -/
abbrev c2 (i : grid0.Coords) : Prop :=
  (Scalar.cmpi .ne (Scalar.extui (Scalar.cmpi .eq (BitVec.ofNat 32 (i 0).val) (BitVec.ofNat 32 (i 1).val))) 0#32) = 1#1
theorem hc2 : ∀ t : Fin cfg0.N, c2 (grid0.coords t) ↔ t.val / 8 = t.val % 8 :=
  (by decide +kernel : ∀ t : Fin grid0.N, c2 (grid0.coords t) ↔ t.val / 8 = t.val % 8)
/-- Last column block (ki = 7). -/
abbrev c3 (i : grid0.Coords) : Prop := k0_cond3 i = 1#1
theorem hc3 : ∀ t : Fin cfg0.N, c3 (grid0.coords t) ↔ t.val % 8 = 7 :=
  (by decide +kernel : ∀ t : Fin grid0.N, c3 (grid0.coords t) ↔ t.val % 8 = 7)

/-! ## Where the windows are live -/

theorem live0 : ∀ t : Fin cfg0.N, cfg0.idle 0 (grid0.coords t) = false := by decide +kernel
theorem live1 : ∀ t : Fin cfg0.N, cfg0.idle 1 (grid0.coords t) = false := by decide +kernel
theorem live2 : ∀ t : Fin cfg0.N, cfg0.idle 2 (grid0.coords t) = false := by decide +kernel
theorem live3 : ∀ t : Fin cfg0.N, cfg0.idle 3 (grid0.coords t) = false := by decide +kernel
/-- At the last column block the output window is live. -/
theorem live4 : ∀ t : Fin cfg0.N, c3 (grid0.coords t) → cfg0.idle 4 (grid0.coords t) = false := by decide +kernel

end Last

namespace Last

/-! ## Whole-block loads and stores read back -/

section Whole
open Idealize.ShloMosaic.View
variable {Val : EltTy → Type} {sig' : RefSig} {κ : Kind} {sp : Space} {S : Shape} {e : EltTy}

/-- A load of the whole block from a whole memref held at the contents that read X reads X. -/
theorem readAt_whole_unread {m : Memref sig' κ sp S e} (h : m.IsWhole) {off : Fin S.rank → ℕ} (hoff : off = fun _ => 0)
    (inb : ∀ a, off a + S.size a ≤ S.size a) (X : S.Idx → Val e) :
    View.readAt Val m.view (Rect.unit off S.size inb).toLoadRect (h.unread X) = X := by
  subst hoff; funext x
  rw [Memref.IsWhole.readAt_unread]
  show X ((Rect.whole S).emb x) = X x
  rw [Rect.emb_whole_apply]

/-- A store of the whole block, last, leaves its payload whatever was stored before. -/
theorem read_writes_whole (v : View sig' κ sp S e) (f : v.ty.Contents Val) {off : Fin S.rank → ℕ} (hoff : off = fun _ => 0)
    (inb : ∀ a, off a + S.size a ≤ S.size a) (w : S.Idx → Val e) (L : List (Piece Val S e)) :
    v.read Val (v.writes Val f ((⟨Rect.unit off S.size inb, w⟩ : Piece Val S e) :: L)) = w := by
  subst hoff; funext y
  have e := View.read_writes_cons_emb v f (Rect.whole S) w L y
  rwa [Rect.emb_whole_apply] at e

/-- A load of the whole block after a store of the whole block reads the payload stored last. -/
theorem readCov_whole [∀ e, Nonempty (Val e)] (v : View sig' κ sp S e) {off : Fin S.rank → ℕ} (hoff : off = fun _ => 0)
    (inb : ∀ a, off a + S.size a ≤ S.size a) (w : S.Idx → Val e) (L : List (Piece Val S e)) :
    v.readCov ((⟨Rect.unit off S.size inb, w⟩ : Piece Val S e) :: L) (Rect.unit off S.size inb).toLoadRect = w := by
  subst hoff
  rw [View.readCov_eq_canon_ld _ _ _ (fun y => ⟨_, List.mem_cons_self, by
    show y ∈ (Rect.whole S).set; rw [Rect.set_whole]; exact Finset.mem_univ y⟩), View.canon_cons_unit_zero rfl, View.ld_unit_zero rfl]

theorem zz : (![0, 0] : Fin 2 → ℕ) = fun _ => 0 := by funext a; fin_cases a <;> rfl

end Whole

end Last

namespace Last
set_option maxHeartbeats 4000000 in
/-- The body off the diagonal at a last column block: the accumulators gain the block's sums and the output
    block takes the logarithm of their quotient. -/
theorem run_fft (c : Dev nD) (i : grid0.Coords) (arg2 : Memref sig .tc .vmem S1024x128 .f32) (harg2 : arg2.IsWhole) (arg3 : Memref sig .tc .vmem S1024x128 .f32) (harg3 : arg3.IsWhole) (arg4 : Memref sig .tc .vmem S1024x1 .i32) (harg4 : arg4.IsWhole) (arg5 : Memref sig .tc .vmem S1x1024 .i32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (h1 : ¬c1 i) (h2 : ¬c2 i) (h3 : c3 i)
    (x0 : Vec F S1024x128 .f32) (x1 : Vec F S1024x128 .f32) (x2 : Vec F S1024x1 .i32) (x3 : Vec F S1x1024 .i32) (s0 s1 : Vec F S1024x1 .f32) (xi : Vec F S1024x1 .f32) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3
        ∗ owns (c : Thread nD τ) arg6 fullShare xi ∗ owns (c : Thread nD τ) arg7 fullShare s0 ∗ owns (c : Thread nD τ) arg8 fullShare s1
        ∗ (iprop(owns (c : Thread nD τ) arg2 fullShare x0 ∗ owns (c : Thread nD τ) arg3 fullShare x1 ∗ owns (c : Thread nD τ) arg4 fullShare x2 ∗ owns (c : Thread nD τ) arg5 fullShare x3
            ∗ owns (c : Thread nD τ) arg6 fullShare (k0_pay5 (k0_pay9 x0 x1 x2 x3 s0) (k0_pay1 (k0_pay10 x0 x1 s1)))
            ∗ owns (c : Thread nD τ) arg7 fullShare (k0_pay9 x0 x1 x2 x3 s0) ∗ owns (c : Thread nD τ) arg8 fullShare (k0_pay1 (k0_pay10 x0 x1 s1))) -∗ K ⟨⟩))
      ⊢ wp frame (wpE (defs₀ (F := F)) Variants.none c none) E (cc0__contrastive_kernel i arg2 harg2 arg3 harg3 arg4 harg4 arg5 harg5 arg6 harg6 arg7 harg7 arg8 harg8) K := by
  simp only [cc0__contrastive_kernel_eq_skeleton]; unfold cc0__contrastive_kernel_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%f6, %hf6, H6⟩, ⟨%f7, %hf7, H7⟩, ⟨%f8, %hf8, H8⟩, Hk⟩
  obtain rfl := harg2.eq_unread hf0; obtain rfl := harg3.eq_unread hf1; obtain rfl := harg4.eq_unread hf2; obtain rfl := harg5.eq_unread hf3
  obtain rfl := harg6.eq_unread hf6; obtain rfl := harg7.eq_unread hf7; obtain rfl := harg8.eq_unread hf8
  sl_exec (disch := first | exact h1 | exact h2 | exact h3)
  sl_step
  have r0 : View.readAt (Elt F) arg2.view (Rect.unit ![0, 0] S1024x128.size Gen.inb_S1024x128_S1024x128_0_0).toLoadRect (harg2.unread x0) = x0 := readAt_whole_unread harg2 zz _ x0
  have r1 : View.readAt (Elt F) arg3.view (Rect.unit ![0, 0] S1024x128.size Gen.inb_S1024x128_S1024x128_0_0).toLoadRect (harg3.unread x1) = x1 := readAt_whole_unread harg3 zz _ x1
  have r2 : View.readAt (Elt F) arg4.view (Rect.unit ![0, 0] S1024x1.size Gen.inb_S1024x1_S1024x1_0_0).toLoadRect (harg4.unread x2) = x2 := readAt_whole_unread harg4 zz _ x2
  have r3 : View.readAt (Elt F) arg5.view (Rect.unit ![0, 0] S1x1024.size Gen.inb_S1x1024_S1x1024_0_0).toLoadRect (harg5.unread x3) = x3 := readAt_whole_unread harg5 zz _ x3
  have r7 : View.readAt (Elt F) arg7.view (Rect.unit ![0, 0] S1024x1.size Gen.inb_S1024x1_S1024x1_0_0).toLoadRect (harg7.unread s0) = s0 := readAt_whole_unread harg7 zz _ s0
  have r8 : View.readAt (Elt F) arg8.view (Rect.unit ![0, 0] S1024x1.size Gen.inb_S1024x1_S1024x1_0_0).toLoadRect (harg8.unread s1) = s1 := readAt_whole_unread harg8 zz _ s1
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H6]
  · iexists _; isplitr
    swap; · iexact H6
    ipureintro
    refine (read_writes_whole _ _ zz _ _ _).trans ?_
    sl_unfold_run_names
    rw [r0, r1, r2, r3, r7, r8]
    refine congrArg₂ (k0_pay5 (F := F)) ?_ ?_
    · exact readCov_whole _ zz _ _ _
    · exact readCov_whole _ zz _ _ _
  isplitl [H7]
  · iexists _; isplitr
    swap; · iexact H7
    ipureintro
    sl_unfold_run_names
    rw [r0, r1, r2, r3, r7]
    exact read_writes_whole _ _ zz _ _ _
  iexists _; isplitr
  swap; · iexact H8
  ipureintro
  sl_unfold_run_names
  rw [r0, r1, r8]
  exact read_writes_whole _ _ zz _ _ _

end Last

namespace Last
set_option maxHeartbeats 4000000 in
/-- The body on the diagonal at the last column block: as off it, with the rows' own entries taken off both
    accumulators before the logarithm. -/
theorem run_ftt (c : Dev nD) (i : grid0.Coords) (arg2 : Memref sig .tc .vmem S1024x128 .f32) (harg2 : arg2.IsWhole) (arg3 : Memref sig .tc .vmem S1024x128 .f32) (harg3 : arg3.IsWhole) (arg4 : Memref sig .tc .vmem S1024x1 .i32) (harg4 : arg4.IsWhole) (arg5 : Memref sig .tc .vmem S1x1024 .i32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (h1 : ¬c1 i) (h2 : c2 i) (h3 : c3 i)
    (x0 : Vec F S1024x128 .f32) (x1 : Vec F S1024x128 .f32) (x2 : Vec F S1024x1 .i32) (x3 : Vec F S1x1024 .i32) (s0 s1 : Vec F S1024x1 .f32) (xi : Vec F S1024x1 .f32) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3
        ∗ owns (c : Thread nD τ) arg6 fullShare xi ∗ owns (c : Thread nD τ) arg7 fullShare s0 ∗ owns (c : Thread nD τ) arg8 fullShare s1
        ∗ (iprop(owns (c : Thread nD τ) arg2 fullShare x0 ∗ owns (c : Thread nD τ) arg3 fullShare x1 ∗ owns (c : Thread nD τ) arg4 fullShare x2 ∗ owns (c : Thread nD τ) arg5 fullShare x3
            ∗ owns (c : Thread nD τ) arg6 fullShare (k0_pay5 (k0_pay3 (k0_pay8 x0 x1) (k0_pay9 x0 x1 x2 x3 s0)) (k0_pay4 (k0_pay8 x0 x1) (k0_pay1 (k0_pay10 x0 x1 s1))))
            ∗ owns (c : Thread nD τ) arg7 fullShare (k0_pay3 (k0_pay8 x0 x1) (k0_pay9 x0 x1 x2 x3 s0)) ∗ owns (c : Thread nD τ) arg8 fullShare (k0_pay4 (k0_pay8 x0 x1) (k0_pay1 (k0_pay10 x0 x1 s1)))) -∗ K ⟨⟩))
      ⊢ wp frame (wpE (defs₀ (F := F)) Variants.none c none) E (cc0__contrastive_kernel i arg2 harg2 arg3 harg3 arg4 harg4 arg5 harg5 arg6 harg6 arg7 harg7 arg8 harg8) K := by
  simp only [cc0__contrastive_kernel_eq_skeleton]; unfold cc0__contrastive_kernel_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%f6, %hf6, H6⟩, ⟨%f7, %hf7, H7⟩, ⟨%f8, %hf8, H8⟩, Hk⟩
  obtain rfl := harg2.eq_unread hf0; obtain rfl := harg3.eq_unread hf1; obtain rfl := harg4.eq_unread hf2; obtain rfl := harg5.eq_unread hf3
  obtain rfl := harg6.eq_unread hf6; obtain rfl := harg7.eq_unread hf7; obtain rfl := harg8.eq_unread hf8
  sl_exec (disch := first | exact h1 | exact h2 | exact h3)
  sl_step
  have r0 : View.readAt (Elt F) arg2.view (Rect.unit ![0, 0] S1024x128.size Gen.inb_S1024x128_S1024x128_0_0).toLoadRect (harg2.unread x0) = x0 := readAt_whole_unread harg2 zz _ x0
  have r1 : View.readAt (Elt F) arg3.view (Rect.unit ![0, 0] S1024x128.size Gen.inb_S1024x128_S1024x128_0_0).toLoadRect (harg3.unread x1) = x1 := readAt_whole_unread harg3 zz _ x1
  have r2 : View.readAt (Elt F) arg4.view (Rect.unit ![0, 0] S1024x1.size Gen.inb_S1024x1_S1024x1_0_0).toLoadRect (harg4.unread x2) = x2 := readAt_whole_unread harg4 zz _ x2
  have r3 : View.readAt (Elt F) arg5.view (Rect.unit ![0, 0] S1x1024.size Gen.inb_S1x1024_S1x1024_0_0).toLoadRect (harg5.unread x3) = x3 := readAt_whole_unread harg5 zz _ x3
  have r7 : View.readAt (Elt F) arg7.view (Rect.unit ![0, 0] S1024x1.size Gen.inb_S1024x1_S1024x1_0_0).toLoadRect (harg7.unread s0) = s0 := readAt_whole_unread harg7 zz _ s0
  have r8 : View.readAt (Elt F) arg8.view (Rect.unit ![0, 0] S1024x1.size Gen.inb_S1024x1_S1024x1_0_0).toLoadRect (harg8.unread s1) = s1 := readAt_whole_unread harg8 zz _ s1
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H6]
  · iexists _; isplitr
    swap; · iexact H6
    ipureintro
    refine (read_writes_whole _ _ zz _ _ _).trans ?_
    sl_unfold_run_names
    simp only [r0, r1, r2, r3, r7, r8, readCov_whole arg7.view zz, readCov_whole arg8.view zz]
  isplitl [H7]
  · iexists _; isplitr
    swap; · iexact H7
    ipureintro
    refine (read_writes_whole _ _ zz _ _ _).trans ?_
    sl_unfold_run_names
    simp only [r0, r1, r2, r3, r7, r8, readCov_whole arg7.view zz, readCov_whole arg8.view zz]
  iexists _; isplitr
  swap; · iexact H8
  ipureintro
  refine (read_writes_whole _ _ zz _ _ _).trans ?_
  sl_unfold_run_names
  simp only [r0, r1, r2, r3, r7, r8, readCov_whole arg7.view zz, readCov_whole arg8.view zz]

end Last

namespace Last

/-! ## What the windows' buffers hold when the body is called -/

/-- An input window's current buffer holds its block at every point, fetched there or kept from the point before. -/
theorem before_in0 (c : Dev nD) (t : Fin cfg0.N) (d) : (dat0 V c).before 0 t d = iblk V c 0 t :=
  ((dat0 V c).before_in_eq_fetched 0 rfl (fun _ => rfl) (fun _ _ _ => rfl)
    (fun t => by rw [after0_0]; unfold Dat.blockOf iblk; rw [dat0_A]; try rfl) t d).trans
    (by unfold Dat.fetched Dat.blockOf iblk; rw [dat0_A]; try rfl)
theorem before_in1 (c : Dev nD) (t : Fin cfg0.N) (d) : (dat0 V c).before 1 t d = iblk V c 1 t :=
  ((dat0 V c).before_in_eq_fetched 1 rfl (fun _ => rfl) (fun _ _ _ => rfl)
    (fun t => by rw [after0_1]; unfold Dat.blockOf iblk; rw [dat0_A]; try rfl) t d).trans
    (by unfold Dat.fetched Dat.blockOf iblk; rw [dat0_A]; try rfl)
theorem before_in2 (c : Dev nD) (t : Fin cfg0.N) (d) : (dat0 V c).before 2 t d = iblk V c 2 t :=
  ((dat0 V c).before_in_eq_fetched 2 rfl (fun _ => rfl) (fun _ _ _ => rfl)
    (fun t => by rw [after0_2]; unfold Dat.blockOf iblk; rw [dat0_A]; try rfl) t d).trans
    (by unfold Dat.fetched Dat.blockOf iblk; rw [dat0_A]; try rfl)
theorem before_in3 (c : Dev nD) (t : Fin cfg0.N) (d) : (dat0 V c).before 3 t d = iblk V c 3 t :=
  ((dat0 V c).before_in_eq_fetched 3 rfl (fun _ => rfl) (fun _ _ _ => rfl)
    (fun t => by rw [after0_3]; unfold Dat.blockOf iblk; rw [dat0_A]; try rfl) t d).trans
    (by unfold Dat.fetched Dat.blockOf iblk; rw [dat0_A]; try rfl)

/-- The invariant at a point's start, restated at the point's number. -/
theorem Phi_castSucc (c : Dev nD) (t : Fin cfg0.N) :
    (dat0 V c).Φ t.castSucc = PhiS V c t.val (Nat.le_of_lt t.isLt) := rfl

end Last

set_option maxHeartbeats 4800000 in
/-- The body's triple at a point of the last column block. -/
theorem sound_last (c : Dev nD) (t : Fin cfg0.N) (h7 : t.val % 8 = 7) :
    iprop((dat0 V c).Φ t.castSucc ∗ (dat0 V c).owesAt () t.castSucc
      ∗ (∃ d, owns (c : Thread nD τ) (st0_0 t) fullShare ((dat0 V c).before 0 t d))
      ∗ (∃ d, owns (c : Thread nD τ) (st0_1 t) fullShare ((dat0 V c).before 1 t d))
      ∗ (∃ d, owns (c : Thread nD τ) (st0_2 t) fullShare ((dat0 V c).before 2 t d))
      ∗ (∃ d, owns (c : Thread nD τ) (st0_3 t) fullShare ((dat0 V c).before 3 t d))
      ∗ (∃ d, owns (c : Thread nD τ) (st0_4 t) fullShare ((dat0 V c).before 4 t d)))
    ⊢ wp frame (wpE (defs₀ (F := F)) Variants.none c none) Set.univ (bodyAt0 t) (fun _ =>
      iprop((dat0 V c).Φ t.succ ∗ (dat0 V c).owesAt () t.succ
        ∗ (dat0 V c).leavesExact 0 t
        ∗ (dat0 V c).leavesExact 1 t
        ∗ (dat0 V c).leavesExact 2 t
        ∗ (dat0 V c).leavesExact 3 t
        ∗ (dat0 V c).leavesExact 4 t)) := by
  have hN : t.val < 64 := lt_of_lt_of_eq t.isLt N_0
  have hz : t.val ≠ 0 := by omega
  have h0 : ¬t.val % 8 = 0 := by omega
  have hk1 : ¬Last.c1 (grid0.coords t) := fun h => h0 ((Last.hc1 t).mp h)
  have hk3 : Last.c3 (grid0.coords t) := (Last.hc3 t).mpr h7
  unfold bodyAt0
  simp only [Last.before_in0, Last.before_in1, Last.before_in2, Last.before_in3]
  rw [show (dat0 V c).owesAt () t.succ = (dat0 V c).owesAt () t.castSucc from rfl]
  rw [show (dat0 V c).Φ t.succ = PhiS V c (t.val + 1) t.isLt from rfl, PhiS_succ]
  rw [show (dat0 V c).leavesExact 0 t = owns (c : Thread nD τ) (st0_0 t) fullShare ((dat0 V c).after 0 t) from by
    unfold Dat.leavesExact; rw [Last.live0 t], after0_0]
  rw [show (dat0 V c).leavesExact 1 t = owns (c : Thread nD τ) (st0_1 t) fullShare ((dat0 V c).after 1 t) from by
    unfold Dat.leavesExact; rw [Last.live1 t], after0_1]
  rw [show (dat0 V c).leavesExact 2 t = owns (c : Thread nD τ) (st0_2 t) fullShare ((dat0 V c).after 2 t) from by
    unfold Dat.leavesExact; rw [Last.live2 t], after0_2]
  rw [show (dat0 V c).leavesExact 3 t = owns (c : Thread nD τ) (st0_3 t) fullShare ((dat0 V c).after 3 t) from by
    unfold Dat.leavesExact; rw [Last.live3 t], after0_3]
  rw [show (dat0 V c).leavesExact 4 t = owns (c : Thread nD τ) (st0_4 t) fullShare ((dat0 V c).after 4 t) from by
    unfold Dat.leavesExact; rw [Last.live4 t hk3], after0_4]
  rw [Last.Phi_castSucc V c t, PhiS_pos V c _ _ hz]
  unfold outAt
  by_cases hd : t.val / 8 = t.val % 8
  · have hk2 : Last.c2 (grid0.coords t) := (Last.hc2 t).mpr hd
    rw [accAt_pos V c t hz, accStep_diag V c t h0 hd]
    unfold expBlk
    iintro ⟨⟨Hg, HN, HD⟩, Ho, ⟨%d0, H0⟩, ⟨%d1, H1⟩, ⟨%d2, H2⟩, ⟨%d3, H3⟩, ⟨%d4, H4⟩⟩
    iapply (Last.run_ftt c (grid0.coords t) _ _ _ _ _ _ _ _ _ _ _ _ _ _ hk1 hk2 hk3 (iblk V c 0 t) (iblk V c 1 t) (iblk V c 2 t) (iblk V c 3 t) _ _ _ Set.univ _)
    isplitl [H0]; · iexact H0
    isplitl [H1]; · iexact H1
    isplitl [H2]; · iexact H2
    isplitl [H3]; · iexact H3
    isplitl [H4]; · iexact H4
    isplitl [HN]; · iexact HN
    isplitl [HD]; · iexact HD
    iintro ⟨H0, H1, H2, H3, H4, HN, HD⟩
    isplitl [Hg HN HD]
    · isplitl [Hg]; · iexact Hg
      isplitl [HN]; · iexact HN
      iexact HD
    isplitl [Ho]; · iexact Ho
    isplitl [H0]; · iexact H0
    isplitl [H1]; · iexact H1
    isplitl [H2]; · iexact H2
    isplitl [H3]; · iexact H3
    iexact H4
  · have hk2 : ¬Last.c2 (grid0.coords t) := fun h => hd ((Last.hc2 t).mp h)
    rw [accAt_pos V c t hz, accStep_offdiag V c t h0 hd]
    iintro ⟨⟨Hg, HN, HD⟩, Ho, ⟨%d0, H0⟩, ⟨%d1, H1⟩, ⟨%d2, H2⟩, ⟨%d3, H3⟩, ⟨%d4, H4⟩⟩
    iapply (Last.run_fft c (grid0.coords t) _ _ _ _ _ _ _ _ _ _ _ _ _ _ hk1 hk2 hk3 (iblk V c 0 t) (iblk V c 1 t) (iblk V c 2 t) (iblk V c 3 t) _ _ _ Set.univ _)
    isplitl [H0]; · iexact H0
    isplitl [H1]; · iexact H1
    isplitl [H2]; · iexact H2
    isplitl [H3]; · iexact H3
    isplitl [H4]; · iexact H4
    isplitl [HN]; · iexact HN
    isplitl [HD]; · iexact HD
    iintro ⟨H0, H1, H2, H3, H4, HN, HD⟩
    isplitl [Hg HN HD]
    · isplitl [Hg]; · iexact Hg
      isplitl [HN]; · iexact HN
      iexact HD
    isplitl [Ho]; · iexact Ho
    isplitl [H0]; · iexact H0
    isplitl [H1]; · iexact H1
    isplitl [H2]; · iexact H2
    isplitl [H3]; · iexact H3
    iexact H4

end Cert.Kernel.Body

end
-- ==== Proof.BitsBody.lean ====
import proofs.«161181_j22351009808686_2_alg».proof.Proof.BitsBodyFirstRuns
import proofs.«161181_j22351009808686_2_alg».proof.Proof.BitsBodyMid
import proofs.«161181_j22351009808686_2_alg».proof.Proof.BitsBodyLast
import proofs.«161181_j22351009808686_2_alg».proof.Proof.BitsBoundary

set_option maxRecDepth 16384

noncomputable section

namespace Cert.Kernel.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The body obligation at a first column block -/

set_option maxHeartbeats 4000000 in
/-- At a point with ki = 0: the body zeroes both accumulators, adds the block's sums, on the diagonal (the first point) takes
    the diagonal off, and stores no output. -/
theorem sound_first (c : Dev nD) (t : Fin cfg0.N) (h0 : t.val % 8 = 0) :
    iprop((dat0 V c).Φ t.castSucc ∗ (dat0 V c).owesAt () t.castSucc
      ∗ (∃ d, owns (c : Thread nD τ) (st0_0 t) fullShare ((dat0 V c).before 0 t d)) ∗ (∃ d, owns (c : Thread nD τ) (st0_1 t) fullShare ((dat0 V c).before 1 t d)) ∗ (∃ d, owns (c : Thread nD τ) (st0_2 t) fullShare ((dat0 V c).before 2 t d)) ∗ (∃ d, owns (c : Thread nD τ) (st0_3 t) fullShare ((dat0 V c).before 3 t d)) ∗ (∃ d, owns (c : Thread nD τ) (st0_4 t) fullShare ((dat0 V c).before 4 t d)))
    ⊢ wp frame (wpE (defs₀ (F := F)) Variants.none c none) Set.univ (bodyAt0 t) (fun _ =>
      iprop((dat0 V c).Φ t.succ ∗ (dat0 V c).owesAt () t.succ ∗ (dat0 V c).leavesExact 0 t ∗ (dat0 V c).leavesExact 1 t ∗ (dat0 V c).leavesExact 2 t ∗ (dat0 V c).leavesExact 3 t ∗ (dat0 V c).leavesExact 4 t)) := by
  unfold bodyAt0
  simp only [before0, before1, before2, before3]
  rw [show (dat0 V c).owesAt () t.succ = (dat0 V c).owesAt () t.castSucc from rfl]
  rw [show (dat0 V c).Φ t.succ = PhiS V c (t.val + 1) t.isLt from rfl, PhiS_succ]
  have hN : t.val < 64 := lt_of_lt_of_eq t.isLt (show cfg0.N = 64 from N_0)
  have h3 : ¬t.val % 8 = 7 := by omega
  have hc1 : cond1 (grid0.coords t) := (hcond1 t).mpr h0
  have hc3 : ¬cond3 (grid0.coords t) := fun h => h3 ((hcond3 t).mp h)
  rw [show (dat0 V c).leavesExact 0 t = owns (c : Thread nD τ) (st0_0 t) fullShare ((dat0 V c).after 0 t) from by
    unfold Dat.leavesExact; rw [liveAt0 t], after0_0]
  rw [show (dat0 V c).leavesExact 1 t = owns (c : Thread nD τ) (st0_1 t) fullShare ((dat0 V c).after 1 t) from by
    unfold Dat.leavesExact; rw [liveAt1 t], after0_1]
  rw [show (dat0 V c).leavesExact 2 t = owns (c : Thread nD τ) (st0_2 t) fullShare ((dat0 V c).after 2 t) from by
    unfold Dat.leavesExact; rw [liveAt2 t], after0_2]
  rw [show (dat0 V c).leavesExact 3 t = owns (c : Thread nD τ) (st0_3 t) fullShare ((dat0 V c).after 3 t) from by
    unfold Dat.leavesExact; rw [liveAt3 t], after0_3]
  rw [Dat.leavesExact_idle (dat0 V c) 4 t (idleAt4 t hc3) (noFlush4 t hc3)]
  by_cases hd : t.val / 8 = t.val % 8
  ·
    have hz : t.val = 0 := by omega
    have hc2 : cond2 (grid0.coords t) := (hcond2 t).mpr hd
    rw [show (dat0 V c).Φ t.castSucc = PhiS V c t.val (Nat.le_of_lt t.isLt) from rfl, PhiS_zero V c _ _ hz]
    iintro ⟨⟨Hg, ⟨%dn, HN⟩, ⟨%dd, HD⟩⟩, Ho, ⟨%d0, H0⟩, ⟨%d1, H1⟩, ⟨%d2, H2⟩, ⟨%d3, H3⟩, ⟨%d4, H4⟩⟩
    rw [accAt_of_zero V c t hz (dn, dd), accStep_eq_stepG]
    simp only [stepG, if_pos h0, if_pos hd]
    iapply (run_ttf c (grid0.coords t) _ _ _ _ _ _ _ _ _ _ _ _ _ _ hc1 hc2 hc3 (iblk V c 0 t) (iblk V c 1 t) (iblk V c 2 t) (iblk V c 3 t) dn dd _ Set.univ _)
    isplitl [H0]; · iexact H0
    isplitl [H1]; · iexact H1
    isplitl [H2]; · iexact H2
    isplitl [H3]; · iexact H3
    isplitl [H4]; · iexact H4
    isplitl [HN]; · iexact HN
    isplitl [HD]; · iexact HD
    iintro ⟨H0, H1, H2, H3, H4, HN, HD⟩
    isplitl [Hg HN HD]
    · isplitl [Hg]; · iexact Hg
      isplitl [HN]; · iexact HN
      iexact HD
    isplitl [Ho]; · iexact Ho
    isplitl [H0]; · iexact H0
    isplitl [H1]; · iexact H1
    isplitl [H2]; · iexact H2
    isplitl [H3]; · iexact H3
    iexists _; iexact H4
  ·
    have hz : t.val ≠ 0 := by omega
    have hc2 : ¬cond2 (grid0.coords t) := fun h => hd ((hcond2 t).mp h)
    rw [show (dat0 V c).Φ t.castSucc = PhiS V c t.val (Nat.le_of_lt t.isLt) from rfl, PhiS_pos V c _ _ hz]
    iintro ⟨⟨Hg, HN, HD⟩, Ho, ⟨%d0, H0⟩, ⟨%d1, H1⟩, ⟨%d2, H2⟩, ⟨%d3, H3⟩, ⟨%d4, H4⟩⟩
    rw [accAt_pos V c t hz, accStep_eq_stepG]
    simp only [stepG, if_pos h0, if_neg hd]
    iapply (run_tff c (grid0.coords t) _ _ _ _ _ _ _ _ _ _ _ _ _ _ hc1 hc2 hc3 (iblk V c 0 t) (iblk V c 1 t) (iblk V c 2 t) (iblk V c 3 t) _ _ _ Set.univ _)
    isplitl [H0]; · iexact H0
    isplitl [H1]; · iexact H1
    isplitl [H2]; · iexact H2
    isplitl [H3]; · iexact H3
    isplitl [H4]; · iexact H4
    isplitl [HN]; · iexact HN
    isplitl [HD]; · iexact HD
    iintro ⟨H0, H1, H2, H3, H4, HN, HD⟩
    isplitl [Hg HN HD]
    · isplitl [Hg]; · iexact Hg
      isplitl [HN]; · iexact HN
      iexact HD
    isplitl [Ho]; · iexact Ho
    isplitl [H0]; · iexact H0
    isplitl [H1]; · iexact H1
    isplitl [H2]; · iexact H2
    isplitl [H3]; · iexact H3
    iexists _; iexact H4

/-! ## The body obligation at every point, and the bundle the launch takes -/

/-- The library's body obligation: by the point's column block — first, last, or between. -/
theorem body_obligation_exact (c : Dev nD) : BodyObligation (dat0 V c) (defs₀ (F := F)) Variants.none () Set.univ := fun t => by
  rw [bigSep_W0, bigSep_W0]
  by_cases h0 : t.val % 8 = 0
  · exact sound_first V c t h0
  · by_cases h7 : t.val % 8 = 7
    · exact sound_last V c t h7
    · exact sound_mid V c t h0 h7

/-- As the loop uses it. -/
theorem body_obligation (c : Dev nD) : Pipeline.BodyObligationLoose (dat0 V c) (defs₀ (F := F)) Variants.none () Set.univ :=
  (body_obligation_exact V c).loose

/-- What the launch uses of the proof data. -/
theorem datFacts (V : Cert.Kernel.Launch.Entry F) : Cert.Kernel.Launch.DatFacts (dat0 V) V :=
  { A_eq := dat0_A V, q0 := dat0_q0 V, q1 := dat0_q1 V, q2 := dat0_q2 V, q3 := dat0_q3 V, owed := dat0_owed V,
    recorded := fun _ _ => rfl, body := body_obligation V, hin := hin0 V, hout := hout0 V }

end Cert.Kernel.Body

end
-- ==== Proof.LibUnitRowExp.lean ====
/-
  Real-number facts about rows of Euclidean length one and sums of exponentials of their inner products.

  * Two vectors of length one have an inner product of absolute value at most one (Cauchy–Schwarz);
    a vector divided by its own length has length one.
  * Hence exp (2 · ⟨u, v⟩) lies above exp (-2), which is far above 10⁻¹²: a lower clamp at 10⁻¹²
    on a sum containing one such term never acts.
  * A masked sum over a row less its own (masked) entry is the masked sum over the other entries.
  * A finite sum of real numbers read in the extended reals is the sum of the readings.
-/
import Mathlib

open Finset BigOperators

namespace UnitRowExp

/-- Cauchy–Schwarz for two vectors of Euclidean length one. -/
theorem abs_sum_mul_le_one {n : ℕ} (u v : Fin n → ℝ) (hu : ∑ k, u k * u k = 1) (hv : ∑ k, v k * v k = 1) :
    |∑ k, u k * v k| ≤ 1 := by
  have h := Finset.sum_mul_sq_le_sq_mul_sq Finset.univ u v
  have hu' : ∑ k, u k ^ 2 = 1 := by simpa [sq] using hu
  have hv' : ∑ k, v k ^ 2 = 1 := by simpa [sq] using hv
  rw [hu', hv', one_mul] at h
  exact (sq_le_one_iff_abs_le_one _).mp h

/-- A vector with a nonzero entry, divided by its Euclidean length, has length one. -/
theorem sum_normalized_sq {n : ℕ} (x : Fin n → ℝ) (h : 0 < ∑ k, x k * x k) :
    ∑ k, (x k / Real.sqrt (∑ k, x k * x k)) * (x k / Real.sqrt (∑ k, x k * x k)) = 1 := by
  have hs : Real.sqrt (∑ k, x k * x k) * Real.sqrt (∑ k, x k * x k) = ∑ k, x k * x k := Real.mul_self_sqrt h.le
  have hk : ∀ k, x k / Real.sqrt (∑ k, x k * x k) * (x k / Real.sqrt (∑ k, x k * x k)) = (x k * x k) / (∑ k, x k * x k) := by
    intro k; rw [div_mul_div_comm, hs]
  simp_rw [hk, ← Finset.sum_div]
  exact div_self h.ne'

/-- exp (-2) is above 10⁻¹². -/
theorem tiny_lt_exp_neg_two : (1 / 1000000000000 : ℝ) < Real.exp (-2) := by
  have h9 : Real.exp 2 < 9 := by
    have h1 := Real.exp_one_lt_d9
    have h : Real.exp 2 = Real.exp 1 * Real.exp 1 := by rw [← Real.exp_add]; norm_num
    rw [h]; nlinarith [Real.exp_pos 1]
  have hpos := Real.exp_pos 2
  rw [Real.exp_neg, one_div, inv_lt_inv₀ (by norm_num) hpos]
  linarith

/-- The exponential of twice an inner product of two unit vectors is above 10⁻¹². -/
theorem tiny_lt_exp_two_mul {s : ℝ} (hs : |s| ≤ 1) : (1 / 1000000000000 : ℝ) < Real.exp (2 * s) := by
  have h1 : Real.exp (-2) ≤ Real.exp (2 * s) := Real.exp_le_exp.mpr (by have := (abs_le.mp hs).1; linarith)
  exact lt_of_lt_of_le tiny_lt_exp_neg_two h1

/-- A masked sum over a row, less the row's own entry (which the mask keeps), is the masked sum over the
    other entries. -/
theorem sum_mask_sub_self {ι : Type*} [Fintype ι] [DecidableEq ι] (E : ι → ℝ) (m : ι → Prop) [DecidablePred m]
    (i₀ : ι) (h : m i₀) :
    (∑ j, if m j then E j else 0) - E i₀ = ∑ j, if m j ∧ j ≠ i₀ then E j else 0 := by
  have hp : ∀ j, (if m j then E j else 0) = (if m j ∧ j ≠ i₀ then E j else 0) + (if j = i₀ then E j else 0) := by
    intro j
    by_cases hj : j = i₀
    · subst hj; simp [h]
    · simp [hj]
  rw [Finset.sum_congr rfl (fun j _ => hp j), Finset.sum_add_distrib, Finset.sum_ite_eq' Finset.univ i₀ E]
  simp

/-- The whole row's sum less its own entry is the sum over the other entries. -/
theorem sum_sub_self {ι : Type*} [Fintype ι] [DecidableEq ι] (E : ι → ℝ) (i₀ : ι) :
    (∑ j, E j) - E i₀ = ∑ j, if j ≠ i₀ then E j else 0 := by
  have := sum_mask_sub_self E (fun _ => True) i₀ trivial
  simpa using this

/-- A finite sum of real numbers, read in the extended reals. -/
theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

end UnitRowExp
-- ==== Proof.ContrastiveSpec.lean ====
/-
  The loss both programs compute, as a function of real arrays.

  Rows r < 4096 of the stacked array are the first argument's rows, rows r ≥ 4096 the second's. Each row is
  divided by its Euclidean length; sim i j is the inner product of rows i and j of the result, E i j =
  exp (2 · sim i j). For row i, den i sums E i j over the columns j ≠ i, num i over the columns j ≠ i that
  carry row i's label. The loss is the mean over i of log (den i / num i), written as the sum divided by
  16384 = 2 · 8192.

  When every row has a nonzero entry, every E i j lies in [exp (-2), exp 2] (Cauchy–Schwarz); when in
  addition every label occurs on at least two rows, num i ≥ exp (-2) > 10⁻¹².
-/
import proofs.«161181_j22351009808686_2_alg».proof.Proof.LibUnitRowExp

open Finset BigOperators

namespace ContrastiveSpec

/-- The two arguments' rows, one array over the other. -/
def stack (a0 a1 : Fin 4096 → Fin 128 → ℝ) : Fin 8192 → Fin 128 → ℝ :=
  fun r k => if h : r.val < 4096 then a0 ⟨r.val, h⟩ k else a1 ⟨r.val - 4096, by have := r.isLt; omega⟩ k

variable (a : Fin 8192 → Fin 128 → ℝ) (lab : Fin 8192 → BitVec 32)

/-- The squared Euclidean length of row r. -/
noncomputable def sq (r : Fin 8192) : ℝ := ∑ k, a r k * a r k
/-- Row r divided by its Euclidean length. -/
noncomputable def unit (r : Fin 8192) (k : Fin 128) : ℝ := a r k / Real.sqrt (sq a r)
/-- The inner product of the normalised rows i and j. -/
noncomputable def sim (i j : Fin 8192) : ℝ := ∑ k, unit a i k * unit a j k
noncomputable def E (i j : Fin 8192) : ℝ := Real.exp (2 * sim a i j)
/-- Row i's sum over the other columns. -/
noncomputable def den (i : Fin 8192) : ℝ := ∑ j, if j ≠ i then E a i j else 0
/-- Row i's sum over the other columns with row i's label. -/
noncomputable def num (i : Fin 8192) : ℝ := ∑ j, if lab j = lab i ∧ j ≠ i then E a i j else 0
noncomputable def loss : ℝ := (∑ i, Real.log (den a i / num a lab i)) / 16384

theorem E_pos (i j : Fin 8192) : 0 < E a i j := Real.exp_pos _

variable {a}

theorem abs_sim_le_one (hpos : ∀ r, 0 < sq a r) (i j : Fin 8192) : |sim a i j| ≤ 1 :=
  UnitRowExp.abs_sum_mul_le_one _ _ (UnitRowExp.sum_normalized_sq (a i) (hpos i)) (UnitRowExp.sum_normalized_sq (a j) (hpos j))

theorem tiny_lt_E (hpos : ∀ r, 0 < sq a r) (i j : Fin 8192) : (1 / 1000000000000 : ℝ) < E a i j :=
  UnitRowExp.tiny_lt_exp_two_mul (abs_sim_le_one hpos i j)

variable {lab}

/-- With a second row of row i's label, row i's labelled sum is above 10⁻¹². -/
theorem tiny_lt_num (hpos : ∀ r, 0 < sq a r) (i : Fin 8192) (hlab : ∃ j, j ≠ i ∧ lab j = lab i) :
    (1 / 1000000000000 : ℝ) < num a lab i := by
  obtain ⟨j, hji, hl⟩ := hlab
  have hle : (if lab j = lab i ∧ j ≠ i then E a i j else 0) ≤ num a lab i :=
    Finset.single_le_sum (f := fun j => if lab j = lab i ∧ j ≠ i then E a i j else 0)
      (fun j _ => by split_ifs <;> [exact (E_pos a i j).le; exact le_rfl]) (Finset.mem_univ j)
  rw [if_pos ⟨hl, hji⟩] at hle
  exact lt_of_lt_of_le (tiny_lt_E hpos i j) hle

theorem num_pos (hpos : ∀ r, 0 < sq a r) (i : Fin 8192) (hlab : ∃ j, j ≠ i ∧ lab j = lab i) : 0 < num a lab i :=
  lt_trans (by norm_num) (tiny_lt_num hpos i hlab)

/-- The whole row's sum less its own entry. -/
theorem den_eq (i : Fin 8192) : den a i = (∑ j, E a i j) - E a i i := (UnitRowExp.sum_sub_self (E a i) i).symm

/-- The row's sum over its label's columns less its own entry. -/
theorem num_eq (i : Fin 8192) : num a lab i = (∑ j, if lab j = lab i then E a i j else 0) - E a i i :=
  (UnitRowExp.sum_mask_sub_self (E a i) (fun j => lab j = lab i) i rfl).symm

end ContrastiveSpec
-- ==== Proof.RefValue.lean ====
/-
  The reference program computes the loss of ContrastiveSpec.

  Stage by stage, each array the program forms is read at an index as a real number: the rows' sums of
  squares, the rows divided by their lengths, the stacked array, the inner products, the two masks (other
  column with the same label; other column with another label), the exponentials, the two row sums,
  the logarithm of their quotient, and the mean.
-/
import proofs.«161181_j22351009808686_2_alg».proof.Proof.Gen.ReferenceIdeal.Read
import proofs.«161181_j22351009808686_2_alg».proof.Proof.ContrastiveSpec
import Idealize.ShloMosaic.Lib.ValueIdx
import Idealize.ShloMosaic.Lib.Pipeline.Value
import Idealize.ShloMosaic.PureOps.Ideal.Laws

noncomputable section

namespace RefValue

open Cert.ReferenceIdeal Cert.ReferenceIdeal.Gen Cert.ReferenceIdeal.Read
open Idealize.ShloMosaic Idealize.ShloMosaic.ValueIdx
open Finset BigOperators

/-! ## The two literals -/

/-- The word of one half. -/
theorem ofBits_half : Ideal.ofBits .f32 0x3F000000#32 = (((1 : ℝ) / 2 : ℝ) : EReal) := by
  simp [Ideal.ofBits, Ideal.ieee, -EReal.coe_mul]; norm_num

/-- The word of 16384 = 2¹⁴. -/
theorem ofBits_16384 : Ideal.ofBits .f32 0x46800000#32 = ((16384 : ℝ) : EReal) := by
  simp [Ideal.ofBits, Ideal.ieee, -EReal.coe_mul]; norm_num

/-! ## A row divided by its length -/

section Norm
variable (a : Fin 4096 → Fin 128 → ℝ) (x : (⟨S4096x128, .f32⟩ : BufTy).Contents (Elt Ideal))
  (hx : ∀ (r : Fin 4096) (k : Fin 128), x (ix2 r k) = ((a r k : ℝ) : EReal))
include hx

/-- The sum of the squares of row r. -/
theorem sumsq_apply (r : Fin 4096) :
    val_main_call0_v1 (F := Ideal) x (ix1 r) = ((∑ k, a r k * a r k : ℝ) : EReal) := by
  rw [val_main_call0_v1_apply, val_main_call0_cst_apply, Ideal.ofBits_def, Ideal.ofBits_zero_f32, zero_add,
    UnitRowExp.coe_sum]
  refine Finset.sum_congr rfl fun k _ => ?_
  have e : idx_main_call0_v1 (ix1 r) k = ix2 r k := by
    funext d; match d with | ⟨0, _⟩ => rfl | ⟨1, _⟩ => rfl
  rw [e, val_main_call0_v0_apply, Ideal.mulf_def, hx, EReal.coe_mul]

/-- The length of row r, at every column. -/
theorem length_apply (r : Fin 4096) (hpos : 0 < ∑ k, a r k * a r k) (k : Fin 128) :
    val_main_v1 (F := Ideal) x (ix2 r k) = ((Real.sqrt (∑ k, a r k * a r k) : ℝ) : EReal) := by
  rw [val_main_v1_apply, val_main_v0_apply, val_main_call0_v2_apply]
  have e : idx_main_call0_v2 (idx_main_v1 (ix2 r k)) = ix1 r := by
    funext d; match d with | ⟨0, _⟩ => rfl
  rw [e, sumsq_apply a x hx r, Ideal.hostUnary_sqrt_def, Ideal.sqrt_coe, if_neg (not_lt.mpr hpos.le)]

/-- Row r divided by its length. -/
theorem unit_apply (r : Fin 4096) (hpos : 0 < ∑ k, a r k * a r k) (k : Fin 128) :
    val_main_v2 (F := Ideal) x (ix2 r k) = ((a r k / Real.sqrt (∑ k, a r k * a r k) : ℝ) : EReal) := by
  rw [val_main_v2_apply, length_apply a x hx r hpos k, hx, Ideal.hostDivf_def,
    Ideal.div_coe (Real.sqrt_pos.mpr hpos).ne', ← EReal.coe_mul, mul_one_div]

omit hx in
/-- The second argument goes through the same operations as the first. -/
theorem v5_eq_v2 : val_main_v5 (F := Ideal) x = val_main_v2 (F := Ideal) x := rfl

end Norm

/-! ## The stacked array of unit rows, the inner products and the exponentials -/

section Main
variable (r0 r1 : Fin 4096 → Fin 128 → ℝ) (lab : Fin 8192 → BitVec 32)
  (x0 x1 : (⟨S4096x128, .f32⟩ : BufTy).Contents (Elt Ideal)) (x2 : (⟨S8192, .i32⟩ : BufTy).Contents (Elt Ideal))
  (h0 : ∀ (r : Fin 4096) (k : Fin 128), x0 (ix2 r k) = ((r0 r k : ℝ) : EReal))
  (h1 : ∀ (r : Fin 4096) (k : Fin 128), x1 (ix2 r k) = ((r1 r k : ℝ) : EReal))
  (h2 : ∀ r : Fin 8192, x2 (ix1 r) = lab r)
  (hpos : ∀ r, 0 < ContrastiveSpec.sq (ContrastiveSpec.stack r0 r1) r)
  (hlab : ∀ i : Fin 8192, ∃ j, j ≠ i ∧ lab j = lab i)

local notation "A" => ContrastiveSpec.stack r0 r1

include h0 h1 hpos in
/-- Row i of the stacked array, divided by its length: rows below 4096 from the first argument, the others
    from the second. -/
theorem v6_apply (i : Fin 8192) (k : Fin 128) :
    val_main_v6 (F := Ideal) x0 x1 (ix2 i k) = ((ContrastiveSpec.unit A i k : ℝ) : EReal) := by
  unfold val_main_v6
  by_cases h : i.val < 4096
  · have hs : A i = r0 ⟨i.val, h⟩ := by funext k; exact dif_pos h
    have hp : 0 < ∑ k, r0 ⟨i.val, h⟩ k * r0 ⟨i.val, h⟩ k := by
      have := hpos i; unfold ContrastiveSpec.sq at this; rwa [hs] at this
    rw [concatenate_pair_apply_left (t := S8192x128) (s₁ := S4096x128) (s₂ := S4096x128) 0 _ _ _ (ix2 i k) rfl
      (ix2 (⟨i.val, h⟩ : Fin 4096) k) (fun b => match b with | ⟨0, _⟩ => rfl | ⟨1, _⟩ => rfl)]
    rw [unit_apply r0 x0 h0 ⟨i.val, h⟩ hp k]
    unfold ContrastiveSpec.unit ContrastiveSpec.sq; rw [hs]
  · have hi := i.isLt
    have hlt : i.val - 4096 < 4096 := by omega
    have hs : A i = r1 ⟨i.val - 4096, hlt⟩ := by funext k; exact dif_neg h
    have hp : 0 < ∑ k, r1 ⟨i.val - 4096, hlt⟩ k * r1 ⟨i.val - 4096, hlt⟩ k := by
      have := hpos i; unfold ContrastiveSpec.sq at this; rwa [hs] at this
    have ha : i.val - 4096 + 4096 = i.val := by omega
    rw [concatenate_pair_apply_right (t := S8192x128) (s₁ := S4096x128) (s₂ := S4096x128) 0 _ _ _ (ix2 i k) rfl rfl
      (ix2 (⟨i.val - 4096, hlt⟩ : Fin 4096) k)
      (fun b hb => by
        have hb2 : b.val < 2 := b.isLt
        have hb0 : b.val ≠ 0 := fun e => hb (Fin.ext e)
        have hb1 : b = ⟨1, Nat.one_lt_two⟩ := Fin.ext (by show b.val = 1; omega)
        subst hb1; rfl)
      ha]
    rw [v5_eq_v2, unit_apply r1 x1 h1 ⟨i.val - 4096, hlt⟩ hp k]
    unfold ContrastiveSpec.unit ContrastiveSpec.sq; rw [hs]

include h0 h1 hpos in
/-- The inner product of the unit rows i and j. -/
theorem v8_apply (i j : Fin 8192) :
    val_main_v8 (F := Ideal) x0 x1 (ix2 i j) = ((ContrastiveSpec.sim A i j : ℝ) : EReal) := by
  rw [val_main_v8_apply]
  unfold ContrastiveSpec.sim
  rw [UnitRowExp.coe_sum]
  refine Finset.sum_congr rfl fun k _ => ?_
  have el : lidx_main_v8 (ix2 i j) k = ix2 i k := by
    funext d; match d with | ⟨0, _⟩ => rfl | ⟨1, _⟩ => rfl
  have er : idx_main_v7 (ridx_main_v8 (ix2 i j) k) = ix2 j k := by
    funext d; match d with | ⟨0, _⟩ => rfl | ⟨1, _⟩ => rfl
  rw [val_main_v7_apply, el, er, v6_apply r0 r1 x0 x1 h0 h1 hpos, v6_apply r0 r1 x0 x1 h0 h1 hpos, EReal.coe_mul]

include h0 h1 hpos in
/-- The exponential of the inner product divided by one half. -/
theorem v27_apply (i j : Fin 8192) :
    val_main_v27 (F := Ideal) x0 x1 (ix2 i j) = ((ContrastiveSpec.E A i j : ℝ) : EReal) := by
  rw [val_main_v27_apply, val_main_v26_apply, v8_apply r0 r1 x0 x1 h0 h1 hpos, val_main_v25_apply, val_main_cst_apply,
    Ideal.ofBits_def, ofBits_half, Ideal.hostDivf_def, Ideal.div_coe (by norm_num), ← EReal.coe_mul,
    Ideal.hostUnary_exp_def, Ideal.exp_coe]
  unfold ContrastiveSpec.E
  congr 2
  ring

/-! ## The masks -/

/-- An equality test of two words is one at equal words and zero otherwise. -/
theorem cmpi_eq_ite {w : Nat} (x y : BitVec w) : IntOp.cmpi .eq x y = if x = y then 1#1 else 0#1 := by
  unfold IntOp.cmpi
  by_cases h : x = y
  · simp [h]
  · have hb : (x == y) = false := beq_eq_false_iff_ne.mpr h
    simp [h, hb]

/-- Two row numbers below 8192 have the same 32-bit word only if they are equal. -/
theorem ofNat_inj_8192 (i j : Fin 8192) (h : BitVec.ofNat 32 i.val = BitVec.ofNat 32 j.val) : i = j := by
  have h' := congrArg BitVec.toNat h
  simp only [BitVec.toNat_ofNat] at h'
  have hi := i.isLt; have hj := j.isLt
  exact Fin.ext (by omega)

/-- The conjunction of a bit with the complement of another, read as a real number. -/
theorem and_not_real (p q r : Prop) [Decidable p] [Decidable q] [Decidable r] (hr : r ↔ p ∧ ¬ q) :
    ((((IntOp.andi (if p then 1#1 else 0#1) (if q then 0#1 else 1#1)).toNat : ℝ)) : EReal)
      = (((if r then 1 else 0 : ℝ)) : EReal) := by
  by_cases hp : p <;> by_cases hq : q
  · rw [if_pos hp, if_pos hq, if_neg (fun h => (hr.mp h).2 hq)]; simp [IntOp.andi]
  · rw [if_pos hp, if_neg hq, if_pos (hr.mpr ⟨hp, hq⟩)]; simp [IntOp.andi]
  · rw [if_neg hp, if_pos hq, if_neg (fun h => hp (hr.mp h).1)]; simp [IntOp.andi]
  · rw [if_neg hp, if_neg hq, if_neg (fun h => hp (hr.mp h).1)]; simp [IntOp.andi]

/-- The conjunction of the complements of two bits, read as a real number. -/
theorem not_and_not_real (p q r : Prop) [Decidable p] [Decidable q] [Decidable r] (hr : r ↔ ¬ p ∧ ¬ q) :
    ((((IntOp.andi (~~~(if p then 1#1 else 0#1)) (if q then 0#1 else 1#1)).toNat : ℝ)) : EReal)
      = (((if r then 1 else 0 : ℝ)) : EReal) := by
  by_cases hp : p <;> by_cases hq : q
  · rw [if_pos hp, if_pos hq, if_neg (fun h => (hr.mp h).2 hq)]; simp [IntOp.andi]
  · rw [if_pos hp, if_neg hq, if_neg (fun h => (hr.mp h).1 hp)]; simp [IntOp.andi]
  · rw [if_neg hp, if_pos hq, if_neg (fun h => (hr.mp h).2 hq)]; simp [IntOp.andi]
  · rw [if_neg hp, if_neg hq, if_pos (hr.mpr ⟨hp, hq⟩)]; simp [IntOp.andi]

/-- The mask of the other columns: zero on the diagonal, one off it. -/
theorem v14_apply (i j : Fin 8192) :
    val_main_v14 (F := Ideal) (ix2 i j) = ~~~(if j = i then 1#1 else 0#1) := by
  rw [val_main_v14_apply, val_main_v13_apply, val_main_v12_apply, val_main_v9_apply, val_main_v11_apply,
    val_main_c_apply, val_main_v10_apply, cmpi_eq_ite]
  show ~~~(if IntOp.addi (BitVec.ofNat 32 i.val) 0#32 = BitVec.ofNat 32 j.val then 1#1 else 0#1) = _
  have e : IntOp.addi (BitVec.ofNat 32 i.val) 0#32 = BitVec.ofNat 32 i.val := by
    unfold IntOp.addi; exact BitVec.add_zero _
  rw [e]
  by_cases hji : j = i
  · subst hji; rw [if_pos rfl, if_pos rfl]
  · rw [if_neg (fun hw => hji (ofNat_inj_8192 _ _ hw).symm), if_neg hji]

/-- The same mask with its two values spelt. -/
theorem v14_apply' (i j : Fin 8192) :
    val_main_v14 (F := Ideal) (ix2 i j) = if j = i then 0#1 else 1#1 := by
  rw [v14_apply]
  by_cases hji : j = i
  · rw [if_pos hji, if_pos hji]; rfl
  · rw [if_neg hji, if_neg hji]; rfl

include h2 in
/-- The test that rows i and j carry the same label. -/
theorem v19_apply (i j : Fin 8192) :
    val_main_v19 (F := Ideal) x2 (ix2 i j) = if lab j = lab i then 1#1 else 0#1 := by
  rw [val_main_v19_apply, val_main_v17_apply, val_main_v15_apply, val_main_v18_apply, val_main_v16_apply, cmpi_eq_ite]
  have ei : idx_main_v15 (idx_main_v17 (ix2 i j)) = ix1 i := by
    funext d; match d with | ⟨0, _⟩ => rfl
  have ej : idx_main_v16 (idx_main_v18 (ix2 i j)) = ix1 j := by
    funext d; match d with | ⟨0, _⟩ => rfl
  rw [ei, ej, h2, h2]
  exact if_congr eq_comm rfl rfl

include h2 in
/-- The mask of the other columns with row i's label, as a real number. -/
theorem v21_apply (i j : Fin 8192) :
    val_main_v21 (F := Ideal) x2 (ix2 i j) = (((if lab j = lab i ∧ j ≠ i then 1 else 0 : ℝ)) : EReal) := by
  rw [val_main_v21_apply, val_main_v20_apply, v19_apply lab x2 h2, v14_apply']
  exact and_not_real _ _ _ Iff.rfl

include h2 in
/-- The mask of the other columns with another label, as a real number. -/
theorem v24_apply (i j : Fin 8192) :
    val_main_v24 (F := Ideal) x2 (ix2 i j) = (((if ¬ lab j = lab i ∧ j ≠ i then 1 else 0 : ℝ)) : EReal) := by
  rw [val_main_v24_apply, val_main_v23_apply, val_main_v22_apply, v19_apply lab x2 h2, v14_apply']
  exact not_and_not_real _ _ _ Iff.rfl

/-! ## The two row sums, the logarithm of their quotient, and the mean -/

include h0 h1 h2 hpos in
/-- The exponential where the column is another one with row i's label, zero elsewhere. -/
theorem v28_apply (i j : Fin 8192) :
    val_main_v28 (F := Ideal) x0 x1 x2 (ix2 i j)
      = (((if lab j = lab i ∧ j ≠ i then ContrastiveSpec.E A i j else 0 : ℝ)) : EReal) := by
  rw [val_main_v28_apply, v21_apply lab x2 h2, v27_apply r0 r1 x0 x1 h0 h1 hpos, Ideal.mulf_def, ← EReal.coe_mul,
    ite_mul, one_mul, zero_mul]

include h0 h1 h2 hpos in
/-- The exponential where the column is another one, zero on the diagonal. -/
theorem v30_apply (i j : Fin 8192) :
    val_main_v30 (F := Ideal) x0 x1 x2 (ix2 i j) = (((if j ≠ i then ContrastiveSpec.E A i j else 0 : ℝ)) : EReal) := by
  rw [val_main_v30_apply, val_main_v29_apply, v24_apply lab x2 h2, v27_apply r0 r1 x0 x1 h0 h1 hpos,
    v28_apply r0 r1 lab x0 x1 x2 h0 h1 h2 hpos, Ideal.addf_def, Ideal.mulf_def, ← EReal.coe_mul, ← EReal.coe_add,
    ite_mul, one_mul, zero_mul]
  congr 1
  by_cases hl : lab j = lab i <;> by_cases hji : j = i <;> simp [hl, hji]

include h0 h1 h2 hpos in
/-- Row i's sum over the other columns. -/
theorem v31_apply (i : Fin 8192) :
    val_main_v31 (F := Ideal) x0 x1 x2 (ix1 i) = ((ContrastiveSpec.den A i : ℝ) : EReal) := by
  rw [val_main_v31_apply, val_main_cst_0_apply, Ideal.ofBits_def, Ideal.ofBits_zero_f32, zero_add]
  unfold ContrastiveSpec.den
  rw [UnitRowExp.coe_sum]
  refine Finset.sum_congr rfl fun j _ => ?_
  have e : idx_main_v31 (ix1 i) j = ix2 i j := by
    funext d; match d with | ⟨0, _⟩ => rfl | ⟨1, _⟩ => rfl
  rw [e, v30_apply r0 r1 lab x0 x1 x2 h0 h1 h2 hpos]

include h0 h1 h2 hpos in
/-- Row i's sum over the other columns with its label. -/
theorem v32_apply (i : Fin 8192) :
    val_main_v32 (F := Ideal) x0 x1 x2 (ix1 i) = ((ContrastiveSpec.num A lab i : ℝ) : EReal) := by
  rw [val_main_v32_apply, val_main_cst_1_apply, Ideal.ofBits_def, Ideal.ofBits_zero_f32, zero_add]
  unfold ContrastiveSpec.num
  rw [UnitRowExp.coe_sum]
  refine Finset.sum_congr rfl fun j _ => ?_
  have e : idx_main_v32 (ix1 i) j = ix2 i j := by
    funext d; match d with | ⟨0, _⟩ => rfl | ⟨1, _⟩ => rfl
  rw [e, v28_apply r0 r1 lab x0 x1 x2 h0 h1 h2 hpos]

/-- A row with another row has a positive sum over the other columns. -/
theorem den_pos (a : Fin 8192 → Fin 128 → ℝ) (i : Fin 8192) (hj : ∃ j, j ≠ i) : 0 < ContrastiveSpec.den a i := by
  obtain ⟨j, hji⟩ := hj
  have hle : (if j ≠ i then ContrastiveSpec.E a i j else 0) ≤ ContrastiveSpec.den a i :=
    Finset.single_le_sum (f := fun j => if j ≠ i then ContrastiveSpec.E a i j else 0)
      (fun j _ => by by_cases h : j = i <;> simp [h, (ContrastiveSpec.E_pos a i j).le]) (Finset.mem_univ j)
  rw [if_pos hji] at hle
  exact lt_of_lt_of_le (ContrastiveSpec.E_pos a i j) hle

include h0 h1 h2 hpos hlab in
/-- The logarithm of the quotient of row i's two sums. -/
theorem v34_apply (i : Fin 8192) :
    val_main_v34 (F := Ideal) x0 x1 x2 (ix1 i)
      = ((Real.log (ContrastiveSpec.den A i / ContrastiveSpec.num A lab i) : ℝ) : EReal) := by
  have hn : 0 < ContrastiveSpec.num A lab i := ContrastiveSpec.num_pos hpos i (hlab i)
  have hd : 0 < ContrastiveSpec.den A i := den_pos A i (let ⟨j, hj, _⟩ := hlab i; ⟨j, hj⟩)
  rw [val_main_v34_apply, val_main_v33_apply, v31_apply r0 r1 lab x0 x1 x2 h0 h1 h2 hpos,
    v32_apply r0 r1 lab x0 x1 x2 h0 h1 h2 hpos, Ideal.hostDivf_def, Ideal.div_coe hn.ne', ← EReal.coe_mul, mul_one_div,
    Ideal.hostUnary_log_def, Ideal.log_coe, if_neg (not_le.mpr (div_pos hd hn))]

/-- A one-axis index set is its coordinate's range. -/
def idxEquiv1 {n : Nat} : (⟨1, ![n]⟩ : Shape).Idx ≃ Fin n where
  toFun i := i 0
  invFun r := ix1 r
  left_inv i := (eq_ix1 i).symm
  right_inv _ := rfl

include h0 h1 h2 hpos hlab in
/-- The reference program's result is the loss. -/
theorem v36_eq :
    val_main_v36 (F := Ideal) x0 x1 x2 = fun _ => (((ContrastiveSpec.loss A lab : ℝ)) : EReal) := by
  funext i0
  rw [val_main_v36_apply, val_main_v35_apply, val_main_cst_2_apply, Ideal.ofBits_def, Ideal.ofBits_zero_f32, zero_add,
    val_main_cst_3_apply, Ideal.ofBits_def, ofBits_16384, Ideal.hostDivf_def, Ideal.div_coe (by norm_num)]
  rw [← Equiv.sum_comp (idxEquiv1 (n := 8192)).symm]
  have hs : ∀ i : Fin 8192, val_main_v34 (F := Ideal) x0 x1 x2 ((idxEquiv1 (n := 8192)).symm i)
      = ((Real.log (ContrastiveSpec.den A i / ContrastiveSpec.num A lab i) : ℝ) : EReal) :=
    fun i => v34_apply r0 r1 lab x0 x1 x2 h0 h1 h2 hpos hlab i
  rw [Finset.sum_congr rfl (fun i _ => hs i), ← UnitRowExp.coe_sum, ← EReal.coe_mul, mul_one_div]
  rfl

end Main

/-- The reference program computes the loss of the stacked arrays. -/
theorem ref_eq (r0 r1 : Fin 4096 → Fin 128 → ℝ) (lab : Fin 8192 → BitVec 32)
    (x0 x1 : (⟨Cert.ReferenceIdeal.S4096x128, .f32⟩ : BufTy).Contents (Elt Ideal))
    (x2 : (⟨Cert.ReferenceIdeal.S8192, .i32⟩ : BufTy).Contents (Elt Ideal))
    (h0 : ∀ (r : Fin 4096) (k : Fin 128), x0 (ix2 r k) = ((r0 r k : ℝ) : EReal))
    (h1 : ∀ (r : Fin 4096) (k : Fin 128), x1 (ix2 r k) = ((r1 r k : ℝ) : EReal))
    (h2 : ∀ r : Fin 8192, x2 (ix1 r) = lab r)
    (hpos : ∀ r, 0 < ContrastiveSpec.sq (ContrastiveSpec.stack r0 r1) r)
    (hlab : ∀ i : Fin 8192, ∃ j, j ≠ i ∧ lab j = lab i) :
    Cert.ReferenceIdeal.Read.val_main_v36 (F := Ideal) x0 x1 x2
      = fun _ => (((ContrastiveSpec.loss (ContrastiveSpec.stack r0 r1) lab : ℝ)) : EReal) :=
  v36_eq r0 r1 lab x0 x1 x2 h0 h1 h2 hpos hlab

end RefValue

end
-- ==== Proof.IdealHost.lean ====
/-
  What the host lines around the kernel region compute, at the ideal values.

  Before the region: each argument's rows divided by their Euclidean lengths, the two results stacked, and the
  labels laid out once as a column and once as a row. After it: the sum of the region's result array divided by
  16384.
-/
import proofs.«161181_j22351009808686_2_alg».proof.Proof.IdealHostArgs
import proofs.«161181_j22351009808686_2_alg».proof.Proof.RefValue
import Idealize.ShloMosaic.Lib.ValueIdx
import Idealize.ShloMosaic.PureOps.Ideal.Laws
import Idealize.ShloMosaic.Lib.StableHlo.Run

set_option maxRecDepth 16384

noncomputable section

namespace Cert.KernelIdeal.Host

open Cert.KernelIdeal Cert.KernelIdeal.Gen Cert.KernelIdeal.Launch
open Idealize.ShloMosaic Idealize.ShloMosaic.TcCoe
open Idealize.SL.Sem
open Idealize.ShloMosaic.Pipeline (Dat Cfg)

/-! ## After the region: the sum of the region's result array, divided by 16384 -/

section Tail

open Idealize.ShloMosaic.ValueIdx in
/-- The sum of a one-column array over both its axes, divided by the literal 16384. -/
theorem tail_value (y : (⟨S8192x1, .f32⟩ : BufTy).Contents (Elt Ideal)) (out : Fin 8192 → ℝ)
    (hy : ∀ r : Fin 8192, y (ix2 r (0 : Fin 1)) = ((out r : ℝ) : EReal)) :
    Host.divf (F := Ideal) (Host.reduceAdd (F := Ideal) y (constant S_ .f32 0x00000000#32) reducesTo_S8192x1_S_d0_1 h_S_)
        (constant S_ .f32 0x46800000#32)
      = fun _ => (((∑ r, out r) / 16384 : ℝ) : EReal) := by
  funext i0
  show Ideal.div (Ideal.hostReduceAdd reducesTo_S8192x1_S_d0_1 y (Ideal.ofBits .f32 0x00000000#32) i0)
    (Ideal.ofBits .f32 0x46800000#32) = _
  rw [Ideal.hostReduceAdd_total reducesTo_S8192x1_S_d0_1 (fun b => b.elim0), Ideal.ofBits_zero_f32, zero_add,
    RefValue.ofBits_16384, Ideal.div_coe (by norm_num)]
  have hs : (∑ i : S8192x1.Idx, y i) = ((∑ r, out r : ℝ) : EReal) := by
    rw [UnitRowExp.coe_sum]
    show (∑ i : (⟨2, ![8192, 1]⟩ : Shape).Idx, y i) = _
    rw [sum_idx2]
    refine Finset.sum_congr rfl fun r _ => ?_
    rw [Fin.sum_univ_one]
    exact hy r
  rw [hs, ← EReal.coe_mul, mul_one_div]

variable (m : (ℓ : Loc nD τ sig) → Buf (Elt Ideal) ℓ) (ρ : Dev nD → PrngReg)
variable (dat : (c : Dev nD) → Dat τ (Elt Ideal) Unit ℕ (UR sig nD τ) ℕ cfg0 c)

open Idealize.ShloMosaic.ValueIdx in
/-- The last buffer the program writes holds the sum of the region's result array divided by 16384. -/
theorem result_eq (c : Dev nD) (out : Fin 8192 → ℝ)
    (hres : ∀ r : Fin 8192, (dat c).arrAt 4 cfg0.N (ix2 r (0 : Fin 1)) = ((out r : ℝ) : EReal)) :
    W3 m ρ dat c (Proc.devRef .tc main_v11) = fun _ => (((∑ r, out r) / 16384 : ℝ) : EReal) := by
  have e : (W3 m ρ dat c (Proc.devRef .tc main_v11) : (⟨S_, .f32⟩ : BufTy).Contents (Elt Ideal))
      = Host.divf (F := Ideal) (Host.reduceAdd (F := Ideal)
          (W2 m ρ dat c (Proc.devRef .tc main_v9) : (⟨S8192x1, .f32⟩ : BufTy).Contents (Elt Ideal))
          (constant S_ .f32 0x00000000#32) reducesTo_S8192x1_S_d0_1 h_S_) (constant S_ .f32 0x46800000#32) := by
    show StableHlo.after hostOps1 (W2 m ρ dat c) (Proc.devRef .tc main_v11) = _
    after_results
  rw [e, W2_result]
  exact tail_value _ out hres

end Tail

/-! ## Where the region is entered: the stacked unit rows, the labels as a column and as a row -/

section Entry
variable (m : (ℓ : Loc nD τ sig) → Buf (Elt Ideal) ℓ) (ρ : Dev nD → PrngReg) (c : Dev nD)

open Idealize.ShloMosaic.ValueIdx

set_option quotPrecheck false in
local notation "X0" => (m ((c : Thread nD τ).loc main_arg0) : (⟨S4096x128, .f32⟩ : BufTy).Contents (Elt Ideal))
set_option quotPrecheck false in
local notation "X1" => (m ((c : Thread nD τ).loc main_arg1) : (⟨S4096x128, .f32⟩ : BufTy).Contents (Elt Ideal))
set_option quotPrecheck false in
local notation "X2" => (m ((c : Thread nD τ).loc main_arg2) : (⟨S8192, .i32⟩ : BufTy).Contents (Elt Ideal))

/-- The stacked array at the region's entry is the one the reference program forms from the same arguments. -/
theorem W1_v6 : (W1 m ρ c (Proc.devRef .tc main_v6) : (⟨S8192x128, .f32⟩ : BufTy).Contents (Elt Ideal))
    = Cert.ReferenceIdeal.Read.val_main_v6 (F := Ideal) X0 X1 := by
  show StableHlo.after hostOps0_3 (StableHlo.after hostOps0_2 (StableHlo.after hostOps0_1
    (StableHlo.after hostOps0 (W0 m ρ c)))) (Proc.devRef .tc main_v6) = _
  after_results
  rfl

/-- The labels' column at the region's entry. -/
theorem W1_v7 : (W1 m ρ c (Proc.devRef .tc main_v7) : (⟨S8192x1, .i32⟩ : BufTy).Contents (Elt Ideal))
    = Cert.ReferenceIdeal.Read.val_main_v15 (F := Ideal) X2 := by
  show StableHlo.after hostOps0_3 (StableHlo.after hostOps0_2 (StableHlo.after hostOps0_1
    (StableHlo.after hostOps0 (W0 m ρ c)))) (Proc.devRef .tc main_v7) = _
  after_results
  rfl

/-- The labels' row at the region's entry. -/
theorem W1_v8 : (W1 m ρ c (Proc.devRef .tc main_v8) : (⟨S1x8192, .i32⟩ : BufTy).Contents (Elt Ideal))
    = Cert.ReferenceIdeal.Read.val_main_v16 (F := Ideal) X2 := by
  show StableHlo.after hostOps0_3 (StableHlo.after hostOps0_2 (StableHlo.after hostOps0_1
    (StableHlo.after hostOps0 (W0 m ρ c)))) (Proc.devRef .tc main_v8) = _
  after_results
  rfl

/-- Row r of the stacked array at the region's entry is row r of the two arguments' stack divided by its length. -/
theorem entry_rows (r0 r1 : Fin 4096 → Fin 128 → ℝ)
    (h0 : ∀ (r : Fin 4096) (k : Fin 128), X0 (ix2 r k) = ((r0 r k : ℝ) : EReal))
    (h1 : ∀ (r : Fin 4096) (k : Fin 128), X1 (ix2 r k) = ((r1 r k : ℝ) : EReal))
    (hpos : ∀ r, 0 < ContrastiveSpec.sq (ContrastiveSpec.stack r0 r1) r) (r : Fin 8192) (k : Fin 128) :
    (W1 m ρ c (Proc.devRef .tc main_v6) : (⟨S8192x128, .f32⟩ : BufTy).Contents (Elt Ideal)) (ix2 r k)
      = ((ContrastiveSpec.unit (ContrastiveSpec.stack r0 r1) r k : ℝ) : EReal) := by
  rw [W1_v6]
  exact RefValue.v6_apply r0 r1 X0 X1 h0 h1 hpos r k

/-- The labels' column holds row r's label at row r. -/
theorem entry_col (r : Fin 8192) :
    (W1 m ρ c (Proc.devRef .tc main_v7) : (⟨S8192x1, .i32⟩ : BufTy).Contents (Elt Ideal)) (ix2 r (0 : Fin 1))
      = X2 (ix1 r) := by
  rw [W1_v7, Cert.ReferenceIdeal.Read.val_main_v15_apply]
  exact congrArg X2 (funext fun d => match d with | ⟨0, _⟩ => rfl)

/-- The labels' row holds column r's label at column r. -/
theorem entry_row (r : Fin 8192) :
    (W1 m ρ c (Proc.devRef .tc main_v8) : (⟨S1x8192, .i32⟩ : BufTy).Contents (Elt Ideal)) (ix2 (0 : Fin 1) r)
      = X2 (ix1 r) := by
  rw [W1_v8, Cert.ReferenceIdeal.Read.val_main_v16_apply]
  exact congrArg X2 (funext fun d => match d with | ⟨0, _⟩ => rfl)

end Entry

end Cert.KernelIdeal.Host

end
-- ==== Proof.TileMath.lean ====
/-
  The arithmetic of the kernel body on one tile of 1024 rows by 1024 columns, read at the extended
  reals, as formulas over real arrays.

  For a tile of query rows q and key rows kk (each row a vector of 128 reals) the body forms
  tileE q kk r c = exp (2 · ⟨q r, kk c⟩).  Its row accumulators add, to what they hold, the sum of a
  row of the tile (the denominator) and the sum of the row's entries whose column label equals the
  row label (the numerator).  On a diagonal tile the row's own entry, picked out by comparing the row
  number with the column number, is subtracted from both.  At the end each row's result is
  log (denominator / max (numerator, 10⁻¹²)), and the lower clamp never acts on a numerator above it.
-/
import proofs.«161181_j22351009808686_2_alg».proof.Proof.Gen.KernelIdeal.Skeleton
import proofs.«161181_j22351009808686_2_alg».proof.Proof.LibUnitRowExp
import Idealize.ShloMosaic.Lib.ValueIdx
import Idealize.ShloMosaic.Lib.Pipeline.Value
import Idealize.ShloMosaic.Lib.ValueLayout
import Idealize.ShloMosaic.PureOps.Ideal.Laws

noncomputable section

open Finset BigOperators
open Idealize.ShloMosaic Idealize.SL.Sem Idealize.ShloMosaic.ValueIdx
open Cert.KernelIdeal

namespace TileMath

/-! ## Stores that copy, and the zero columns -/

/-- A cast to the same shape stores what it is given. -/
theorem pay1_eq (v33 : FVec Ideal S1024x1 .f32) : Gen.k0_pay1 (F := Ideal) v33 = v33 := by
  unfold Gen.k0_pay1
  exact shapeCast_self _ _

/-- The column of zeros a row accumulator starts from. -/
theorem pay6_apply (r : Fin 1024) : Gen.k0_pay6 (F := Ideal) (ix2 r (0 : Fin 1)) = ((0 : ℝ) : EReal) := by
  unfold Gen.k0_pay6
  rw [shapeCast_self]
  show Ideal.ofBits .f32 0x00000000#32 = _
  rw [Ideal.ofBits_zero_f32, EReal.coe_zero]

/-- The other accumulator's column of zeros. -/
theorem pay7_apply (r : Fin 1024) : Gen.k0_pay7 (F := Ideal) (ix2 r (0 : Fin 1)) = ((0 : ℝ) : EReal) := by
  unfold Gen.k0_pay7
  rw [shapeCast_self]
  show Ideal.ofBits .f32 0x00000000#32 = _
  rw [Ideal.ofBits_zero_f32, EReal.coe_zero]

/-! ## The tile: exponentials of twice the inner products -/

/-- The entry of the tile at row r and column c: the exponential of twice the inner product of query row r
    and key row c. -/
def tileE (q kk : Fin 1024 → Fin 128 → ℝ) (r c : Fin 1024) : ℝ := Real.exp (2 * ∑ k, q r k * kk c k)

/-- The left operand's row coordinate is the output's row. -/
theorem dot_lhs_0 (i : S1024x1024.Idx) (p : dot_S1024x128_S128x1024_S1024x1024_1_0_0_1_n_n.contr.Idx) :
    (dot_S1024x128_S128x1024_S1024x1024_1_0_0_1_n_n.lhsIdx i p 0).val = (i 0).val := by
  unfold DotDims.lhsIdx
  rw [dif_neg (show ¬(0 : Fin S1024x128.rank) ∈ dot_S1024x128_S128x1024_S1024x1024_1_0_0_1_n_n.lhsBatch by decide),
    dif_pos (show (0 : Fin S1024x128.rank) ∈ dot_S1024x128_S128x1024_S1024x1024_1_0_0_1_n_n.lhsNonContracting by decide)]
  rfl

/-- The left operand's column coordinate is the contraction coordinate. -/
theorem dot_lhs_1 (i : S1024x1024.Idx) (p : dot_S1024x128_S128x1024_S1024x1024_1_0_0_1_n_n.contr.Idx) :
    (dot_S1024x128_S128x1024_S1024x1024_1_0_0_1_n_n.lhsIdx i p 1).val = (p ⟨0, by decide⟩).val :=
  dot_S1024x128_S128x1024_S1024x1024_1_0_0_1_n_n.lhsIdx_val_of_single rfl i p

/-- The right operand's row coordinate is the contraction coordinate. -/
theorem dot_rhs_0 (i : S1024x1024.Idx) (p : dot_S1024x128_S128x1024_S1024x1024_1_0_0_1_n_n.contr.Idx) :
    (dot_S1024x128_S128x1024_S1024x1024_1_0_0_1_n_n.rhsIdx i p 0).val = (p ⟨0, by decide⟩).val :=
  dot_S1024x128_S128x1024_S1024x1024_1_0_0_1_n_n.rhsIdx_val_of_single rfl i p

/-- The right operand's column coordinate is the output's column. -/
theorem dot_rhs_1 (i : S1024x1024.Idx) (p : dot_S1024x128_S128x1024_S1024x1024_1_0_0_1_n_n.contr.Idx) :
    (dot_S1024x128_S128x1024_S1024x1024_1_0_0_1_n_n.rhsIdx i p 1).val = (i 1).val := by
  unfold DotDims.rhsIdx
  rw [dif_neg (show ¬(1 : Fin S128x1024.rank) ∈ dot_S1024x128_S128x1024_S1024x1024_1_0_0_1_n_n.rhsBatch by decide),
    dif_pos (show (1 : Fin S128x1024.rank) ∈ dot_S1024x128_S128x1024_S1024x1024_1_0_0_1_n_n.rhsNonContracting by decide)]
  rfl

/-- The matrix product into a zero accumulator, at (r, c): the sum over k of the products of the operands'
    entries (r, k) and (k, c). -/
theorem matmul_tile_apply (x : FVec Ideal S1024x128 .bf16) (y : FVec Ideal S128x1024 .bf16) (r c : Fin 1024) :
    FloatOps.matmul (F := Ideal) dot_S1024x128_S128x1024_S1024x1024_1_0_0_1_n_n none x y
        (constant (F := Ideal) S1024x1024 .f32 0x00000000#32) (ix2 r c)
      = ∑ k : Fin 128, x (ix2 r k) * y (ix2 k c) := by
  rw [Ideal.matmul_constant_zero_apply,
    ← Equiv.sum_comp (ValueIdx.contrEquiv1 dot_S1024x128_S128x1024_S1024x1024_1_0_0_1_n_n 128 rfl rfl).symm]
  refine Finset.sum_congr rfl fun k _ => ?_
  have hk := ValueIdx.contrEquiv1_symm_val dot_S1024x128_S128x1024_S1024x1024_1_0_0_1_n_n 128 rfl rfl k
  have el : dot_S1024x128_S128x1024_S1024x1024_1_0_0_1_n_n.lhsIdx (ix2 r c)
      ((ValueIdx.contrEquiv1 dot_S1024x128_S128x1024_S1024x1024_1_0_0_1_n_n 128 rfl rfl).symm k) = ix2 r k :=
    funext fun a => Fin.ext (by
      match a with
      | ⟨0, _⟩ => exact dot_lhs_0 _ _
      | ⟨1, _⟩ => exact (dot_lhs_1 _ _).trans hk)
  have er : dot_S1024x128_S128x1024_S1024x1024_1_0_0_1_n_n.rhsIdx (ix2 r c)
      ((ValueIdx.contrEquiv1 dot_S1024x128_S128x1024_S1024x1024_1_0_0_1_n_n 128 rfl rfl).symm k) = ix2 k c :=
    funext fun a => Fin.ext (by
      match a with
      | ⟨0, _⟩ => exact (dot_rhs_0 _ _).trans hk
      | ⟨1, _⟩ => exact dot_rhs_1 _ _)
  rw [el, er]

/-- The word 0x40000000 read as a 32-bit float is the number two. -/
theorem ofBits_two : Ideal.ofBits .f32 0x40000000#32 = ((2 : ℝ) : EReal) := by
  simp [Ideal.ofBits, Ideal.ieee, -EReal.coe_mul]; norm_num

/-- The tile the body computes from a block of query rows and a block of key rows. -/
theorem pay8_apply (v3 v6 : Vec Ideal S1024x128 .f32) (q kk : Fin 1024 → Fin 128 → ℝ)
    (hq : ∀ r k, v3 (ix2 r k) = ((q r k : ℝ) : EReal)) (hk : ∀ c k, v6 (ix2 c k) = ((kk c k : ℝ) : EReal))
    (r c : Fin 1024) :
    Gen.k0_pay8 (F := Ideal) v3 v6 (ix2 r c) = ((tileE q kk r c : ℝ) : EReal) := by
  unfold Gen.k0_pay8
  rw [shapeCast_self, shapeCast_self]
  show Ideal.exp (FloatOps.matmul (F := Ideal) dot_S1024x128_S128x1024_S1024x1024_1_0_0_1_n_n none
      (truncf .bf16 v3 Gen.bitsLt_bf16_f32 : FVec Ideal S1024x128 .bf16)
      (transpose S128x1024 [1, 0] (truncf .bf16 v6 Gen.bitsLt_bf16_f32 : FVec Ideal S1024x128 .bf16)
        Gen.transposes_S1024x128_p1_0_S128x1024)
      (constant (F := Ideal) S1024x1024 .f32 0x00000000#32) (ix2 r c) * Ideal.ofBits .f32 0x40000000#32) = _
  rw [matmul_tile_apply, ofBits_two]
  have hs : ∀ k : Fin 128, (truncf .bf16 v3 Gen.bitsLt_bf16_f32 : FVec Ideal S1024x128 .bf16) (ix2 r k)
      * (transpose S128x1024 [1, 0] (truncf .bf16 v6 Gen.bitsLt_bf16_f32 : FVec Ideal S1024x128 .bf16)
          Gen.transposes_S1024x128_p1_0_S128x1024) (ix2 k c) = ((q r k * kk c k : ℝ) : EReal) := by
    intro k
    rw [transpose_ix2_apply, truncf_apply, truncf_apply, hq, hk, ← EReal.coe_mul]
  rw [Finset.sum_congr rfl fun k _ => hs k, ← UnitRowExp.coe_sum, ← EReal.coe_mul, Ideal.exp_coe, mul_comm]
  rfl

/-! ## Columns: a vector as a column, a column over many columns, a row's sum -/

/-- A vector of a entries cast to a column [a, 1] reads, at (i, u), its entry i. -/
theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column [a, 1] broadcast to [a, b] reads, at (p, c), the column's entry p. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The sum along the columns of a 1024 by 1024 array, kept as a column: at row r, the sum of row r. -/
theorem rowSum_apply (src : FVec Ideal S1024x1024 .f32) (hφ : FKind.Formats .f32)
    (hacc : (0x00000000#32 : BitVec 32) = 0x00000000#32) (r : Fin 1024) (u : Fin 1) :
    shapeCast S1024x1 (multiReduction (F := Ideal) .add [1] S1024 src 0x00000000#32 Gen.reduces_S1024x1024_S1024 hφ hacc)
        Gen.shapeCasts_S1024_S1024x1 (ix2 r u)
      = ∑ c : Fin 1024, src (ix2 r c) := by
  rw [shapeCast_a_a1_apply]
  refine (Ideal.multiReduction_add_single src 0x00000000#32 Gen.reduces_S1024x1024_S1024 hφ hacc (ix1 r)).trans ?_
  refine Finset.sum_congr rfl fun c _ => congrArg src ?_
  exact funext fun a => Fin.ext (by match a with | ⟨0, _⟩ => rfl | ⟨1, _⟩ => rfl)

/-! ## The two accumulations over a tile -/

/-- The denominator's accumulator after a tile: what it held plus the sum of the tile's row. -/
theorem pay10_apply (v3 v6 : Vec Ideal S1024x128 .f32) (v30 : Vec Ideal S1024x1 .f32)
    (q kk : Fin 1024 → Fin 128 → ℝ) (acc : Fin 1024 → ℝ)
    (hq : ∀ r k, v3 (ix2 r k) = ((q r k : ℝ) : EReal)) (hk : ∀ c k, v6 (ix2 c k) = ((kk c k : ℝ) : EReal))
    (hacc : ∀ r, v30 (ix2 r (0 : Fin 1)) = ((acc r : ℝ) : EReal)) (r : Fin 1024) :
    Gen.k0_pay10 (F := Ideal) v3 v6 v30 (ix2 r (0 : Fin 1)) = ((acc r + ∑ c, tileE q kk r c : ℝ) : EReal) := by
  unfold Gen.k0_pay10
  refine (addf_apply _ _ _).trans ?_
  refine (congrArg (fun t => v30 (ix2 r (0 : Fin 1)) + t) (rowSum_apply _ _ _ r 0)).trans ?_
  rw [hacc, Finset.sum_congr rfl fun c _ => pay8_apply v3 v6 q kk hq hk r c,
    ← UnitRowExp.coe_sum, ← EReal.coe_add]

/-- A select on the equality of two 32-bit words, at an index, is the choice by that equality. -/
theorem select_cmpi_eq_apply {s : Shape} (A B : IVec s 32) (P Z : s.Idx → EReal) (i : s.Idx) :
    select (cmpi .eq A B) P Z i = if A i = B i then P i else Z i := by
  show Scalar.select (IntOp.cmpi .eq (A i) (B i)) (P i) (Z i) = _
  unfold Scalar.select IntOp.cmpi
  by_cases h : A i = B i
  · simp [h]
  · have hb : (A i == B i) = false := beq_eq_false_iff_ne.2 h
    simp [hb, h]

/-- The numerator's accumulator after a tile: what it held plus the sum of the row's entries whose column
    carries the row's label. -/
theorem pay9_apply (v3 v6 : Vec Ideal S1024x128 .f32) (v14 : Vec Ideal S1024x1 .i32) (v16 : Vec Ideal S1x1024 .i32)
    (v23 : Vec Ideal S1024x1 .f32)
    (q kk : Fin 1024 → Fin 128 → ℝ) (ql kl : Fin 1024 → BitVec 32) (acc : Fin 1024 → ℝ)
    (hq : ∀ r k, v3 (ix2 r k) = ((q r k : ℝ) : EReal)) (hk : ∀ c k, v6 (ix2 c k) = ((kk c k : ℝ) : EReal))
    (hql : ∀ r, v14 (ix2 r (0 : Fin 1)) = ql r) (hkl : ∀ c, v16 (ix2 (0 : Fin 1) c) = kl c)
    (hacc : ∀ r, v23 (ix2 r (0 : Fin 1)) = ((acc r : ℝ) : EReal)) (r : Fin 1024) :
    Gen.k0_pay9 (F := Ideal) v3 v6 v14 v16 v23 (ix2 r (0 : Fin 1))
      = ((acc r + ∑ c, (if ql r = kl c then tileE q kk r c else 0) : ℝ) : EReal) := by
  unfold Gen.k0_pay9
  simp only [shapeCast_self]
  refine (addf_apply _ _ _).trans ?_
  refine (congrArg (fun t => v23 (ix2 r (0 : Fin 1)) + t) (rowSum_apply _ _ _ r 0)).trans ?_
  rw [hacc]
  have hs : ∀ c : Fin 1024,
      select (cmpi .eq (broadcastTo S1024x1024 (v14 : IVec S1024x1 32) Gen.broadcasts_S1024x1_S1024x1024)
          (broadcastTo S1024x1024 (v16 : IVec S1x1024 32) Gen.broadcasts_S1x1024_S1024x1024))
        (Gen.k0_pay8 (F := Ideal) v3 v6)
        (broadcast S1024x1024 (Scalar.ofBits (F := Ideal) .f32 0x00000000#32)) (ix2 r c)
      = (((if ql r = kl c then tileE q kk r c else 0) : ℝ) : EReal) := by
    intro c
    rw [select_cmpi_eq_apply, broadcastTo_a1_ab_apply, broadcastTo_1b_ab_apply, hql, hkl,
      pay8_apply v3 v6 q kk hq hk, broadcast_apply]
    show (if ql r = kl c then ((tileE q kk r c : ℝ) : EReal) else Ideal.ofBits .f32 0x00000000#32) = _
    rw [Ideal.ofBits_zero_f32]
    split
    · rfl
    · exact EReal.coe_zero.symm
  rw [Finset.sum_congr rfl fun c _ => hs c, ← UnitRowExp.coe_sum, ← EReal.coe_add]

/-! ## The diagonal of a tile -/

/-- Two row numbers below 1024, as 32-bit words, are equal exactly when the numbers are. -/
theorem ofNat_eq_iff (r c : Fin 1024) : BitVec.ofNat 32 r.val = BitVec.ofNat 32 c.val ↔ r = c := by
  constructor
  · intro h
    have h' := congrArg BitVec.toNat h
    rw [BitVec.toNat_ofNat, BitVec.toNat_ofNat,
      Nat.mod_eq_of_lt (Nat.lt_of_lt_of_le r.isLt (by norm_num)),
      Nat.mod_eq_of_lt (Nat.lt_of_lt_of_le c.isLt (by norm_num))] at h'
    exact Fin.ext h'
  · rintro rfl; rfl

/-- The row's own entry: the sum of the row with every entry off the diagonal replaced by zero. -/
theorem pay2_apply (v13 : FVec Ideal S1024x1024 .f32) (e : Fin 1024 → Fin 1024 → ℝ)
    (he : ∀ r c, v13 (ix2 r c) = ((e r c : ℝ) : EReal)) (r : Fin 1024) :
    Gen.k0_pay2 (F := Ideal) v13 (ix2 r (0 : Fin 1)) = ((e r r : ℝ) : EReal) := by
  unfold Gen.k0_pay2
  refine (rowSum_apply _ _ _ r 0).trans ?_
  have hs : ∀ c : Fin 1024,
      select (cmpi .eq (iota .tc S1024x1024 32 [0] Gen.iota_S1024x1024_d0_w32)
          (iota .tc S1024x1024 32 [1] Gen.iota_S1024x1024_d1_w32))
        v13 (broadcast S1024x1024 (Scalar.ofBits (F := Ideal) .f32 0x00000000#32)) (ix2 r c)
      = (((if r = c then e r c else 0) : ℝ) : EReal) := by
    intro c
    rw [select_cmpi_eq_apply, iota_single_apply, iota_single_apply, he, broadcast_apply]
    show (if BitVec.ofNat 32 r.val = BitVec.ofNat 32 c.val then ((e r c : ℝ) : EReal)
      else Ideal.ofBits .f32 0x00000000#32) = _
    rw [Ideal.ofBits_zero_f32]
    by_cases h : r = c
    · rw [if_pos ((ofNat_eq_iff r c).2 h), if_pos h]
    · rw [if_neg (fun h' => h ((ofNat_eq_iff r c).1 h')), if_neg h, EReal.coe_zero]
  rw [Finset.sum_congr rfl fun c _ => hs c, ← UnitRowExp.coe_sum, Finset.sum_ite_eq Finset.univ r (e r),
    if_pos (Finset.mem_univ r)]

/-- On a diagonal tile the denominator's accumulator gives up the row's own entry. -/
theorem pay3_apply (v13 : FVec Ideal S1024x1024 .f32) (v50 : Vec Ideal S1024x1 .f32)
    (e : Fin 1024 → Fin 1024 → ℝ) (acc : Fin 1024 → ℝ)
    (he : ∀ r c, v13 (ix2 r c) = ((e r c : ℝ) : EReal))
    (hacc : ∀ r, v50 (ix2 r (0 : Fin 1)) = ((acc r : ℝ) : EReal)) (r : Fin 1024) :
    Gen.k0_pay3 (F := Ideal) v13 v50 (ix2 r (0 : Fin 1)) = ((acc r - e r r : ℝ) : EReal) := by
  unfold Gen.k0_pay3
  rw [shapeCast_self]
  refine (subf_apply _ _ _).trans ?_
  rw [pay2_apply v13 e he, hacc, ← EReal.coe_sub]

/-- And so does the numerator's: the row carries its own label. -/
theorem pay4_apply (v13 : FVec Ideal S1024x1024 .f32) (v55 : Vec Ideal S1024x1 .f32)
    (e : Fin 1024 → Fin 1024 → ℝ) (acc : Fin 1024 → ℝ)
    (he : ∀ r c, v13 (ix2 r c) = ((e r c : ℝ) : EReal))
    (hacc : ∀ r, v55 (ix2 r (0 : Fin 1)) = ((acc r : ℝ) : EReal)) (r : Fin 1024) :
    Gen.k0_pay4 (F := Ideal) v13 v55 (ix2 r (0 : Fin 1)) = ((acc r - e r r : ℝ) : EReal) := by
  unfold Gen.k0_pay4
  rw [shapeCast_self]
  refine (subf_apply _ _ _).trans ?_
  rw [pay2_apply v13 e he, hacc, ← EReal.coe_sub]

/-! ## The row's result -/

/-- The lower clamp of the numerator is the real number 10⁻¹². -/
theorem tiny_eq : (Named.named (F := Ideal) κ "inv_1000000000000" (φ := .f32) 0x2B8CBCCC#32 : Ideal .f32)
    = ((1 / 1000000000000 : ℝ) : EReal) := rfl

/-- The logarithm of the denominator over the numerator; a numerator above 10⁻¹² is not clamped, and the
    quotient of two positive reals is a positive real. -/
theorem pay5_apply (v43 v46 : Vec Ideal S1024x1 .f32) (n d : Fin 1024 → ℝ)
    (hn : ∀ r, v43 (ix2 r (0 : Fin 1)) = ((n r : ℝ) : EReal)) (hd : ∀ r, v46 (ix2 r (0 : Fin 1)) = ((d r : ℝ) : EReal))
    (hn' : ∀ r, (1 / 1000000000000 : ℝ) < n r) (hd' : ∀ r, 0 < d r) (r : Fin 1024) :
    Gen.k0_pay5 (F := Ideal) v43 v46 (ix2 r (0 : Fin 1)) = ((Real.log (d r / n r) : ℝ) : EReal) := by
  unfold Gen.k0_pay5
  show Ideal.log (Ideal.div (v46 (ix2 r (0 : Fin 1)))
    (max (v43 (ix2 r (0 : Fin 1))) (Named.named (F := Ideal) κ "inv_1000000000000" (φ := .f32) 0x2B8CBCCC#32))) = _
  have hnpos : 0 < n r := lt_trans (by norm_num) (hn' r)
  rw [hn, hd, tiny_eq, max_eq_left (EReal.coe_le_coe_iff.2 (hn' r).le), Ideal.div_coe hnpos.ne', ← EReal.coe_mul,
    mul_one_div, Ideal.log_coe, if_neg (not_le.2 (div_pos (hd' r) hnpos))]

end TileMath
-- ==== Proof.IdealValue.lean ====
/-
  What the region leaves in its result array, read at the extended reals.

  The grid has 8 × 8 points; point t pairs row block qi = t / 8 with column block ki = t % 8, each of 1024
  rows of the stacked, normalised array. Along a row block the two accumulators start from zero at ki = 0,
  gain at each point the block's row sums (all entries; the entries whose column carries the row's label),
  and on the diagonal point lose the row's own entry. After the last column block they hold, for row i,
  the sums over all 8192 columns less the entry (i, i): the denominator and the numerator of the loss, and
  the point writes log (denominator / numerator) to rows qi · 1024 … qi · 1024 + 1023 of the result.
-/
import proofs.«161181_j22351009808686_2_alg».proof.Proof.IdealBodyData
import proofs.«161181_j22351009808686_2_alg».proof.Proof.TileMath
import proofs.«161181_j22351009808686_2_alg».proof.Proof.ContrastiveSpec
import Idealize.ShloMosaic.Lib.Pipeline.Value
import Idealize.ShloMosaic.Lib.ValueIdx

set_option maxRecDepth 16384

noncomputable section

open Finset BigOperators
open Idealize.ShloMosaic Idealize.ShloMosaic.TcCoe Idealize.SL.Sem Idealize.ShloMosaic.ValueIdx
open Idealize.ShloMosaic.Pipeline (Dat Cfg Window)
open Cert.KernelIdeal Cert.KernelIdeal.Gen

namespace Cert.KernelIdeal.Value2

/-! ## Rows by blocks, and sums by column blocks -/

/-- Row r of block b (blocks counted modulo 8) of the 8192 rows. -/
def row (b : ℕ) (r : Fin 1024) : Fin 8192 := ⟨b % 8 * 1024 + r.val, by have := r.isLt; omega⟩

theorem row_val (b : ℕ) (r : Fin 1024) : (row b r).val = b % 8 * 1024 + r.val := rfl

/-- The 8192 rows are 8 blocks of 1024. -/
def rowEquiv : Fin 8 × Fin 1024 ≃ Fin 8192 where
  toFun p := row p.1.val p.2
  invFun j := (⟨j.val / 1024, by have := j.isLt; omega⟩, ⟨j.val % 1024, by omega⟩)
  left_inv p := by
    obtain ⟨b, r⟩ := p
    have hb := b.isLt; have hr := r.isLt
    refine Prod.ext (Fin.ext ?_) (Fin.ext ?_)
    · show (b.val % 8 * 1024 + r.val) / 1024 = b.val; omega
    · show (b.val % 8 * 1024 + r.val) % 1024 = r.val; omega
  right_inv j := Fin.ext (by
    have := j.isLt
    show j.val / 1024 % 8 * 1024 + j.val % 1024 = j.val; omega)

/-- The sum of f over the columns of block kb. -/
def blk (f : Fin 8192 → ℝ) (kb : ℕ) : ℝ := ∑ cc : Fin 1024, f (row kb cc)

/-- The eight blocks' sums make the whole sum. -/
theorem sum_blk (f : Fin 8192 → ℝ) : ∑ kb ∈ Finset.range 8, blk f kb = ∑ j, f j := by
  rw [Finset.sum_range, ← Equiv.sum_comp rowEquiv f, Fintype.sum_prod_type]
  rfl

/-- What an accumulator of row i in row block qi holds after column block ki: the sum of f over the
    columns of blocks 0 … ki, less the row's own entry d once the diagonal block has been passed. -/
def accVal (f : Fin 8192 → ℝ) (d : ℝ) (qi ki : ℕ) : ℝ :=
  (∑ kb ∈ Finset.range (ki + 1), blk f kb) - (if qi ≤ ki then d else 0)

/-- One point's update: from zero at the first column block and from the point before otherwise, add the
    block's sum, and on the diagonal take the row's own entry off. -/
theorem accVal_step (f : Fin 8192 → ℝ) (d : ℝ) (qi ki : ℕ) :
    accVal f d qi ki = ((if ki = 0 then 0 else accVal f d qi (ki - 1)) + blk f ki) - (if qi = ki then d else 0) := by
  unfold accVal
  cases ki with
  | zero =>
    rw [if_pos rfl, Finset.sum_range_one, zero_add]
    by_cases h : qi = 0
    · rw [if_pos (by omega), if_pos h]
    · rw [if_neg (by omega), if_neg h]
  | succ k =>
    rw [if_neg (Nat.succ_ne_zero k), Nat.add_sub_cancel, Finset.sum_range_succ _ (k + 1)]
    by_cases h1 : qi ≤ k
    · rw [if_pos h1, if_pos (by omega), if_neg (by omega)]; ring
    · by_cases h2 : qi = k + 1
      · rw [if_neg h1, if_pos (by omega), if_pos h2]; ring
      · rw [if_neg h1, if_neg (by omega), if_neg h2]; ring

/-- After the last column block: the whole sum less the row's own entry. -/
theorem accVal_last (f : Fin 8192 → ℝ) (d : ℝ) (qi : ℕ) (hq : qi < 8) : accVal f d qi 7 = (∑ j, f j) - d := by
  unfold accVal
  rw [sum_blk, if_pos (by omega)]

/-! ## The blocks the points read -/

variable (V : (c : Dev nD) → (b : Ref sig .tc) → Buf (Elt Ideal) ((c : Thread nD τ).loc b))

theorem N_eq : cfg0.N = 64 := N_0

/-- The printed index maps over the grid: point t reads row block t / 8 (windows 0, 2, 4) and column block
    t % 8 (windows 1, 3). -/
theorem idx_facts : ∀ t : Fin cfg0.N,
    win0_0.index t (0 : Fin 2) = t.val / 8 ∧ win0_0.index t (1 : Fin 2) = 0
    ∧ win0_1.index t (0 : Fin 2) = t.val % 8 ∧ win0_1.index t (1 : Fin 2) = 0
    ∧ win0_2.index t (0 : Fin 2) = t.val / 8 ∧ win0_2.index t (1 : Fin 2) = 0
    ∧ win0_3.index t (0 : Fin 2) = 0 ∧ win0_3.index t (1 : Fin 2) = t.val % 8
    ∧ win0_4.index t (0 : Fin 2) = t.val / 8 ∧ win0_4.index t (1 : Fin 2) = 0 :=
  (by decide +kernel : ∀ t : Fin grid0.N, _)

/-- The query block of point t: rows of block t / 8 of the stacked array. -/
theorem iblk0_apply (c : Dev nD) (t : Fin cfg0.N) (r : Fin 1024) (k : Fin 128) :
    (Body.iblk V c 0 t : Vec Ideal S1024x128 .f32) (ix2 r k)
      = (V c main_v6 : S8192x128.Idx → EReal) (ix2 (row (t.val / 8) r) k) := by
  obtain ⟨e0, e1, -⟩ := idx_facts t
  have ht : t.val < 64 := N_eq ▸ t.isLt
  have hr := r.isLt
  unfold Body.iblk
  rw [View.read_apply]
  show V c main_v6 _ = V c main_v6 _
  congr 1
  funext a
  apply Fin.ext
  match a with
  | ⟨0, _⟩ =>
    show win0_0.index t (0 : Fin 2) * 1024 + 1 * r.val = t.val / 8 % 8 * 1024 + r.val
    rw [e0]; omega
  | ⟨1, _⟩ =>
    show win0_0.index t (1 : Fin 2) * 128 + 1 * k.val = k.val
    rw [e1]; omega

/-- The key block of point t: rows of block t % 8 of the same array. -/
theorem iblk1_apply (c : Dev nD) (t : Fin cfg0.N) (r : Fin 1024) (k : Fin 128) :
    (Body.iblk V c 1 t : Vec Ideal S1024x128 .f32) (ix2 r k)
      = (V c main_v6 : S8192x128.Idx → EReal) (ix2 (row (t.val % 8) r) k) := by
  obtain ⟨-, -, e0, e1, -⟩ := idx_facts t
  have hr := r.isLt
  unfold Body.iblk
  rw [View.read_apply]
  show V c main_v6 _ = V c main_v6 _
  congr 1
  funext a
  apply Fin.ext
  match a with
  | ⟨0, _⟩ =>
    show win0_1.index t (0 : Fin 2) * 1024 + 1 * r.val = t.val % 8 % 8 * 1024 + r.val
    rw [e0]; omega
  | ⟨1, _⟩ =>
    show win0_1.index t (1 : Fin 2) * 128 + 1 * k.val = k.val
    rw [e1]; omega

/-- The row labels of point t: the column of labels at block t / 8. -/
theorem iblk2_apply (c : Dev nD) (t : Fin cfg0.N) (r : Fin 1024) :
    (Body.iblk V c 2 t : Vec Ideal S1024x1 .i32) (ix2 r (0 : Fin 1))
      = (V c main_v7 : S8192x1.Idx → BitVec 32) (ix2 (row (t.val / 8) r) (0 : Fin 1)) := by
  obtain ⟨-, -, -, -, e0, e1, -⟩ := idx_facts t
  have ht : t.val < 64 := N_eq ▸ t.isLt
  have hr := r.isLt
  unfold Body.iblk
  rw [View.read_apply]
  show V c main_v7 _ = V c main_v7 _
  congr 1
  funext a
  apply Fin.ext
  match a with
  | ⟨0, _⟩ =>
    show win0_2.index t (0 : Fin 2) * 1024 + 1 * r.val = t.val / 8 % 8 * 1024 + r.val
    rw [e0]; omega
  | ⟨1, _⟩ =>
    show win0_2.index t (1 : Fin 2) * 1 + 1 * 0 = 0
    rw [e1]

/-- The column labels of point t: the row of labels at block t % 8. -/
theorem iblk3_apply (c : Dev nD) (t : Fin cfg0.N) (r : Fin 1024) :
    (Body.iblk V c 3 t : Vec Ideal S1x1024 .i32) (ix2 (0 : Fin 1) r)
      = (V c main_v8 : S1x8192.Idx → BitVec 32) (ix2 (0 : Fin 1) (row (t.val % 8) r)) := by
  obtain ⟨-, -, -, -, -, -, e0, e1, -⟩ := idx_facts t
  have hr := r.isLt
  unfold Body.iblk
  rw [View.read_apply]
  show V c main_v8 _ = V c main_v8 _
  congr 1
  funext a
  apply Fin.ext
  match a with
  | ⟨0, _⟩ =>
    show win0_3.index t (0 : Fin 2) * 1 + 1 * 0 = 0
    rw [e0]
  | ⟨1, _⟩ =>
    show win0_3.index t (1 : Fin 2) * 1024 + 1 * r.val = t.val % 8 % 8 * 1024 + r.val
    rw [e1]; omega

/-! ## One point's update of the two accumulators -/

variable (a : Fin 8192 → Fin 128 → ℝ) (lab : Fin 8192 → BitVec 32)

/-- The entries of row i at the columns that carry row i's label, zero elsewhere. -/
def masked (i : Fin 8192) : Fin 8192 → ℝ := fun j => if lab j = lab i then ContrastiveSpec.E a i j else 0

/-- The tile of row block qi against column block ki is that part of the array E. -/
theorem tileE_eq (qi ki : ℕ) (r cc : Fin 1024) :
    TileMath.tileE (fun r k => ContrastiveSpec.unit a (row qi r) k) (fun cc k => ContrastiveSpec.unit a (row ki cc) k) r cc
      = ContrastiveSpec.E a (row qi r) (row ki cc) := rfl

/-- A point's update of the pair (labelled sum, whole sum) it starts from. -/
def core (c : Dev nD) (t : Fin cfg0.N) (z : Vec Ideal S1024x1 .f32 × Vec Ideal S1024x1 .f32) :
    Vec Ideal S1024x1 .f32 × Vec Ideal S1024x1 .f32 :=
  if t.val / 8 = t.val % 8 then
    (k0_pay3 (Body.expBlk V c t) (k0_pay9 (Body.iblk V c 0 t) (Body.iblk V c 1 t) (Body.iblk V c 2 t) (Body.iblk V c 3 t) z.1),
      k0_pay4 (Body.expBlk V c t) (k0_pay1 (k0_pay10 (Body.iblk V c 0 t) (Body.iblk V c 1 t) z.2)))
  else
    (k0_pay9 (Body.iblk V c 0 t) (Body.iblk V c 1 t) (Body.iblk V c 2 t) (Body.iblk V c 3 t) z.1,
      k0_pay1 (k0_pay10 (Body.iblk V c 0 t) (Body.iblk V c 1 t) z.2))

theorem accStep_eq_core (c : Dev nD) (t : Fin cfg0.N) (prev : Vec Ideal S1024x1 .f32 × Vec Ideal S1024x1 .f32) :
    Body.accStep V c t prev
      = core V c t (if t.val % 8 = 0 then (k0_pay6 (F := Ideal), k0_pay7 (F := Ideal)) else prev) := rfl

section Step
variable {V a lab}
variable (c : Dev nD)
  (hz : ∀ (r : Fin 8192) (k : Fin 128),
    (V c main_v6 : S8192x128.Idx → EReal) (ix2 r k) = ((ContrastiveSpec.unit a r k : ℝ) : EReal))
  (hcol : ∀ r : Fin 8192, (V c main_v7 : S8192x1.Idx → BitVec 32) (ix2 r (0 : Fin 1)) = lab r)
  (hrow : ∀ r : Fin 8192, (V c main_v8 : S1x8192.Idx → BitVec 32) (ix2 (0 : Fin 1) r) = lab r)
include hz

/-- The whole sum after a point: what it started from plus the block's row sum, less the row's own entry on
    the diagonal. -/
theorem core_snd_apply (t : Fin cfg0.N) (z : Vec Ideal S1024x1 .f32 × Vec Ideal S1024x1 .f32) (zd : Fin 1024 → ℝ)
    (h2 : ∀ r, z.2 (ix2 r (0 : Fin 1)) = ((zd r : ℝ) : EReal)) (r : Fin 1024) :
    (core V c t z).2 (ix2 r (0 : Fin 1))
      = (((zd r + blk (ContrastiveSpec.E a (row (t.val / 8) r)) (t.val % 8))
          - (if t.val / 8 = t.val % 8 then ContrastiveSpec.E a (row (t.val / 8) r) (row (t.val / 8) r) else 0) : ℝ) : EReal) := by
  have hq : ∀ r k, (Body.iblk V c 0 t : Vec Ideal S1024x128 .f32) (ix2 r k)
      = ((ContrastiveSpec.unit a (row (t.val / 8) r) k : ℝ) : EReal) := fun r k => (iblk0_apply V c t r k).trans (hz _ _)
  have hk : ∀ cc k, (Body.iblk V c 1 t : Vec Ideal S1024x128 .f32) (ix2 cc k)
      = ((ContrastiveSpec.unit a (row (t.val % 8) cc) k : ℝ) : EReal) := fun cc k => (iblk1_apply V c t cc k).trans (hz _ _)
  have h10 : ∀ r, (k0_pay1 (k0_pay10 (Body.iblk V c 0 t) (Body.iblk V c 1 t) z.2) : Vec Ideal S1024x1 .f32) (ix2 r (0 : Fin 1))
      = ((zd r + blk (ContrastiveSpec.E a (row (t.val / 8) r)) (t.val % 8) : ℝ) : EReal) := fun r => by
    rw [TileMath.pay1_eq]
    exact TileMath.pay10_apply _ _ _ _ _ zd hq hk h2 r
  by_cases hd : t.val / 8 = t.val % 8
  · have hc : core V c t z = (k0_pay3 (Body.expBlk V c t) (k0_pay9 (Body.iblk V c 0 t) (Body.iblk V c 1 t) (Body.iblk V c 2 t) (Body.iblk V c 3 t) z.1),
        k0_pay4 (Body.expBlk V c t) (k0_pay1 (k0_pay10 (Body.iblk V c 0 t) (Body.iblk V c 1 t) z.2))) := by
      unfold core; rw [if_pos hd]
    rw [hc, if_pos hd]
    have he : ∀ r cc, (Body.expBlk V c t) (ix2 r cc)
        = ((ContrastiveSpec.E a (row (t.val / 8) r) (row (t.val % 8) cc) : ℝ) : EReal) := fun r cc =>
      TileMath.pay8_apply _ _ _ _ hq hk r cc
    have := TileMath.pay4_apply (Body.expBlk V c t) _ (fun r cc => ContrastiveSpec.E a (row (t.val / 8) r) (row (t.val % 8) cc)) _ he h10 r
    have hdiag : ContrastiveSpec.E a (row (t.val / 8) r) (row (t.val % 8) r)
        = ContrastiveSpec.E a (row (t.val / 8) r) (row (t.val / 8) r) := by rw [← hd]
    exact this.trans (by rw [hdiag])
  · have hc : core V c t z = (k0_pay9 (Body.iblk V c 0 t) (Body.iblk V c 1 t) (Body.iblk V c 2 t) (Body.iblk V c 3 t) z.1,
        k0_pay1 (k0_pay10 (Body.iblk V c 0 t) (Body.iblk V c 1 t) z.2)) := by
      unfold core; rw [if_neg hd]
    rw [hc, if_neg hd, sub_zero]
    exact h10 r
end Step

section Step1
variable {V a lab}
variable (c : Dev nD)
  (hz : ∀ (r : Fin 8192) (k : Fin 128),
    (V c main_v6 : S8192x128.Idx → EReal) (ix2 r k) = ((ContrastiveSpec.unit a r k : ℝ) : EReal))
  (hcol : ∀ r : Fin 8192, (V c main_v7 : S8192x1.Idx → BitVec 32) (ix2 r (0 : Fin 1)) = lab r)
  (hrow : ∀ r : Fin 8192, (V c main_v8 : S1x8192.Idx → BitVec 32) (ix2 (0 : Fin 1) r) = lab r)
include hz hcol hrow

/-- The labelled sum after a point: what it started from plus the sum of the block's row over the columns
    with the row's label, less the row's own entry on the diagonal. -/
theorem core_fst_apply (t : Fin cfg0.N) (z : Vec Ideal S1024x1 .f32 × Vec Ideal S1024x1 .f32) (zn : Fin 1024 → ℝ)
    (h1 : ∀ r, z.1 (ix2 r (0 : Fin 1)) = ((zn r : ℝ) : EReal)) (r : Fin 1024) :
    (core V c t z).1 (ix2 r (0 : Fin 1))
      = (((zn r + blk (masked a lab (row (t.val / 8) r)) (t.val % 8))
          - (if t.val / 8 = t.val % 8 then ContrastiveSpec.E a (row (t.val / 8) r) (row (t.val / 8) r) else 0) : ℝ) : EReal) := by
  have hq : ∀ r k, (Body.iblk V c 0 t : Vec Ideal S1024x128 .f32) (ix2 r k)
      = ((ContrastiveSpec.unit a (row (t.val / 8) r) k : ℝ) : EReal) := fun r k => (iblk0_apply V c t r k).trans (hz _ _)
  have hk : ∀ cc k, (Body.iblk V c 1 t : Vec Ideal S1024x128 .f32) (ix2 cc k)
      = ((ContrastiveSpec.unit a (row (t.val % 8) cc) k : ℝ) : EReal) := fun cc k => (iblk1_apply V c t cc k).trans (hz _ _)
  have hql : ∀ r, (Body.iblk V c 2 t : Vec Ideal S1024x1 .i32) (ix2 r (0 : Fin 1)) = lab (row (t.val / 8) r) :=
    fun r => (iblk2_apply V c t r).trans (hcol _)
  have hkl : ∀ cc, (Body.iblk V c 3 t : Vec Ideal S1x1024 .i32) (ix2 (0 : Fin 1) cc) = lab (row (t.val % 8) cc) :=
    fun cc => (iblk3_apply V c t cc).trans (hrow _)
  have h9 : ∀ r, (k0_pay9 (Body.iblk V c 0 t) (Body.iblk V c 1 t) (Body.iblk V c 2 t) (Body.iblk V c 3 t) z.1 : Vec Ideal S1024x1 .f32)
        (ix2 r (0 : Fin 1))
      = ((zn r + blk (masked a lab (row (t.val / 8) r)) (t.val % 8) : ℝ) : EReal) := fun r => by
    refine (TileMath.pay9_apply _ _ _ _ _ _ _ (fun r => lab (row (t.val / 8) r)) (fun cc => lab (row (t.val % 8) cc)) zn
      hq hk hql hkl h1 r).trans ?_
    refine congrArg (fun x : ℝ => ((zn r + x : ℝ) : EReal)) ?_
    exact Finset.sum_congr rfl fun cc _ => if_congr eq_comm rfl rfl
  by_cases hd : t.val / 8 = t.val % 8
  · have hc : core V c t z = (k0_pay3 (Body.expBlk V c t) (k0_pay9 (Body.iblk V c 0 t) (Body.iblk V c 1 t) (Body.iblk V c 2 t) (Body.iblk V c 3 t) z.1),
        k0_pay4 (Body.expBlk V c t) (k0_pay1 (k0_pay10 (Body.iblk V c 0 t) (Body.iblk V c 1 t) z.2))) := by
      unfold core; rw [if_pos hd]
    rw [hc, if_pos hd]
    have he : ∀ r cc, (Body.expBlk V c t) (ix2 r cc)
        = ((ContrastiveSpec.E a (row (t.val / 8) r) (row (t.val % 8) cc) : ℝ) : EReal) := fun r cc =>
      TileMath.pay8_apply _ _ _ _ hq hk r cc
    have := TileMath.pay3_apply (Body.expBlk V c t) _ (fun r cc => ContrastiveSpec.E a (row (t.val / 8) r) (row (t.val % 8) cc)) _ he h9 r
    have hdiag : ContrastiveSpec.E a (row (t.val / 8) r) (row (t.val % 8) r)
        = ContrastiveSpec.E a (row (t.val / 8) r) (row (t.val / 8) r) := by rw [← hd]
    exact this.trans (by rw [hdiag])
  · have hc : core V c t z = (k0_pay9 (Body.iblk V c 0 t) (Body.iblk V c 1 t) (Body.iblk V c 2 t) (Body.iblk V c 3 t) z.1,
        k0_pay1 (k0_pay10 (Body.iblk V c 0 t) (Body.iblk V c 1 t) z.2)) := by
      unfold core; rw [if_neg hd]
    rw [hc, if_neg hd, sub_zero]
    exact h9 r
end Step1

/-! ## The accumulators along a row block -/

section Inv
variable {V a lab}
variable (c : Dev nD)
  (hz : ∀ (r : Fin 8192) (k : Fin 128),
    (V c main_v6 : S8192x128.Idx → EReal) (ix2 r k) = ((ContrastiveSpec.unit a r k : ℝ) : EReal))
  (hcol : ∀ r : Fin 8192, (V c main_v7 : S8192x1.Idx → BitVec 32) (ix2 r (0 : Fin 1)) = lab r)
  (hrow : ∀ r : Fin 8192, (V c main_v8 : S1x8192.Idx → BitVec 32) (ix2 (0 : Fin 1) r) = lab r)
include hz hcol hrow

/-- One point keeps the closed form: if (past the first column block) the accumulators hold the sums up to the
    column block before, after the point they hold the sums up to this one. -/
theorem accStep_inv (t : Fin cfg0.N) (prev : Vec Ideal S1024x1 .f32 × Vec Ideal S1024x1 .f32)
    (hprev : ¬t.val % 8 = 0 → ∀ r : Fin 1024,
      prev.1 (ix2 r (0 : Fin 1)) = ((accVal (masked a lab (row (t.val / 8) r))
          (ContrastiveSpec.E a (row (t.val / 8) r) (row (t.val / 8) r)) (t.val / 8) (t.val % 8 - 1) : ℝ) : EReal)
      ∧ prev.2 (ix2 r (0 : Fin 1)) = ((accVal (ContrastiveSpec.E a (row (t.val / 8) r))
          (ContrastiveSpec.E a (row (t.val / 8) r) (row (t.val / 8) r)) (t.val / 8) (t.val % 8 - 1) : ℝ) : EReal))
    (r : Fin 1024) :
    (Body.accStep V c t prev).1 (ix2 r (0 : Fin 1)) = ((accVal (masked a lab (row (t.val / 8) r))
        (ContrastiveSpec.E a (row (t.val / 8) r) (row (t.val / 8) r)) (t.val / 8) (t.val % 8) : ℝ) : EReal)
    ∧ (Body.accStep V c t prev).2 (ix2 r (0 : Fin 1)) = ((accVal (ContrastiveSpec.E a (row (t.val / 8) r))
        (ContrastiveSpec.E a (row (t.val / 8) r) (row (t.val / 8) r)) (t.val / 8) (t.val % 8) : ℝ) : EReal) := by
  rw [accStep_eq_core]
  by_cases h0 : t.val % 8 = 0
  · rw [if_pos h0]
    refine ⟨?_, ?_⟩
    · rw [accVal_step, if_pos h0]
      exact core_fst_apply c hz hcol hrow t _ (fun _ => 0) (fun r => TileMath.pay6_apply r) r
    · rw [accVal_step, if_pos h0]
      exact core_snd_apply c hz t _ (fun _ => 0) (fun r => TileMath.pay7_apply r) r
  · rw [if_neg h0]
    refine ⟨?_, ?_⟩
    · rw [accVal_step, if_neg h0]
      exact core_fst_apply c hz hcol hrow t prev _ (fun r => (hprev h0 r).1) r
    · rw [accVal_step, if_neg h0]
      exact core_snd_apply c hz t prev _ (fun r => (hprev h0 r).2) r

/-- After point n the accumulators of row block n / 8 hold the sums over the column blocks 0 … n % 8. -/
theorem acc_inv : ∀ (n : ℕ) (hn : n < cfg0.N) (r : Fin 1024),
    (Body.accAt V c n hn).1 (ix2 r (0 : Fin 1)) = ((accVal (masked a lab (row (n / 8) r))
        (ContrastiveSpec.E a (row (n / 8) r) (row (n / 8) r)) (n / 8) (n % 8) : ℝ) : EReal)
    ∧ (Body.accAt V c n hn).2 (ix2 r (0 : Fin 1)) = ((accVal (ContrastiveSpec.E a (row (n / 8) r))
        (ContrastiveSpec.E a (row (n / 8) r) (row (n / 8) r)) (n / 8) (n % 8) : ℝ) : EReal)
  | 0, hn, r => by
    rw [Body.accAt_zero]
    exact accStep_inv c hz hcol hrow ⟨0, hn⟩ _ (fun h => (h rfl).elim) r
  | n + 1, hn, r => by
    rw [Body.accAt_succ]
    refine accStep_inv c hz hcol hrow ⟨n + 1, hn⟩ _ (fun h0 r' => ?_) r
    have h0' : ¬(n + 1) % 8 = 0 := h0
    have e1 : (n + 1) / 8 = n / 8 := by omega
    have e2 : (n + 1) % 8 - 1 = n % 8 := by omega
    have ih := acc_inv n (Nat.lt_of_succ_lt hn) r'
    rw [← e1, ← e2] at ih
    exact ih
end Inv

/-! ## The block a last point writes, and the array -/

section Out
variable {V a lab}
variable (c : Dev nD)
  (hz : ∀ (r : Fin 8192) (k : Fin 128),
    (V c main_v6 : S8192x128.Idx → EReal) (ix2 r k) = ((ContrastiveSpec.unit a r k : ℝ) : EReal))
  (hcol : ∀ r : Fin 8192, (V c main_v7 : S8192x1.Idx → BitVec 32) (ix2 r (0 : Fin 1)) = lab r)
  (hrow : ∀ r : Fin 8192, (V c main_v8 : S1x8192.Idx → BitVec 32) (ix2 (0 : Fin 1) r) = lab r)
  (hnum : ∀ i, (1 / 1000000000000 : ℝ) < ContrastiveSpec.num a lab i)
  (hden : ∀ i, 0 < ContrastiveSpec.den a i)
include hz hcol hrow hnum hden

/-- At a last column block the accumulators hold the row's numerator and denominator, and the point's output
    block is the logarithm of their quotient. -/
theorem outAt_apply (t : Fin cfg0.N) (h7 : t.val % 8 = 7) (r : Fin 1024) :
    (Body.outAt V c t : Vec Ideal S1024x1 .f32) (ix2 r (0 : Fin 1))
      = ((Real.log (ContrastiveSpec.den a (row (t.val / 8) r) / ContrastiveSpec.num a lab (row (t.val / 8) r)) : ℝ) : EReal) := by
  have ht : t.val < 64 := N_eq ▸ t.isLt
  have hN : ∀ r, (Body.accAt V c t.val t.isLt).1 (ix2 r (0 : Fin 1))
      = ((ContrastiveSpec.num a lab (row (t.val / 8) r) : ℝ) : EReal) := fun r => by
    rw [(acc_inv c hz hcol hrow t.val t.isLt r).1, h7, accVal_last _ _ _ (by omega), ContrastiveSpec.num_eq]
    rfl
  have hD : ∀ r, (Body.accAt V c t.val t.isLt).2 (ix2 r (0 : Fin 1))
      = ((ContrastiveSpec.den a (row (t.val / 8) r) : ℝ) : EReal) := fun r => by
    rw [(acc_inv c hz hcol hrow t.val t.isLt r).2, h7, accVal_last _ _ _ (by omega), ContrastiveSpec.den_eq]
  unfold Body.outAt
  exact TileMath.pay5_apply _ _ (fun r => ContrastiveSpec.num a lab (row (t.val / 8) r))
    (fun r => ContrastiveSpec.den a (row (t.val / 8) r)) hN hD (fun r => hnum _) (fun r => hden _) r
end Out

/-- The result array: at row i, the logarithm of the row's denominator over its numerator. -/
def G : S8192x1.Idx → EReal := fun i =>
  ((Real.log (ContrastiveSpec.den a ⟨(i 0).val, idx2_lt0 i⟩ / ContrastiveSpec.num a lab ⟨(i 0).val, idx2_lt0 i⟩) : ℝ) : EReal)

/-- An index of the result array is in point t's block when its row is in row block t / 8. -/
theorem mem_blk4 (t : Fin cfg0.N) (i : S8192x1.Idx) :
    i ∈ ((cfg0.win 4).blk t).view.set ↔ ∀ ax : Fin 2, win0_4.index t ax * S1024x1.size ax ≤ (i ax).val
      ∧ (i ax).val < win0_4.index t ax * S1024x1.size ax + S1024x1.size ax := by
  show i ∈ ((View.whole main_v9).slice (win0_4.rect t)).set ↔ _
  rw [View.set_slice_whole, Rect.mem_set_unit]
  exact Iff.rfl

/-- Row i is written by the last point of its row block. -/
theorem cover4 (i : S8192x1.Idx) :
    ∃ t : Fin cfg0.N, (cfg0.win 4).flush t = true ∧ i ∈ ((cfg0.win 4).blk t).view.set := by
  have hi0 : (i 0).val < 8192 := idx2_lt0 i
  have hi1 : (i 1).val < 1 := idx2_lt1 i
  have hlt : (i 0).val / 1024 * 8 + 7 < cfg0.N := by rw [N_eq]; omega
  obtain ⟨t, ht⟩ : ∃ t : Fin cfg0.N, t.val = (i 0).val / 1024 * 8 + 7 := ⟨⟨_, hlt⟩, rfl⟩
  obtain ⟨-, -, -, -, -, -, -, -, e0, e1⟩ := idx_facts t
  refine ⟨t, (flush0_4 t).mpr (by omega), ?_⟩
  rw [mem_blk4]
  intro ax
  match ax with
  | ⟨0, _⟩ =>
    show win0_4.index t (0 : Fin 2) * 1024 ≤ (i 0).val ∧ (i 0).val < win0_4.index t (0 : Fin 2) * 1024 + 1024
    rw [e0]; omega
  | ⟨1, _⟩ =>
    show win0_4.index t (1 : Fin 2) * 1 ≤ (i 1).val ∧ (i 1).val < win0_4.index t (1 : Fin 2) * 1 + 1
    rw [e1]; omega

section Final
variable {V a lab}
variable (c : Dev nD)
  (hz : ∀ (r : Fin 8192) (k : Fin 128),
    (V c main_v6 : S8192x128.Idx → EReal) (ix2 r k) = ((ContrastiveSpec.unit a r k : ℝ) : EReal))
  (hcol : ∀ r : Fin 8192, (V c main_v7 : S8192x1.Idx → BitVec 32) (ix2 r (0 : Fin 1)) = lab r)
  (hrow : ∀ r : Fin 8192, (V c main_v8 : S1x8192.Idx → BitVec 32) (ix2 (0 : Fin 1) r) = lab r)
  (hnum : ∀ i, (1 / 1000000000000 : ℝ) < ContrastiveSpec.num a lab i)
  (hden : ∀ i, 0 < ContrastiveSpec.den a i)
include hz hcol hrow hnum hden

/-- What a last point writes back is its block of the result array. -/
theorem flushed4_eq (t : Fin cfg0.N) (hf : (cfg0.win 4).flush t = true) :
    (Body.dat0 V c).flushed 4 t = ((cfg0.win 4).blk t).view.read (Elt Ideal) (G a lab) := by
  have h7 : t.val % 8 = 7 := (flush0_4 t).mp hf
  have ht : t.val < 64 := N_eq ▸ t.isLt
  obtain ⟨-, -, -, -, -, -, -, -, e0, e1⟩ := idx_facts t
  show (cfg0.win 4).cut (grid0.coords t) ((Body.dat0 V c).after 4 t) = _
  rw [Body.after0_4]
  refine funext fun (j : S1024x1.Idx) => ?_
  obtain ⟨r, u, rfl⟩ : ∃ (r : Fin 1024) (u : Fin 1), j = ix2 r u := ⟨j 0, j 1, eq_ix2 j⟩
  obtain rfl : u = 0 := Subsingleton.elim _ _
  show (Body.outAt V c t : Vec Ideal S1024x1 .f32) (ix2 r (0 : Fin 1))
    = G a lab (((cfg0.win 4).blk t).view.emb (ix2 r (0 : Fin 1)))
  rw [outAt_apply c hz hcol hrow hnum hden t h7 r]
  have hi : (⟨((((cfg0.win 4).blk t).view.emb (ix2 r (0 : Fin 1)) : S8192x1.Idx) 0).val, idx2_lt0 _⟩ : Fin 8192)
      = row (t.val / 8) r := Fin.ext (by
    have hr := r.isLt
    show win0_4.index t (0 : Fin 2) * 1024 + 1 * r.val = t.val / 8 % 8 * 1024 + r.val
    rw [e0]; omega)
  unfold G
  rw [hi]

/-- The region's result array as a whole. -/
theorem region_array : (Body.dat0 V c).arrAt 4 cfg0.N = G a lab :=
  (Body.dat0 V c).arrAt_eq_of_cover 4 (G a lab) (flushed4_eq c hz hcol hrow hnum hden) cover4

/-- The region's result array: at row i, the logarithm of row i's denominator over its numerator. -/
theorem region_result (i : Fin 8192) :
    ((Body.dat0 V c).arrAt 4 cfg0.N : S8192x1.Idx → EReal) (ix2 i (0 : Fin 1))
      = ((Real.log (ContrastiveSpec.den a i / ContrastiveSpec.num a lab i) : ℝ) : EReal) := by
  rw [(Body.dat0 V c).arrAt_eq_of_cover 4 (G a lab) (flushed4_eq c hz hcol hrow hnum hden) cover4]
  rfl
end Final

end Cert.KernelIdeal.Value2
-- ==== Proof.PreDecode.lean ====
import proofs.«161181_j22351009808686_2_alg».proof.Proof.Gen.Pre_finite_inputs
import proofs.«161181_j22351009808686_2_alg».proof.Proof.ContrastiveSpec
import Idealize.ShloMosaic.Lib.ValueIdx
import Idealize.ShloMosaic.Lib.ReduceAll
import Idealize.ShloMosaic.PureOps.Ideal.Laws

open Idealize.ShloMosaic Idealize.ShloMosaic.ValueIdx
open Cert.Pre_finite_inputs
open scoped BigOperators

namespace PreDecode

/-- A left fold by or over one-bit words that came out 1 started at 1 or met a 1. -/
theorem foldl_ori_eq_one {ι : Type} (f : ι → BitVec 1) :
    ∀ (l : List ι) (init : BitVec 1), l.foldl (fun r n => IntOp.ori r (f n)) init = 1#1 → init = 1#1 ∨ ∃ n ∈ l, f n = 1#1
  | [], init, h => Or.inl h
  | a :: l, init, h => by
    rcases foldl_ori_eq_one f l _ h with h1 | ⟨n, hn, hf⟩
    · rcases IntOp.ori_eq_one.1 h1 with hi | ha
      · exact Or.inl hi
      · exact Or.inr ⟨a, List.mem_cons_self, ha⟩
    · exact Or.inr ⟨n, List.mem_cons_of_mem _ hn, hf⟩

/-- A reduction by or from the bit 0 that is 1 at j had a 1 at some operand index that reduces into j. -/
theorem reduce_ori_exists {s t u : Shape} {axes : List (Fin s.rank)} (x : s.Idx → BitVec 1) (init : u.Idx → BitVec 1)
    (h : s.ReducesTo axes t) (hu : 0 < u.numel) (hinit : init (Shape.Idx.first hu) = 0#1)
    (j : t.Idx) (e : Host.reduce IntOp.ori x init h hu j = 1#1) : ∃ i : s.Idx, h.drop i = j ∧ x i = 1#1 := by
  rw [Host.reduce_eq_foldl] at e
  rcases foldl_ori_eq_one x _ _ e with h1 | ⟨i, hi, hx⟩
  · rw [hinit] at h1; exact absurd h1 (by decide)
  · rw [List.mem_filter] at hi
    exact ⟨i, by simpa using hi.2, hx⟩

instance : Subsingleton S_.Idx := ⟨fun a b => funext fun d => d.elim0⟩

theorem ofBool_eq_one {b : Bool} : BitVec.ofBool b = 1#1 ↔ b = true := by cases b <;> decide

/-- An extended real whose absolute value is below +∞ is a real number. -/
theorem real_of_abs_lt_top (x : EReal)
    (h : Ideal.cmp .olt (max x (-x)) (Ideal.ofBits .f32 0x7F800000#32) = 1#1) : x = ((x.toReal : ℝ) : EReal) := by
  have htop : Ideal.ofBits .f32 0x7F800000#32 = ⊤ := by simp [Ideal.ofBits, Ideal.ieee]
  rw [htop] at h
  simp only [Ideal.cmp, ofBool_eq_one, decide_eq_true_eq] at h
  induction x using EReal.rec with
  | bot => simp at h
  | top => simp at h
  | coe r => simp

/-- Every entry of an array all of whose absolute values are below +∞ is a real number. -/
theorem real_entries [Facts] (x : FVec Ideal S4096x128 .f32)
    (hA : Host.reduce IntOp.andi (cmpf .olt (Host.absf x) (broadcastInDim S4096x128 ![] Facts.bcast_S_S4096x128 (constant S_ .f32 0x7F800000#32)))
      (constantI S_ 1 1#1) Facts.reducesTo_S4096x128_S_d0_1 Facts.h_S_ ix0 = 1#1) (i : S4096x128.Idx) :
    x i = ((x i).toReal : EReal) := by
  have h1 := Host.reduce_andi_all _ _ _ _ ix0 hA i
  exact real_of_abs_lt_top (x i) h1

/-- The index of row r with column k inserted is (r, k). -/
theorem lift_row (hR : S4096x128.Reduces [1] S4096) (r : Fin 4096) (k : Fin 128) : hR.lift (ix1 r) k = ix2 r k := by
  funext a; refine Fin.ext ?_
  match a with
  | ⟨0, _⟩ => rfl
  | ⟨1, _⟩ => rfl

/-- A row's sum of squares, positive in the extended reals, is positive as a real number. -/
theorem rowsq_pos [Facts] (x : FVec Ideal S4096x128 .f32) (rr : Fin 4096 → Fin 128 → ℝ)
    (hx : ∀ r k, x (ix2 r k) = ((rr r k : ℝ) : EReal))
    (hC : Host.reduce IntOp.andi (cmpf .ogt (Host.reduceAdd (mulf x x) (constant S_ .f32 0#32) Facts.reducesTo_S4096x128_S4096_d1 Facts.h_S_)
        (broadcastInDim S4096 ![] Facts.bcast_S_S4096 (constant S_ .f32 0#32))) (constantI S_ 1 1#1) Facts.reducesTo_S4096_S_d0 Facts.h_S_ ix0 = 1#1)
    (r : Fin 4096) : 0 < ∑ k, rr r k * rr r k := by
  have h1 := Host.reduce_andi_all _ _ _ _ ix0 hC (ix1 r)
  have hR : S4096x128.Reduces [1] S4096 := by decide
  change Ideal.cmp .ogt (Ideal.hostReduceAdd Facts.reducesTo_S4096x128_S4096_d1 (mulf x x) (Ideal.ofBits .f32 0#32) (ix1 r))
    (Ideal.ofBits .f32 0#32) = 1#1 at h1
  rw [Ideal.hostReduceAdd_single _ hR, Ideal.ofBits_zero_f32, zero_add] at h1
  simp only [Ideal.cmp, ofBool_eq_one, decide_eq_true_eq] at h1
  have hs : (∑ k : Fin (S4096x128.size 1), mulf x x (hR.lift (ix1 r) k)) = ((∑ k : Fin 128, rr r k * rr r k : ℝ) : EReal) := by
    rw [UnitRowExp.coe_sum]
    show (∑ k : Fin 128, mulf x x (hR.lift (ix1 r) k)) = _
    refine Finset.sum_congr rfl fun k _ => ?_
    have e := hx r k
    rw [lift_row hR r k, mulf_apply, e, EReal.coe_mul]
  rw [hs] at h1
  exact EReal.coe_pos.1 h1

/-- A column vector stretched along the rows reads, at (r, c), the vector's entry r. -/
theorem bcast_col_apply [Facts] {α : Type} (y : S8192.Idx → α) (q : S8192x8192.Idx) :
    broadcastInDim S8192x8192 ![0, 1] Facts.bcast_S8192x1_S8192x8192_0_1 (broadcastInDim S8192x1 ![0] Facts.bcast_S8192_S8192x1_0 y) q
      = y (ix1 (q 0)) := by
  unfold broadcastInDim
  refine congrArg y (funext fun a => Fin.ext ?_)
  match a with
  | ⟨0, _⟩ => rfl

/-- A row vector stretched down the columns reads, at (r, c), the vector's entry c. -/
theorem bcast_row_apply [Facts] {α : Type} (y : S8192.Idx → α) (q : S8192x8192.Idx) :
    broadcastInDim S8192x8192 ![0, 1] Facts.bcast_S1x8192_S8192x8192_0_1 (broadcastInDim S1x8192 ![1] Facts.bcast_S8192_S1x8192_1 y) q
      = y (ix1 (q 1)) := by
  unfold broadcastInDim
  refine congrArg y (funext fun a => Fin.ext ?_)
  match a with
  | ⟨0, _⟩ => rfl

/-- Every row has another row with its label. -/
theorem label_exists [Facts] (x2 : IVec S8192 32)
    (hE : Host.reduce IntOp.andi
        (Host.reduce IntOp.ori
          (andi
            (cmpi CmpIPredicate.eq (broadcastInDim S8192x8192 ![0, 1] Facts.bcast_S8192x1_S8192x8192_0_1 (broadcastInDim S8192x1 ![0] Facts.bcast_S8192_S8192x1_0 x2))
              (broadcastInDim S8192x8192 ![0, 1] Facts.bcast_S1x8192_S8192x8192_0_1 (broadcastInDim S1x8192 ![1] Facts.bcast_S8192_S1x8192_1 x2)))
            (cmpi CmpIPredicate.ne
              (broadcastInDim S8192x8192 ![0, 1] Facts.bcast_S8192x1_S8192x8192_0_1 (broadcastInDim S8192x1 ![0] Facts.bcast_S8192_S8192x1_0 (iotaInDim S8192 32 0)))
              (broadcastInDim S8192x8192 ![0, 1] Facts.bcast_S1x8192_S8192x8192_0_1 (broadcastInDim S1x8192 ![1] Facts.bcast_S8192_S1x8192_1 (iotaInDim S8192 32 0)))))
          (constantI S_ 1 0#1) Facts.reducesTo_S8192x8192_S8192_d1 Facts.h_S_)
        (constantI S_ 1 1#1) Facts.reducesTo_S8192_S_d0 Facts.h_S_ ix0 = 1#1)
    (i : Fin 8192) : ∃ j : Fin 8192, j ≠ i ∧ x2 (ix1 j) = x2 (ix1 i) := by
  have h1 := Host.reduce_andi_all _ _ _ _ ix0 hE (ix1 i)
  obtain ⟨q, hq, hx⟩ := reduce_ori_exists _ _ _ _ rfl _ h1
  have hq0 : q 0 = i := by
    refine Fin.ext ?_
    have e := Shape.ReducesTo.drop_apply_val_of_eq Facts.reducesTo_S8192x8192_S8192_d1 q 0 0
    rw [hq] at e
    exact e.symm
  change IntOp.andi (IntOp.cmpi .eq (broadcastInDim S8192x8192 ![0, 1] Facts.bcast_S8192x1_S8192x8192_0_1 (broadcastInDim S8192x1 ![0] Facts.bcast_S8192_S8192x1_0 x2) q)
      (broadcastInDim S8192x8192 ![0, 1] Facts.bcast_S1x8192_S8192x8192_0_1 (broadcastInDim S1x8192 ![1] Facts.bcast_S8192_S1x8192_1 x2) q))
    (IntOp.cmpi .ne (broadcastInDim S8192x8192 ![0, 1] Facts.bcast_S8192x1_S8192x8192_0_1 (broadcastInDim S8192x1 ![0] Facts.bcast_S8192_S8192x1_0 (iotaInDim S8192 32 0)) q)
      (broadcastInDim S8192x8192 ![0, 1] Facts.bcast_S1x8192_S8192x8192_0_1 (broadcastInDim S1x8192 ![1] Facts.bcast_S8192_S1x8192_1 (iotaInDim S8192 32 0)) q)) = 1#1 at hx
  rw [bcast_col_apply, bcast_row_apply, bcast_col_apply, bcast_row_apply, IntOp.andi_eq_one, IntOp.cmpi_eq, IntOp.cmpi_ne, hq0] at hx
  obtain ⟨hlab, hne⟩ := hx
  refine ⟨q 1, fun hji => hne ?_, hlab.symm⟩
  rw [hji]

/-- What the precondition says of the three arguments: the two arrays' entries are real numbers, every row of
    the stacked array has a positive sum of squares, and every row has another row carrying its label. -/
theorem decode [Cert.Pre_finite_inputs.Facts]
    (x0 x1 : FVec Ideal Cert.Pre_finite_inputs.S4096x128 .f32) (x2 : IVec Cert.Pre_finite_inputs.S8192 32)
    (h : Cert.Pre_finite_inputs.fn (F := Ideal) x0 x1 x2 = fun _ => 1#1) :
    ∃ (r0 r1 : Fin 4096 → Fin 128 → ℝ),
      (∀ r k, x0 (ix2 r k) = ((r0 r k : ℝ) : EReal)) ∧ (∀ r k, x1 (ix2 r k) = ((r1 r k : ℝ) : EReal)) ∧
      (∀ r, 0 < ContrastiveSpec.sq (ContrastiveSpec.stack r0 r1) r) ∧
      (∀ i : Fin 8192, ∃ j : Fin 8192, j ≠ i ∧ x2 (ix1 j) = x2 (ix1 i)) := by
  have h0 := congrFun h ix0
  dsimp only [fn, fn_part1] at h0
  simp only [andi, IntOp.andi_eq_one] at h0
  obtain ⟨⟨⟨⟨hA, hB⟩, hC⟩, hD⟩, hE⟩ := h0
  have e0 : ∀ (r : Fin 4096) (k : Fin 128), x0 (ix2 r k) = (((x0 (ix2 r k)).toReal : ℝ) : EReal) :=
    fun r k => real_entries x0 hA (ix2 r k)
  have e1 : ∀ (r : Fin 4096) (k : Fin 128), x1 (ix2 r k) = (((x1 (ix2 r k)).toReal : ℝ) : EReal) :=
    fun r k => real_entries x1 hB (ix2 r k)
  refine ⟨fun r k => (x0 (ix2 r k)).toReal, fun r k => (x1 (ix2 r k)).toReal, e0, e1, ?_, label_exists x2 hE⟩
  intro r
  unfold ContrastiveSpec.sq ContrastiveSpec.stack
  by_cases hr : r.val < 4096
  · simp only [dif_pos hr]
    exact rowsq_pos x0 _ e0 hC ⟨r.val, hr⟩
  · simp only [dif_neg hr]
    exact rowsq_pos x1 _ e1 hD ⟨r.val - 4096, by have := r.isLt; omega⟩

end PreDecode
-- ==== Proof.IdealBridge.lean ====
/-
  Under the precondition, both programs' results are the loss of ContrastiveSpec.

  The precondition gives two real arrays behind the two float arguments, every row of their stack with a positive
  sum of squares, and every row with another row of its label. The kernel program's host lines hand the region the
  stack of unit rows and the labels as a column and as a row; the region writes, at row i, the logarithm of row i's
  sum over the other columns divided by its sum over the other columns with its label; the last host lines sum
  that column and divide by 16384: the loss. The reference program, run on the same arguments, computes the same
  number.
-/
import proofs.«161181_j22351009808686_2_alg».proof.Proof.IdealHost
import proofs.«161181_j22351009808686_2_alg».proof.Proof.IdealValue
import proofs.«161181_j22351009808686_2_alg».proof.Proof.PreDecode
import proofs.«161181_j22351009808686_2_alg».proof.Proof.RefValue

set_option maxRecDepth 16384

noncomputable section

namespace Cert.KernelIdeal.Bridge

open Cert.KernelIdeal Cert.KernelIdeal.Gen Cert.KernelIdeal.Launch
open Idealize.ShloMosaic Idealize.ShloMosaic.TcCoe Idealize.ShloMosaic.ValueIdx
open Idealize.SL.Sem
open Idealize.ShloMosaic.Pipeline (Dat Cfg)

variable (m : (ℓ : Loc nD τ sig) → Buf (Elt Ideal) ℓ) (ρ : Dev nD → PrngReg) (c : Dev nD)

set_option quotPrecheck false in
local notation "X0" => (m ((c : Thread nD τ).loc main_arg0) : (⟨S4096x128, .f32⟩ : BufTy).Contents (Elt Ideal))
set_option quotPrecheck false in
local notation "X1" => (m ((c : Thread nD τ).loc main_arg1) : (⟨S4096x128, .f32⟩ : BufTy).Contents (Elt Ideal))
set_option quotPrecheck false in
local notation "X2" => (m ((c : Thread nD τ).loc main_arg2) : (⟨S8192, .i32⟩ : BufTy).Contents (Elt Ideal))

/-- Under the precondition the kernel program's result is the loss of the two real arrays behind its arguments. -/
theorem kernel_result
    (hpre : Cert.Pre_finite_inputs.fn (F := Ideal) (m ((c : Thread nD τ).loc main_arg0))
      (m ((c : Thread nD τ).loc main_arg1)) (m ((c : Thread nD τ).loc main_arg2)) = fun _ => 1#1) :
    ∃ (r0 r1 : Fin 4096 → Fin 128 → ℝ),
      (∀ (r : Fin 4096) (k : Fin 128), X0 (ix2 r k) = ((r0 r k : ℝ) : EReal)) ∧
      (∀ (r : Fin 4096) (k : Fin 128), X1 (ix2 r k) = ((r1 r k : ℝ) : EReal)) ∧
      (∀ r, 0 < ContrastiveSpec.sq (ContrastiveSpec.stack r0 r1) r) ∧
      (∀ i : Fin 8192, ∃ j : Fin 8192, j ≠ i ∧ X2 (ix1 j) = X2 (ix1 i)) ∧
      W3 m ρ (Body.dat0 (V1 m ρ)) c (Proc.devRef .tc main_v11)
        = fun _ => ((ContrastiveSpec.loss (ContrastiveSpec.stack r0 r1) (fun r => X2 (ix1 r)) : ℝ) : EReal) := by
  obtain ⟨r0, r1, h0, h1, hpos, hlab⟩ := PreDecode.decode _ _ _ hpre
  refine ⟨r0, r1, h0, h1, hpos, hlab, ?_⟩
  have hnum : ∀ i, (1 / 1000000000000 : ℝ)
      < ContrastiveSpec.num (ContrastiveSpec.stack r0 r1) (fun r => X2 (ix1 r)) i :=
    fun i => ContrastiveSpec.tiny_lt_num hpos i (hlab i)
  have hden : ∀ i, 0 < ContrastiveSpec.den (ContrastiveSpec.stack r0 r1) i :=
    fun i => RefValue.den_pos _ i (let ⟨j, hj, _⟩ := hlab i; ⟨j, hj⟩)
  have hreg := Value2.region_result (V := V1 m ρ) (a := ContrastiveSpec.stack r0 r1) (lab := fun r => X2 (ix1 r)) c
    (fun r k => Host.entry_rows m ρ c r0 r1 h0 h1 hpos r k) (fun r => Host.entry_col m ρ c r)
    (fun r => Host.entry_row m ρ c r) hnum hden
  exact Host.result_eq m ρ (Body.dat0 (V1 m ρ)) c
    (fun i => Real.log (ContrastiveSpec.den (ContrastiveSpec.stack r0 r1) i
      / ContrastiveSpec.num (ContrastiveSpec.stack r0 r1) (fun r => X2 (ix1 r)) i)) hreg

/-- The reference program, run on the same three arguments, has the same loss for its result. -/
theorem reference_result
    (m' : (ℓ : Loc Cert.ReferenceIdeal.nD Cert.ReferenceIdeal.τ Cert.ReferenceIdeal.sig) → Buf (Elt Ideal) ℓ)
    (hag0 : m' ((c.tc : Thread Cert.ReferenceIdeal.nD Cert.ReferenceIdeal.τ).loc Cert.ReferenceIdeal.main_arg0)
      = m ((c.tc : Thread nD τ).loc main_arg0))
    (hag1 : m' ((c.tc : Thread Cert.ReferenceIdeal.nD Cert.ReferenceIdeal.τ).loc Cert.ReferenceIdeal.main_arg1)
      = m ((c.tc : Thread nD τ).loc main_arg1))
    (hag2 : m' ((c.tc : Thread Cert.ReferenceIdeal.nD Cert.ReferenceIdeal.τ).loc Cert.ReferenceIdeal.main_arg2)
      = m ((c.tc : Thread nD τ).loc main_arg2))
    (r0 r1 : Fin 4096 → Fin 128 → ℝ)
    (h0 : ∀ (r : Fin 4096) (k : Fin 128), X0 (ix2 r k) = ((r0 r k : ℝ) : EReal))
    (h1 : ∀ (r : Fin 4096) (k : Fin 128), X1 (ix2 r k) = ((r1 r k : ℝ) : EReal))
    (hpos : ∀ r, 0 < ContrastiveSpec.sq (ContrastiveSpec.stack r0 r1) r)
    (hlab : ∀ i : Fin 8192, ∃ j : Fin 8192, j ≠ i ∧ X2 (ix1 j) = X2 (ix1 i)) :
    (Cert.ReferenceIdeal.Value.res_main_v36 m' c : (⟨Cert.ReferenceIdeal.S_, .f32⟩ : BufTy).Contents (Elt Ideal))
      = fun _ => ((ContrastiveSpec.loss (ContrastiveSpec.stack r0 r1) (fun r => X2 (ix1 r)) : ℝ) : EReal) := by
  refine (Cert.ReferenceIdeal.Read.val_main_v36_eq m' c).trans ?_
  refine RefValue.ref_eq r0 r1 (fun r => X2 (ix1 r)) _ _ _ ?_ ?_ ?_ hpos hlab
  · intro r k; rw [hag0]; exact h0 r k
  · intro r k; rw [hag1]; exact h1 r k
  · intro r; rw [hag2]

end Cert.KernelIdeal.Bridge

end
-- ==== Proof.lean ====
/-
  The five claims of this certificate, assembled.

  Both programs take two arrays of 4096 rows by 128 columns and 8192 labels. Each stacks the two arrays,
  divides every row by its Euclidean length, and with E i j = exp (2 · ⟨z i, z j⟩) returns the mean over
  the rows i of log (den i / num i), where den i sums E i j over the other rows j and num i over the other
  rows carrying row i's label. The precondition says that every entry is finite, every row has a nonzero
  entry, and every label occurs on at least two rows; under it every inner product of two normalised rows
  lies in [-1, 1] (Cauchy–Schwarz), so num i ≥ exp (-2) > 10⁻¹² and the kernel's lower clamp of num at
  10⁻¹² never acts, and all the sums are sums of real numbers.

  The kernel visits the 8 × 8 blocks of the matrix E row block by row block. Along a row of blocks it keeps
  the two partial row sums in two accumulators — set to zero at the first column block, the diagonal entry
  taken off again at the diagonal block — and at the last column block stores log (den / num) for its 1024
  rows. Run around that region, the host lines before it compute the stacked normalised rows and lay the
  labels out as a column and as a row, the lines after it sum the 8192 logarithms and divide by 16384.

  * The three frames: each program runs to the end, faults nowhere, and leaves its arguments as they were
    (for the two kernel programs from the run of the program around its region, for the reference from its
    run as a sequence of host operations).
  * The kernel's one named constant, 10⁻¹², is what its table says.
  * The value: the kernel program's result and the reference's are both the loss above, read in the
    extended reals.
-/
import proofs.«161181_j22351009808686_2_alg».proof.Defs
import proofs.«161181_j22351009808686_2_alg».proof.Proof.Gen.Kernel
import proofs.«161181_j22351009808686_2_alg».proof.Proof.Gen.Kernel.Skeleton
import proofs.«161181_j22351009808686_2_alg».proof.Proof.Gen.Kernel.Launch
import proofs.«161181_j22351009808686_2_alg».proof.Proof.Gen.Kernel.Points
import proofs.«161181_j22351009808686_2_alg».proof.Proof.Gen.KernelIdeal
import proofs.«161181_j22351009808686_2_alg».proof.Proof.Gen.KernelIdeal.Skeleton
import proofs.«161181_j22351009808686_2_alg».proof.Proof.Gen.KernelIdeal.Launch
import proofs.«161181_j22351009808686_2_alg».proof.Proof.Gen.KernelIdeal.Points
import proofs.«161181_j22351009808686_2_alg».proof.Proof.Gen.ReferenceIdeal
import proofs.«161181_j22351009808686_2_alg».proof.Proof.Gen.ReferenceIdeal.Read
import proofs.«161181_j22351009808686_2_alg».proof.Proof.Gen.Pre_finite_inputs
import proofs.«161181_j22351009808686_2_alg».proof.Proof.IdealLaunch
import proofs.«161181_j22351009808686_2_alg».proof.Proof.BitsLaunch
import proofs.«161181_j22351009808686_2_alg».proof.Proof.IdealHostArgs
import proofs.«161181_j22351009808686_2_alg».proof.Proof.BitsHostArgs
import proofs.«161181_j22351009808686_2_alg».proof.Proof.IdealBody
import proofs.«161181_j22351009808686_2_alg».proof.Proof.BitsBody
import proofs.«161181_j22351009808686_2_alg».proof.Proof.IdealBridge
import Idealize.ShloMosaic.Adequacy
import Idealize.ShloMosaic.Init

noncomputable section

namespace Cert.Proof

open Idealize.ShloMosaic Idealize.ShloMosaic.TcCoe Idealize.SL.Sem

/-- The word-level kernel program runs to the end and leaves its arguments as they were. -/
theorem frame_p : Cert.frame_Kernel := fun m ρ _ =>
  (θ_run (Cert.Kernel.defs (F := Bits)) _ _).mono (fun r h c =>
    ⟨(h c _ (Cert.Kernel.Launch.mem_uc Cert.Kernel.main_arg0 (by decide))).trans (Cert.Kernel.Host.W3_arg0 m ρ _ c),
     (h c _ (Cert.Kernel.Launch.mem_uc Cert.Kernel.main_arg1 (by decide))).trans (Cert.Kernel.Host.W3_arg1 m ρ _ c),
     (h c _ (Cert.Kernel.Launch.mem_uc Cert.Kernel.main_arg2 (by decide))).trans (Cert.Kernel.Host.W3_arg2 m ρ _ c)⟩)
    (Cert.Kernel.Launch.run m ρ (Cert.Kernel.Body.datFacts (Cert.Kernel.Launch.V1 m ρ)))

/-- So does the idealized kernel program. -/
theorem frame_pi : Cert.frame_KernelIdeal := fun m ρ _ =>
  (θ_run (Cert.KernelIdeal.defs (F := Ideal)) _ _).mono (fun r h c =>
    ⟨(h c _ (Cert.KernelIdeal.Launch.mem_uc Cert.KernelIdeal.main_arg0 (by decide))).trans (Cert.KernelIdeal.Host.W3_arg0 m ρ _ c),
     (h c _ (Cert.KernelIdeal.Launch.mem_uc Cert.KernelIdeal.main_arg1 (by decide))).trans (Cert.KernelIdeal.Host.W3_arg1 m ρ _ c),
     (h c _ (Cert.KernelIdeal.Launch.mem_uc Cert.KernelIdeal.main_arg2 (by decide))).trans (Cert.KernelIdeal.Host.W3_arg2 m ρ _ c)⟩)
    (Cert.KernelIdeal.Launch.run m ρ (Cert.KernelIdeal.Body.datFacts (Cert.KernelIdeal.Launch.V1 m ρ)))

/-- And the reference, a sequence of host operations. -/
theorem frame_ri : Cert.frame_ReferenceIdeal := fun m ρ _ =>
  (θ_run Cert.ReferenceIdeal.defs _ _).mono (fun _ h c => (h c).2) (Cert.ReferenceIdeal.Value.run (F := Ideal) m ρ)

/-- The kernel's lower clamp, named 10⁻¹², denotes that rational in the extended reals. -/
theorem preserves : Cert.preserves_Kernel_KernelIdeal :=
  IdealRules.named_const.statement Cert.KernelIdeal.κ "inv_1000000000000" .f32 0x2B8CBCCC#32 ((1 / 1000000000000 : ℝ) : EReal) rfl

/-- From memories agreeing on the arguments, both idealized programs end with the loss as their result: the
    kernel program by the run around its region, the accumulators' closed form along a row of blocks and the
    host lines' sum; the reference by its operations read one at a time. -/
theorem algebraic : Cert.algebraic_KernelIdeal_ReferenceIdeal := by
  intro m ρ m' ρ' hpre hagree
  refine ⟨fun c => Cert.KernelIdeal.Launch.W3 m ρ (Cert.KernelIdeal.Body.dat0 (Cert.KernelIdeal.Launch.V1 m ρ)) c (Proc.devRef .tc Cert.KernelIdeal.main_v11), ?_, ?_⟩
  · exact (θ_run (Cert.KernelIdeal.defs (F := Ideal)) _ _).mono (fun r h c =>
      ⟨h c _ (Cert.KernelIdeal.Launch.mem_uc Cert.KernelIdeal.main_v11 (by decide)),
       (h c _ (Cert.KernelIdeal.Launch.mem_uc Cert.KernelIdeal.main_arg0 (by decide))).trans (Cert.KernelIdeal.Host.W3_arg0 m ρ _ c),
       (h c _ (Cert.KernelIdeal.Launch.mem_uc Cert.KernelIdeal.main_arg1 (by decide))).trans (Cert.KernelIdeal.Host.W3_arg1 m ρ _ c),
       (h c _ (Cert.KernelIdeal.Launch.mem_uc Cert.KernelIdeal.main_arg2 (by decide))).trans (Cert.KernelIdeal.Host.W3_arg2 m ρ _ c)⟩)
      (Cert.KernelIdeal.Launch.run m ρ (Cert.KernelIdeal.Body.datFacts (Cert.KernelIdeal.Launch.V1 m ρ)))
  · refine (θ_run Cert.ReferenceIdeal.defs _ _).mono (fun r h c => ⟨(h c).1.trans ?_, (h c).2⟩)
      (Cert.ReferenceIdeal.Value.run (F := Ideal) m' ρ')
    obtain ⟨r0, r1, h0, h1, hpos, hlab, hk⟩ := Cert.KernelIdeal.Bridge.kernel_result m ρ c (hpre c)
    exact (Cert.KernelIdeal.Bridge.reference_result m c m' (hagree c).1 (hagree c).2.1 (hagree c).2.2 r0 r1 h0 h1 hpos hlab).trans hk.symm

theorem claim : Cert.Claim :=
  ⟨Cert.Kernel.Gen.facts, Cert.KernelIdeal.Gen.facts, Cert.ReferenceIdeal.Gen.facts, Cert.Pre_finite_inputs.Gen.facts,
    frame_p, frame_pi, frame_ri, preserves, algebraic⟩

end Cert.Proof

end
